-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4096x1024 : Shape := ⟨3, ![2, 4096, 1024]⟩
abbrev S1024x1024 : Shape := ⟨2, ![1024, 1024]⟩
abbrev S_ : Shape := ⟨0, ![]⟩

class Facts : Prop where
  bcast_S_S2x4096x1024 : S_.BroadcastsInDim S2x4096x1024 (![] : Fin 0 → Fin S2x4096x1024.rank)
  reducesTo_S2x4096x1024_S_d0_1_2 : S2x4096x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S1024x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  main_v23

def fn {F : FTy → Type} [FloatOps F] (main_arg0 : FVec F S2x4096x1024 .f32) (main_arg1 : FVec F S1024x1024 .f32) (main_arg2 : FVec F S1024x1024 .f32) (main_arg3 : FVec F S1024x1024 .f32) (main_arg4 : FVec F S1024x1024 .f32) : IVec S_ 1 :=
  let main_v0 : FVec F S2x4096x1024 .f32 := Host.absf main_arg0
  let main_cst : FVec F S_ .f32 := constant S_ .f32 0x7F800000#32
  let main_v1 : FVec F S2x4096x1024 .f32 := broadcastInDim S2x4096x1024 ![] bcast_S_S2x4096x1024 main_cst
  let main_v2 : IVec S2x4096x1024 1 := cmpf .olt main_v0 main_v1
  let main_c : IVec S_ 1 := constantI S_ 1 1#1
  let main_v3 : IVec S_ 1 := (fun x v => Host.reduce IntOp.andi x v reducesTo_S2x4096x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S2x4096x1024 : Shape := ⟨3, ![2, 4096, 1024]⟩
abbrev S1024x1024 : Shape := ⟨2, ![1024, 1024]⟩
abbrev S8192x1024 : Shape := ⟨2, ![8192, 1024]⟩
abbrev S512x1024 : Shape := ⟨2, ![512, 1024]⟩
abbrev S2x512x1024 : Shape := ⟨3, ![2, 512, 1024]⟩
abbrev S2x256x1024 : Shape := ⟨3, ![2, 256, 1024]⟩
abbrev S2x512x1 : Shape := ⟨3, ![2, 512, 1]⟩
abbrev S2x512x256 : Shape := ⟨3, ![2, 512, 256]⟩
abbrev S2x512 : Shape := ⟨2, ![2, 512]⟩
abbrev S1x512x1024 : Shape := ⟨3, ![1, 512, 1024]⟩

abbrev nBuf : Space → Nat
  | .hbm => 17
  | .vmem => 23
  | .smem => 0
  | _ => 0

abbrev bufTy : (tb : Table) → Fin (tcTables nBuf tb) → BufTy
  | .hbm, ⟨0, _⟩ => ⟨S2x4096x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S8192x1024, .f32⟩
  | .hbm, ⟨6, _⟩ => ⟨S1024x1024, .bf16⟩
  | .hbm, ⟨7, _⟩ => ⟨S1024x1024, .bf16⟩
  | .hbm, ⟨8, _⟩ => ⟨S1024x1024, .bf16⟩
  | .hbm, ⟨9, _⟩ => ⟨S1024x1024, .bf16⟩
  | .hbm, ⟨10, _⟩ => ⟨S8192x1024, .bf16⟩
  | .hbm, ⟨11, _⟩ => ⟨S8192x1024, .bf16⟩
  | .hbm, ⟨12, _⟩ => ⟨S8192x1024, .bf16⟩
  | .hbm, ⟨13, _⟩ => ⟨S2x4096x1024, .bf16⟩
  | .hbm, ⟨14, _⟩ => ⟨S2x4096x1024, .bf16⟩
  | .hbm, ⟨15, _⟩ => ⟨S2x4096x1024, .bf16⟩
  | .hbm, ⟨16, _⟩ => ⟨S2x4096x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S2x512x1024, .bf16⟩
  | .local _ .vmem, ⟨12, _⟩ => ⟨S2x512x1024, .bf16⟩
  | .local _ .vmem, ⟨13, _⟩ => ⟨S2x256x1024, .bf16⟩
  | .local _ .vmem, ⟨14, _⟩ => ⟨S2x256x1024, .bf16⟩
  | .local _ .vmem, ⟨15, _⟩ => ⟨S2x256x1024, .bf16⟩
  | .local _ .vmem, ⟨16, _⟩ => ⟨S2x256x1024, .bf16⟩
  | .local _ .vmem, ⟨17, _⟩ => ⟨S1024x1024, .bf16⟩
  | .local _ .vmem, ⟨18, _⟩ => ⟨S2x512x1024, .f32⟩
  | .local _ .vmem, ⟨19, _⟩ => ⟨S2x512x1024, .f32⟩
  | .local _ .vmem, ⟨20, _⟩ => ⟨S2x512x1, .f32⟩
  | .local _ .vmem, ⟨21, _⟩ => ⟨S2x512x1, .f32⟩
  | .local _ .vmem, ⟨22, _⟩ => ⟨S2x512x1024, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg4_1 : Ref sig .tc := ⟨.vmem, 19, rfl⟩
abbrev cc1_scratch0 : Ref sig .tc := ⟨.vmem, 20, rfl⟩
abbrev cc1_scratch1 : Ref sig .tc := ⟨.vmem, 21, rfl⟩
abbrev cc1_scratch2 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem4_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![8, 16], ![false, false]⟩

def k1_cond2 (i : grid1.Coords) : BitVec 1 :=
  let arg1 : BitVec 32 := BitVec.ofNat 32 (i 1).val
  let c15_i32 : BitVec 32 := 15#32
  let v42 : BitVec 1 := Scalar.cmpi .eq arg1 c15_i32
  let v43 : BitVec 32 := Scalar.extui v42
  let c0_i32_34 : BitVec 32 := 0#32
  let v44 : BitVec 1 := Scalar.cmpi .ne v43 c0_i32_34
  v44

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S2x512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S2x256x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2x256x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 1 → Memref sig .tc .vmem S1024x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S2x512x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  shapeCasts_S2x4096x1024_S8192x1024 : S2x4096x1024.ShapeCasts S8192x1024
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S512x1024_S512x1024_0_0 : (Rect.unit (s := S512x1024) ![0, 0] S512x1024.size inb_S512x1024_S512x1024_0_0).PackedRows (EltTy.packing .bf16)
  shapeCasts_S8192x1024_S2x4096x1024 : S8192x1024.ShapeCasts S2x4096x1024
  inb_S2x512x1_S2x512x1_0_0_0 : ∀ a, (![0, 0, 0] : Fin 3 → Nat) a + S2x512x1.size a ≤ S2x512x1.size a
  h_S2x512x1 : 0 < S2x512x1.numel
  shapeCasts_S2x512x1_S2x512x1 : S2x512x1.ShapeCasts S2x512x1
  inb_S2x512x1024_S2x512x1024_0_0_0 : ∀ a, (![0, 0, 0] : Fin 3 → Nat) a + S2x512x1024.size a ≤ S2x512x1024.size a
  h_S2x512x1024 : 0 < S2x512x1024.numel
  shapeCasts_S2x512x1024_S2x512x1024 : S2x512x1024.ShapeCasts S2x512x1024
  inb_S2x256x1024_S2x256x1024_0_0_0 : ∀ a, (![0, 0, 0] : Fin 3 → Nat) a + S2x256x1024.size a ≤ S2x256x1024.size a
  h_S2x256x1024 : 0 < S2x256x1024.numel
  shapeCasts_S2x256x1024_S2x256x1024 : S2x256x1024.ShapeCasts S2x256x1024
  reduces_S2x512x256_S2x512 : S2x512x256.Reduces [2] S2x512
  shapeCasts_S2x512_S2x512x1 : S2x512.ShapeCasts S2x512x1
  broadcasts_S2x512x1_S2x512x256 : S2x512x1.Broadcasts S2x512x256
  broadcasts_S2x512x1_S2x512x1024 : S2x512x1.Broadcasts S2x512x1024
  slices_S2x512x1024_o0_0_0_S1x512x1024 : S2x512x1024.Slices ![0, 0, 0] S1x512x1024
  shapeCasts_S1x512x1024_S512x1024 : S1x512x1024.ShapeCasts S512x1024
  inb_S2x512x1024_S1x512x1024_0_0_0 : ∀ a, (![0, 0, 0] : Fin 3 → Nat) a + S1x512x1024.size a ≤ S2x512x1024.size a
  h_S1x512x1024 : 0 < S1x512x1024.numel
  shapeCasts_S512x1024_S1x512x1024 : S512x1024.ShapeCasts S1x512x1024
  slices_S2x512x1024_o1_0_0_S1x512x1024 : S2x512x1024.Slices ![1, 0, 0] S1x512x1024
  inb_S2x512x1024_S1x512x1024_1_0_0 : ∀ a, (![1, 0, 0] : Fin 3 → Nat) a + S1x512x1024.size a ≤ S2x512x1024.size a
  dot_S512x1024_S1024x1024_S512x1024_1_1_0_0_n_n_wf : DotDims.WF S512x1024 S1024x1024 S512x1024 [1] [1] [0] [0] [] []
  dot_S2x512x1024_S2x256x1024_S2x512x256_2_2_1_1_0_0_wf : DotDims.WF S2x512x1024 S2x256x1024 S2x512x256 [2] [2] [1] [1] [0] [0]
  dot_S2x512x256_S2x256x1024_S2x512x1024_2_1_1_2_0_0_wf : DotDims.WF S2x512x256 S2x256x1024 S2x512x1024 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S8192x1024.size a
  hwx0_4 : ∀ i : grid0.Coords, EltTy.bits .bf16 = 32 ∨ (Rect.block (s := S8192x1024) S512x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S8192x1024.size a
  hwx0_5 : ∀ i : grid0.Coords, EltTy.bits .bf16 = 32 ∨ (Rect.block (s := S8192x1024) S512x1024.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1024.size a ≤ S8192x1024.size a
  hwx0_6 : ∀ i : grid0.Coords, EltTy.bits .bf16 = 32 ∨ (Rect.block (s := S8192x1024) S512x1024.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2x512x1024.size a ≤ S2x4096x1024.size a
  hwx1_0 : ∀ i : grid1.Coords, EltTy.bits .bf16 = 32 ∨ (Rect.block (s := S2x4096x1024) S2x512x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2x256x1024.size a ≤ S2x4096x1024.size a
  hwx1_1 : ∀ i : grid1.Coords, EltTy.bits .bf16 = 32 ∨ (Rect.block (s := S2x4096x1024) S2x256x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2x256x1024.size a ≤ S2x4096x1024.size a
  hwx1_2 : ∀ i : grid1.Coords, EltTy.bits .bf16 = 32 ∨ (Rect.block (s := S2x4096x1024) S2x256x1024.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S1024x1024.size a
  hwx1_3 : ∀ i : grid1.Coords, EltTy.bits .bf16 = 32 ∨ (Rect.block (s := S1024x1024) S1024x1024.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2x512x1024.size a ≤ S2x4096x1024.size a
  hwx1_4 : ∀ i : grid1.Coords, EltTy.bits .f32 = 32 ∨ (Rect.block (s := S2x4096x1024) S2x512x1024.size (cc1_transform_4 i) (hinb1_4 i)).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf
def dot_S2x512x1024_S2x256x1024_S2x512x256_2_2_1_1_0_0 : DotDims S2x512x1024 S2x256x1024 S2x512x256 where
  lhsContracting := [2]
  rhsContracting := [2]
  lhsNonContracting := [1]
  rhsNonContracting := [1]
  lhsBatch := [0]
  rhsBatch := [0]
  wf := dot_S2x512x1024_S2x256x1024_S2x512x256_2_2_1_1_0_0_wf
def dot_S2x512x256_S2x256x1024_S2x512x1024_2_1_1_2_0_0 : DotDims S2x512x256 S2x256x1024 S2x512x1024 where
  lhsContracting := [2]
  rhsContracting := [1]
  lhsNonContracting := [1]
  rhsNonContracting := [2]
  lhsBatch := [0]
  rhsBatch := [0]
  wf := dot_S2x512x256_S2x256x1024_S2x512x1024_2_1_1_2_0_0_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5_0) S512x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5_1) S512x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v5_2) S512x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v6) S2x512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S2x256x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S2x256x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1024x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v9) S2x512x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S2x4096x1024 : Shape := ⟨3, ![2, 4096, 1024]⟩
abbrev S1024x1024 : Shape := ⟨2, ![1024, 1024]⟩
abbrev S2x4096x4096 : Shape := ⟨3, ![2, 4096, 4096]⟩
abbrev S_ : Shape := ⟨0, ![]⟩
abbrev S2x4096 : Shape := ⟨2, ![2, 4096]⟩
abbrev S2x4096x1 : Shape := ⟨3, ![2, 4096, 1]⟩

abbrev nBuf : Space → Nat
  | .hbm => 29
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S2x4096x1024, .f32⟩
  | .hbm, ⟨6, _⟩ => ⟨S2x4096x1024, .f32⟩
  | .hbm, ⟨7, _⟩ => ⟨S2x4096x1024, .f32⟩
  | .hbm, ⟨8, _⟩ => ⟨S2x4096x4096, .f32⟩
  | .hbm, ⟨9, _⟩ => ⟨S_, .f32⟩
  | .hbm, ⟨10, _⟩ => ⟨S_, .f32⟩
  | .hbm, ⟨11, _⟩ => ⟨S2x4096x4096, .f32⟩
  | .hbm, ⟨12, _⟩ => ⟨S2x4096x4096, .f32⟩
  | .hbm, ⟨13, _⟩ => ⟨S_, .f32⟩
  | .hbm, ⟨14, _⟩ => ⟨S2x4096, .f32⟩
  | .hbm, ⟨15, _⟩ => ⟨S_, .f32⟩
  | .hbm, ⟨16, _⟩ => ⟨S2x4096, .f32⟩
  | .hbm, ⟨17, _⟩ => ⟨S2x4096, .f32⟩
  | .hbm, ⟨18, _⟩ => ⟨S2x4096x1, .f32⟩
  | .hbm, ⟨19, _⟩ => ⟨S2x4096x4096, .f32⟩
  | .hbm, ⟨20, _⟩ => ⟨S2x4096x4096, .f32⟩
  | .hbm, ⟨21, _⟩ => ⟨S2x4096x4096, .f32⟩
  | .hbm, ⟨22, _⟩ => ⟨S_, .f32⟩
  | .hbm, ⟨23, _⟩ => ⟨S2x4096, .f32⟩
  | .hbm, ⟨24, _⟩ => ⟨S2x4096x1, .f32⟩
  | .hbm, ⟨25, _⟩ => ⟨S2x4096x4096, .f32⟩
  | .hbm, ⟨26, _⟩ => ⟨S2x4096x4096, .f32⟩
  | .hbm, ⟨27, _⟩ => ⟨S2x4096x1024, .f32⟩
  | .hbm, ⟨28, _⟩ => ⟨S2x4096x1024, .f32⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]

class Facts₀ : Prop where
  bcast_S_S2x4096x4096 : S_.BroadcastsInDim S2x4096x4096 (![] : Fin 0 → Fin S2x4096x4096.rank)
  reducesTo_S2x4096x4096_S2x4096_d2 : S2x4096x4096.ReducesTo [2] S2x4096
  h_S_ : 0 < S_.numel
  bcast_S_S2x4096 : S_.BroadcastsInDim S2x4096 (![] : Fin 0 → Fin S2x4096.rank)
  bcast_S2x4096_S2x4096x1_0_1 : S2x4096.BroadcastsInDim S2x4096x1 (![0, 1] : Fin 2 → Fin S2x4096x1.rank)
  bcast_S2x4096x1_S2x4096x4096_0_1_2 : S2x4096x1.BroadcastsInDim S2x4096x4096 (![0, 1, 2] : Fin 3 → Fin S2x4096x4096.rank)
  dot_S2x4096x1024_S1024x1024_S2x4096x1024_2_1_01_0_n_n_wf : DotDims.WF S2x4096x1024 S1024x1024 S2x4096x1024 [2] [1] [0, 1] [0] [] []
  dot_S2x4096x1024_S2x4096x1024_S2x4096x4096_2_2_1_1_0_0_wf : DotDims.WF S2x4096x1024 S2x4096x1024 S2x4096x4096 [2] [2] [1] [1] [0] [0]
  dot_S2x4096x4096_S2x4096x1024_S2x4096x1024_2_1_1_2_0_0_wf : DotDims.WF S2x4096x4096 S2x4096x1024 S2x4096x1024 [2] [1] [1] [2] [0] [0]

variable [Facts₀]

def dot_S2x4096x1024_S1024x1024_S2x4096x1024_2_1_01_0_n_n : DotDims S2x4096x1024 S1024x1024 S2x4096x1024 where
  lhsContracting := [2]
  rhsContracting := [1]
  lhsNonContracting := [0, 1]
  rhsNonContracting := [0]
  lhsBatch := []
  rhsBatch := []
  wf := dot_S2x4096x1024_S1024x1024_S2x4096x1024_2_1_01_0_n_n_wf
def dot_S2x4096x1024_S2x4096x1024_S2x4096x4096_2_2_1_1_0_0 : DotDims S2x4096x1024 S2x4096x1024 S2x4096x4096 where
  lhsContracting := [2]
  rhsContracting := [2]
  lhsNonContracting := [1]
  rhsNonContracting := [1]
  lhsBatch := [0]
  rhsBatch := [0]
  wf := dot_S2x4096x1024_S2x4096x1024_S2x4096x4096_2_2_1_1_0_0_wf
def dot_S2x4096x4096_S2x4096x1024_S2x4096x1024_2_1_1_2_0_0 : DotDims S2x4096x4096 S2x4096x1024 S2x4096x1024 where
  lhsContracting := [2]
  rhsContracting := [1]
  lhsNonContracting := [1]
  rhsNonContracting := [2]
  lhsBatch := [0]
  rhsBatch := [0]
  wf := dot_S2x4096x4096_S2x4096x1024_S2x4096x1024_2_1_1_2_0_0_wf

class Facts : Prop extends Facts₀ where

variable [Facts]
-- ==== Proof.BitsRegion0.lean ====
/-
  The first kernel region (the fused q/k/v projection, a grid of 16 row blocks), entered with the core's buffers at
  contents `V`: each window's block at a grid point, what the body's three stores leave in the three output buffers
  as functions of the input blocks, the body run once on arbitrary whole staging buffers, the region's proof data and the
  body obligation at a symbolic point.  The region keeps nothing between points.
-/
import proofs.«139794_j13168369730002_2_alg».proof.Proof.Gen.Kernel.Launch
import proofs.«139794_j13168369730002_2_alg».proof.Proof.Gen.Kernel.Skeleton
import proofs.«139794_j13168369730002_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the block was fetched there or is
    the one fetched earlier and left in place (the weights' index never moves). -/
theorem before0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = blk0 V c 3 t) (t : Fin cfg0.N) (d) : dat.before 3 t d = blk0 V c 3 t :=
  (dat.before_in_eq_fetched 3 rfl (fun _ => rfl) (fun _ _ _ => rfl) (fun t => by rw [hafter]; unfold Dat.blockOf blk0; rw [hA]; try rfl) t d).trans
    (by unfold Dat.fetched Dat.blockOf blk0; rw [hA]; try rfl)

/-! ## The body's accesses and what its stores leave -/

/-- The whole 512 × 1024 block. -/
abbrev rA : Rect S512x1024 := Rect.unit (s := S512x1024) ![0, 0] S512x1024.size inb_S512x1024_S512x1024_0_0
/-- The whole 1024 × 1024 weight. -/
abbrev rW : Rect S1024x1024 := Rect.unit (s := S1024x1024) ![0, 0] S1024x1024.size inb_S1024x1024_S1024x1024_0_0

/-- The q output buffer after the body: one store of the whole block. -/
def outQ (x : Vec F S512x1024 .f32) (w : Vec F S1024x1024 .bf16) : Vec F S512x1024 .bf16 :=
  View.canon [⟨rA, k0_pay2 (View.ld x rA) (View.ld w rW)⟩]
/-- The k output buffer after the body. -/
def outK (x : Vec F S512x1024 .f32) (w : Vec F S1024x1024 .bf16) : Vec F S512x1024 .bf16 :=
  View.canon [⟨rA, k0_pay3 (View.ld x rA) (View.ld w rW)⟩]
/-- The v output buffer after the body. -/
def outV (x : Vec F S512x1024 .f32) (w : Vec F S1024x1024 .bf16) : Vec F S512x1024 .bf16 :=
  View.canon [⟨rA, k0_pay4 (View.ld x rA) (View.ld w rW)⟩]

/-- One store of the whole block covers the buffer. -/
theorem coverA (p : Vec F S512x1024 .bf16) (y : S512x1024.Idx) :
    ∃ pc ∈ ([⟨rA, p⟩] : List (View.Piece (Elt F) S512x1024 .bf16)), y ∈ pc.1.set :=
  View.cover_of_tiled [⟨rA, p⟩] S512x1024.size (by rfl) y

/-! ## The body's triple -/

set_option maxHeartbeats 4000000 in
/-- On whole staging memrefs, the four inputs at read contents and the three outputs at anything, the body runs to its
    return with the inputs as they were and each output at its one store. -/
theorem sound_qkv (c : Dev nD) (E : Set ℕ) (i : grid0.Coords)
    (a1 : Memref sig .tc .vmem S512x1024 .f32) (h1 : a1.IsWhole)
    (a2 : Memref sig .tc .vmem S1024x1024 .bf16) (h2 : a2.IsWhole) (a3 : Memref sig .tc .vmem S1024x1024 .bf16) (h3 : a3.IsWhole)
    (a4 : Memref sig .tc .vmem S1024x1024 .bf16) (h4 : a4.IsWhole)
    (a5 : Memref sig .tc .vmem S512x1024 .bf16) (h5 : a5.IsWhole) (a6 : Memref sig .tc .vmem S512x1024 .bf16) (h6 : a6.IsWhole)
    (a7 : Memref sig .tc .vmem S512x1024 .bf16) (h7 : a7.IsWhole)
    (x : Vec F S512x1024 .f32) (wq wk wv : Vec F S1024x1024 .bf16) (K : PUnit → sProp 𝕄) :
    iprop(owns (c : Thread nD τ) a1 fullShare x ∗ owns (c : Thread nD τ) a2 fullShare wq ∗ owns (c : Thread nD τ) a3 fullShare wk
        ∗ owns (c : Thread nD τ) a4 fullShare wv
        ∗ (∃ d, owns (c : Thread nD τ) a5 fullShare d) ∗ (∃ d, owns (c : Thread nD τ) a6 fullShare d) ∗ (∃ d, owns (c : Thread nD τ) a7 fullShare d)
        ∗ (iprop(owns (c : Thread nD τ) a1 fullShare x ∗ owns (c : Thread nD τ) a2 fullShare wq ∗ owns (c : Thread nD τ) a3 fullShare wk
            ∗ owns (c : Thread nD τ) a4 fullShare wv
            ∗ owns (c : Thread nD τ) a5 fullShare (outQ x wq) ∗ owns (c : Thread nD τ) a6 fullShare (outK x wk)
            ∗ owns (c : Thread nD τ) a7 fullShare (outV x wv)) -∗ K ⟨⟩))
      ⊢ wp frame (wpE (defs₀ (F := F)) Variants.none c none) E (cc0__qkv_kernel i a1 h1 a2 h2 a3 h3 a4 h4 a5 h5 a6 h6 a7 h7) K := by
  simp only [cc0__qkv_kernel_eq_skeleton]; unfold cc0__qkv_kernel_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf1; subst hf2; subst hf3; subst hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (coverA _)
  isplitl [H6]
  · iexists _; isplitr
    swap; · iexact H6
    ipureintro
    exact View.read_writes_eq_canon _ _ _ (coverA _)
  iexists _; isplitr
  swap; · iexact H7
  ipureintro
  exact View.read_writes_eq_canon _ _ _ (coverA _)

/-! ## The region's proof data -/

/-- The arrays as the region finds them; after the body at point `t` each input's buffer at its block and each output's at
    its store of the input blocks; nothing kept between points beyond the untouched rest; nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => outQ (blk0 V c 0 t) (blk0 V c 1 t)
    | ⟨5, _⟩ => outK (blk0 V c 0 t) (blk0 V c 2 t)
    | ⟨6, _⟩ => outV (blk0 V c 0 t) (blk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = blk0 V c 3 t := by dsimp only [dat0]
theorem after0_4 (c : Dev nD) (t : Fin cfg0.N) : (dat0 V c).after 4 t = outQ (blk0 V c 0 t) (blk0 V c 1 t) := by dsimp only [dat0]
theorem after0_5 (c : Dev nD) (t : Fin cfg0.N) : (dat0 V c).after 5 t = outK (blk0 V c 0 t) (blk0 V c 2 t) := by dsimp only [dat0]
theorem after0_6 (c : Dev nD) (t : Fin cfg0.N) : (dat0 V c).after 6 t = outV (blk0 V c 0 t) (blk0 V c 3 t) := by dsimp only [dat0]

theorem before0_0 (c : Dev nD) (t : Fin cfg0.N) (d) : (dat0 V c).before 0 t d = blk0 V c 0 t :=
  before0_0_of V (dat0 V c) (A_eq0 V c 0) (after0_0 V c) t d
theorem before0_1 (c : Dev nD) (t : Fin cfg0.N) (d) : (dat0 V c).before 1 t d = blk0 V c 1 t :=
  before0_1_of V (dat0 V c) (A_eq0 V c 1) (after0_1 V c) t d
theorem before0_2 (c : Dev nD) (t : Fin cfg0.N) (d) : (dat0 V c).before 2 t d = blk0 V c 2 t :=
  before0_2_of V (dat0 V c) (A_eq0 V c 2) (after0_2 V c) t d
theorem before0_3 (c : Dev nD) (t : Fin cfg0.N) (d) : (dat0 V c).before 3 t d = blk0 V c 3 t :=
  before0_3_of V (dat0 V c) (A_eq0 V c 3) (after0_3 V c) t d

/-! ## The body obligation, at a symbolic point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_qkv c Set.univ _ _ _ _ _ _ _ _ _ _ _ _ _ _ _ (blk0 V c 0 t) (blk0 V c 1 t) (blk0 V c 2 t) (blk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of the region, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.BitsRegion1Common.lean ====
/-
  The second kernel region (flash attention with the output projection fused into its last step; a grid of 8 query
  blocks × 16 key/value blocks), entered with the core's buffers at contents `V`: what its runs share.  The blocks at a
  grid point; the body's two conditions — "this is the first key/value block", "this is the last" — in closed form over
  the grid; where the output window is idle (everywhere but at the last key/value block); the memrefs the body is called
  with, the three scratch buffers (running maximum, running sum, running accumulator) among them.
-/
import proofs.«139794_j13168369730002_2_alg».proof.Proof.Gen.Kernel.Launch
import proofs.«139794_j13168369730002_2_alg».proof.Proof.Gen.Kernel.Skeleton
import proofs.«139794_j13168369730002_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or left in place. -/
theorem before1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = blk1 V c 3 t) (t : Fin cfg1.N) (d) : dat.before 3 t d = blk1 V c 3 t :=
  (dat.before_in_eq_fetched 3 rfl (fun _ => rfl) (fun _ _ _ => rfl) (fun t => by rw [hafter]; unfold Dat.blockOf blk1; rw [hA]; try rfl) t d).trans
    (by unfold Dat.fetched Dat.blockOf blk1; rw [hA]; try rfl)

end

/-! ## The body's conditions -/

/-- "This is the first key/value block": the scalar chain of the body's first conditional, over the grid coordinates. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 16 = 0 :=
  (by decide +kernel : ∀ t : Fin grid1.N, cond1_0 (grid1.coords t) ↔ t.val % 16 = 0)

/-- "This is the last key/value block". -/
abbrev cond1_1 (i : grid1.Coords) : Prop := k1_cond2 i = 1#1
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Off the last key/value block the output window is idle and is not written back. -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
/-- At the last key/value block it is live. -/
theorem liveAt1_4 : ∀ t : Fin cfg1.N, cond1_1 (grid1.coords t) → cfg1.idle 4 (grid1.coords t) = false := by decide +kernel

/-! ## The memrefs the body is called with -/

abbrev ms1_0 (t : Fin cfg1.N) : Memref sig .tc .vmem S2x512x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2x256x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2x256x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S2x512x1024 .f32 := win1_4.stage (cfg1.slots t 4)
abbrev hs1_4 (t : Fin cfg1.N) : (ms1_4 t).IsWhole := hstage1_4 ((cfg1.slots t 4).cast nbuf1_4)
/-- The running maximum, the running sum and the running accumulator: whole scoped buffers of the kernel's own. -/
abbrev scM : Memref sig .tc .vmem S2x512x1 .f32 := Memref.whole cc1_scratch0
abbrev scL : Memref sig .tc .vmem S2x512x1 .f32 := Memref.whole cc1_scratch1
abbrev scA : Memref sig .tc .vmem S2x512x1024 .f32 := Memref.whole cc1_scratch2
/-- Views through which the contents of the output's buffer and of the three scratch buffers are stated. -/
abbrev VO : View sig .tc .vmem S2x512x1024 .f32 := (Memref.whole cc1_stg4_0 : Memref sig .tc .vmem S2x512x1024 .f32).view
abbrev VM : View sig .tc .vmem S2x512x1 .f32 := scM.view
abbrev VL : View sig .tc .vmem S2x512x1 .f32 := scL.view
abbrev VA : View sig .tc .vmem S2x512x1024 .f32 := scA.view

/-- The other region's staging buffers, each whole at some contents: they ride through this region untouched. -/
abbrev otherStg (c : Dev nD) : sProp 𝕄 := iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f))

/-- The invariant the region is entered with, the three scratch buffers as memrefs owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ d, owns (c : Thread nD τ) scM fullShare d) ∗ (∃ d, owns (c : Thread nD τ) scL fullShare d) ∗ (∃ d, owns (c : Thread nD τ) scA fullShare d)) ∗ (∃ r, prngReg c r)) := by
  unfold Pipeline.ΦA; rw [scopedRest1_eq]; simp only [scM, scL, scA, owns_whole]; try rfl

end Cert.Kernel.Hand

end
-- ==== Proof.BitsRegion1RunA.lean ====
/-
  The flash-attention body run once, at the first key/value block of a query block (the scratch is reset, then updated; the output is left alone).
-/
import proofs.«139794_j13168369730002_2_alg».proof.Proof.BitsRegion1Common

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the three scratch buffers, last first, with the proof that on whole memrefs — the four
    inputs at read contents, the output at contents handed back untouched, the scratch at anything — the body
    runs to its return with the inputs as they were and each stored buffer with its pieces written. -/
noncomputable def kernelRun1_A (c : Dev nD) (i : grid1.Coords) (a2 : Memref sig .tc .vmem S2x512x1024 .bf16) (h2 : a2.IsWhole) (a3 : Memref sig .tc .vmem S2x256x1024 .bf16) (h3 : a3.IsWhole) (a4 : Memref sig .tc .vmem S2x256x1024 .bf16) (h4 : a4.IsWhole) (a5 : Memref sig .tc .vmem S1024x1024 .bf16) (h5 : a5.IsWhole) (a6 : Memref sig .tc .vmem S2x512x1024 .f32) (h6 : a6.IsWhole) (a7 : Memref sig .tc .vmem S2x512x1 .f32) (h7 : a7.IsWhole) (a8 : Memref sig .tc .vmem S2x512x1 .f32) (h8 : a8.IsWhole) (a9 : Memref sig .tc .vmem S2x512x1024 .f32) (h9 : a9.IsWhole) (hc0 : cond1_0 i) (hc1 : ¬cond1_1 i)
    (xq : Vec F S2x512x1024 .bf16) (xk : Vec F S2x256x1024 .bf16) (xv : Vec F S2x256x1024 .bf16) (xw : Vec F S1024x1024 .bf16) :
    Σ' (LM : List (View.Piece (Elt F) S2x512x1 .f32)) (LL : List (View.Piece (Elt F) S2x512x1 .f32)), { LA : List (View.Piece (Elt F) S2x512x1024 .f32) //
      ∀ (xo : Vec F S2x512x1024 .f32) (E : Set ℕ) (K : PUnit → sProp 𝕄),
        iprop(owns (c : Thread nD τ) a2 fullShare xq ∗ owns (c : Thread nD τ) a3 fullShare xk ∗ owns (c : Thread nD τ) a4 fullShare xv ∗ owns (c : Thread nD τ) a5 fullShare xw ∗ owns (c : Thread nD τ) a6 fullShare xo
            ∗ (∃ d, owns (c : Thread nD τ) a7 fullShare d) ∗ (∃ d, owns (c : Thread nD τ) a8 fullShare d) ∗ (∃ d, owns (c : Thread nD τ) a9 fullShare d)
            ∗ (iprop(owns (c : Thread nD τ) a2 fullShare xq ∗ owns (c : Thread nD τ) a3 fullShare xk ∗ owns (c : Thread nD τ) a4 fullShare xv ∗ owns (c : Thread nD τ) a5 fullShare xw ∗ owns (c : Thread nD τ) a6 fullShare xo
                ∗ (∃ f, a7.view.loc (c : Thread nD τ) ↦[a7.view.set]{fullShare} a7.view.writes (Elt F) f LM) ∗ (∃ f, a8.view.loc (c : Thread nD τ) ↦[a8.view.set]{fullShare} a8.view.writes (Elt F) f LL) ∗ (∃ f, a9.view.loc (c : Thread nD τ) ↦[a9.view.set]{fullShare} a9.view.writes (Elt F) f LA)) -∗ K ⟨⟩))
          ⊢ wp frame (wpE (defs₀ (F := F)) Variants.none c none) E (cc1__flash_attn_wo_kernel i a2 h2 a3 h3 a4 h4 a5 h5 a6 h6 a7 h7 a8 h8 a9 h9) K } := by
  refine ⟨?_, ?_, ?_, fun xo E K => ?run⟩
  case run =>
    simp only [cc1__flash_attn_wo_kernel_eq_skeleton]; unfold cc1__flash_attn_wo_kernel_skel
    simp only [k1_part1_eq_skeleton]
    unfold owns
    iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
    obtain rfl := h2.eq_unread hf2; obtain rfl := h3.eq_unread hf3; obtain rfl := h4.eq_unread hf4; obtain rfl := h5.eq_unread hf5; obtain rfl := h6.eq_unread hf6
    sl_exec (disch := first | exact hc0 | exact hc1)
    sl_step
    iapply Hk
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]; · iexists _; iexact H7
    isplitl [H8]; · iexists _; iexact H8
    iexists _; iexact H9

end Cert.Kernel.Hand

end
-- ==== Proof.BitsRegion1RunB.lean ====
/-
  The flash-attention body run once, at a middle key/value block (the scratch is updated from what the block before left; the output is left alone).
-/
import proofs.«139794_j13168369730002_2_alg».proof.Proof.BitsRegion1RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the three scratch buffers, last first, with the proof that on whole memrefs — the four
    inputs at read contents, the output at contents handed back untouched, the scratch at what the block before left — the body
    runs to its return with the inputs as they were and each stored buffer with its pieces written. -/
noncomputable def kernelRun1_B (c : Dev nD) (i : grid1.Coords) (a2 : Memref sig .tc .vmem S2x512x1024 .bf16) (h2 : a2.IsWhole) (a3 : Memref sig .tc .vmem S2x256x1024 .bf16) (h3 : a3.IsWhole) (a4 : Memref sig .tc .vmem S2x256x1024 .bf16) (h4 : a4.IsWhole) (a5 : Memref sig .tc .vmem S1024x1024 .bf16) (h5 : a5.IsWhole) (a6 : Memref sig .tc .vmem S2x512x1024 .f32) (h6 : a6.IsWhole) (a7 : Memref sig .tc .vmem S2x512x1 .f32) (h7 : a7.IsWhole) (a8 : Memref sig .tc .vmem S2x512x1 .f32) (h8 : a8.IsWhole) (a9 : Memref sig .tc .vmem S2x512x1024 .f32) (h9 : a9.IsWhole) (hc0 : ¬cond1_0 i) (hc1 : ¬cond1_1 i)
    (xq : Vec F S2x512x1024 .bf16) (xk : Vec F S2x256x1024 .bf16) (xv : Vec F S2x256x1024 .bf16) (xw : Vec F S1024x1024 .bf16) (sm : Vec F S2x512x1 .f32) (sl : Vec F S2x512x1 .f32) (sa : Vec F S2x512x1024 .f32) :
    Σ' (LM : List (View.Piece (Elt F) S2x512x1 .f32)) (LL : List (View.Piece (Elt F) S2x512x1 .f32)), { LA : List (View.Piece (Elt F) S2x512x1024 .f32) //
      ∀ (xo : Vec F S2x512x1024 .f32) (E : Set ℕ) (K : PUnit → sProp 𝕄),
        iprop(owns (c : Thread nD τ) a2 fullShare xq ∗ owns (c : Thread nD τ) a3 fullShare xk ∗ owns (c : Thread nD τ) a4 fullShare xv ∗ owns (c : Thread nD τ) a5 fullShare xw ∗ owns (c : Thread nD τ) a6 fullShare xo
            ∗ owns (c : Thread nD τ) a7 fullShare sm ∗ owns (c : Thread nD τ) a8 fullShare sl ∗ owns (c : Thread nD τ) a9 fullShare sa
            ∗ (iprop(owns (c : Thread nD τ) a2 fullShare xq ∗ owns (c : Thread nD τ) a3 fullShare xk ∗ owns (c : Thread nD τ) a4 fullShare xv ∗ owns (c : Thread nD τ) a5 fullShare xw ∗ owns (c : Thread nD τ) a6 fullShare xo
                ∗ (∃ f, a7.view.loc (c : Thread nD τ) ↦[a7.view.set]{fullShare} a7.view.writes (Elt F) f LM) ∗ (∃ f, a8.view.loc (c : Thread nD τ) ↦[a8.view.set]{fullShare} a8.view.writes (Elt F) f LL) ∗ (∃ f, a9.view.loc (c : Thread nD τ) ↦[a9.view.set]{fullShare} a9.view.writes (Elt F) f LA)) -∗ K ⟨⟩))
          ⊢ wp frame (wpE (defs₀ (F := F)) Variants.none c none) E (cc1__flash_attn_wo_kernel i a2 h2 a3 h3 a4 h4 a5 h5 a6 h6 a7 h7 a8 h8 a9 h9) K } := by
  refine ⟨?_, ?_, ?_, fun xo E K => ?run⟩
  case run =>
    simp only [cc1__flash_attn_wo_kernel_eq_skeleton]; unfold cc1__flash_attn_wo_kernel_skel
    simp only [k1_part1_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
    obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h9.eq_unread hf9
    sl_exec (disch := first | exact hc0 | exact hc1)
    sl_step
    iapply Hk
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]; · iexists _; iexact H7
    isplitl [H8]; · iexists _; iexact H8
    iexists _; iexact H9

end Cert.Kernel.Hand

end
-- ==== Proof.BitsRegion1RunC.lean ====
/-
  The flash-attention body run once, at the last key/value block (the scratch is updated, then the output block is stored from it, one batch slab at a time).
-/
import proofs.«139794_j13168369730002_2_alg».proof.Proof.BitsRegion1RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output buffer and the three scratch buffers, last first, with the proof that on whole memrefs — the four
    inputs at read contents, the output at anything, the scratch at what the block before left — the body
    runs to its return with the inputs as they were and each stored buffer with its pieces written. -/
noncomputable def kernelRun1_C (c : Dev nD) (i : grid1.Coords) (a2 : Memref sig .tc .vmem S2x512x1024 .bf16) (h2 : a2.IsWhole) (a3 : Memref sig .tc .vmem S2x256x1024 .bf16) (h3 : a3.IsWhole) (a4 : Memref sig .tc .vmem S2x256x1024 .bf16) (h4 : a4.IsWhole) (a5 : Memref sig .tc .vmem S1024x1024 .bf16) (h5 : a5.IsWhole) (a6 : Memref sig .tc .vmem S2x512x1024 .f32) (h6 : a6.IsWhole) (a7 : Memref sig .tc .vmem S2x512x1 .f32) (h7 : a7.IsWhole) (a8 : Memref sig .tc .vmem S2x512x1 .f32) (h8 : a8.IsWhole) (a9 : Memref sig .tc .vmem S2x512x1024 .f32) (h9 : a9.IsWhole) (hc0 : ¬cond1_0 i) (hc1 : cond1_1 i)
    (xq : Vec F S2x512x1024 .bf16) (xk : Vec F S2x256x1024 .bf16) (xv : Vec F S2x256x1024 .bf16) (xw : Vec F S1024x1024 .bf16) (sm : Vec F S2x512x1 .f32) (sl : Vec F S2x512x1 .f32) (sa : Vec F S2x512x1024 .f32) :
    Σ' (LO : List (View.Piece (Elt F) S2x512x1024 .f32)) (LM : List (View.Piece (Elt F) S2x512x1 .f32)) (LL : List (View.Piece (Elt F) S2x512x1 .f32)), { LA : List (View.Piece (Elt F) S2x512x1024 .f32) //
      ∀ (E : Set ℕ) (K : PUnit → sProp 𝕄),
        iprop(owns (c : Thread nD τ) a2 fullShare xq ∗ owns (c : Thread nD τ) a3 fullShare xk ∗ owns (c : Thread nD τ) a4 fullShare xv ∗ owns (c : Thread nD τ) a5 fullShare xw ∗ (∃ d, owns (c : Thread nD τ) a6 fullShare d)
            ∗ owns (c : Thread nD τ) a7 fullShare sm ∗ owns (c : Thread nD τ) a8 fullShare sl ∗ owns (c : Thread nD τ) a9 fullShare sa
            ∗ (iprop(owns (c : Thread nD τ) a2 fullShare xq ∗ owns (c : Thread nD τ) a3 fullShare xk ∗ owns (c : Thread nD τ) a4 fullShare xv ∗ owns (c : Thread nD τ) a5 fullShare xw ∗ (∃ f, a6.view.loc (c : Thread nD τ) ↦[a6.view.set]{fullShare} a6.view.writes (Elt F) f LO)
                ∗ (∃ f, a7.view.loc (c : Thread nD τ) ↦[a7.view.set]{fullShare} a7.view.writes (Elt F) f LM) ∗ (∃ f, a8.view.loc (c : Thread nD τ) ↦[a8.view.set]{fullShare} a8.view.writes (Elt F) f LL) ∗ (∃ f, a9.view.loc (c : Thread nD τ) ↦[a9.view.set]{fullShare} a9.view.writes (Elt F) f LA)) -∗ K ⟨⟩))
          ⊢ wp frame (wpE (defs₀ (F := F)) Variants.none c none) E (cc1__flash_attn_wo_kernel i a2 h2 a3 h3 a4 h4 a5 h5 a6 h6 a7 h7 a8 h8 a9 h9) K } := by
  refine ⟨?_, ?_, ?_, ?_, fun E K => ?run⟩
  case run =>
    simp only [cc1__flash_attn_wo_kernel_eq_skeleton]; unfold cc1__flash_attn_wo_kernel_skel
    simp only [k1_part1_eq_skeleton]
    unfold owns
    iintro ⟨⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, Hk⟩
    obtain rfl := h2.eq_unread hf2; obtain rfl := h3.eq_unread hf3; obtain rfl := h4.eq_unread hf4; obtain rfl := h5.eq_unread hf5; obtain rfl := h7.eq_unread hf7; obtain rfl := h8.eq_unread hf8; obtain rfl := h9.eq_unread hf9
    sl_exec (disch := first | exact hc0 | exact hc1)
    sl_step
    iapply Hk
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]; · iexists _; iexact H6
    isplitl [H7]; · iexists _; iexact H7
    isplitl [H8]; · iexists _; iexact H8
    iexists _; iexact H9

end Cert.Kernel.Hand

end
-- ==== Proof.BitsRegion1.lean ====
/-
  The second kernel region (flash attention), entered with the core's buffers at contents `V`: what the output buffer and
  the three scratch buffers hold after each grid point — by recursion on the point, the case (first, middle or last
  key/value block of a query block) chosen by the closed forms —, the invariant that carries the scratch from one
  point to the next, the region's proof data and its body obligation at a symbolic point.
-/
import proofs.«139794_j13168369730002_2_alg».proof.Proof.BitsRegion1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The runs at a grid point -/

/-- The first-block run at point `t`, on the memrefs the body is called with there and the point's input blocks. -/
abbrev runA (c : Dev nD) (t : Fin cfg1.N) (h0 : cond1_0 (grid1.coords t)) (h1 : ¬cond1_1 (grid1.coords t)) :=
  kernelRun1_A (F := F) c (grid1.coords t) (ms1_0 t) (hs1_0 t) (ms1_1 t) (hs1_1 t) (ms1_2 t) (hs1_2 t) (ms1_3 t) (hs1_3 t) (ms1_4 t) (hs1_4 t) scM (Memref.isWhole_whole _) scL (Memref.isWhole_whole _) scA (Memref.isWhole_whole _) h0 h1 (blk1 V c 0 t) (blk1 V c 1 t) (blk1 V c 2 t) (blk1 V c 3 t)
/-- The middle-block run at point `t`, the scratch at `sm`, `sl`, `sa`. -/
abbrev runB (c : Dev nD) (t : Fin cfg1.N) (h0 : ¬cond1_0 (grid1.coords t)) (h1 : ¬cond1_1 (grid1.coords t)) (sm : Vec F S2x512x1 .f32) (sl : Vec F S2x512x1 .f32) (sa : Vec F S2x512x1024 .f32) :=
  kernelRun1_B (F := F) c (grid1.coords t) (ms1_0 t) (hs1_0 t) (ms1_1 t) (hs1_1 t) (ms1_2 t) (hs1_2 t) (ms1_3 t) (hs1_3 t) (ms1_4 t) (hs1_4 t) scM (Memref.isWhole_whole _) scL (Memref.isWhole_whole _) scA (Memref.isWhole_whole _) h0 h1 (blk1 V c 0 t) (blk1 V c 1 t) (blk1 V c 2 t) (blk1 V c 3 t) sm sl sa
/-- The last-block run at point `t`. -/
abbrev runC (c : Dev nD) (t : Fin cfg1.N) (h0 : ¬cond1_0 (grid1.coords t)) (h1 : cond1_1 (grid1.coords t)) (sm : Vec F S2x512x1 .f32) (sl : Vec F S2x512x1 .f32) (sa : Vec F S2x512x1024 .f32) :=
  kernelRun1_C (F := F) c (grid1.coords t) (ms1_0 t) (hs1_0 t) (ms1_1 t) (hs1_1 t) (ms1_2 t) (hs1_2 t) (ms1_3 t) (hs1_3 t) (ms1_4 t) (hs1_4 t) scM (Memref.isWhole_whole _) scL (Memref.isWhole_whole _) scA (Memref.isWhole_whole _) h0 h1 (blk1 V c 0 t) (blk1 V c 1 t) (blk1 V c 2 t) (blk1 V c 3 t) sm sl sa

/-- Contents nothing reads: the output buffer's at a point where the body does not store into it. -/
def unread : Vec F S2x512x1024 .f32 := VO.read (Elt F) VO.junk

/-! ### First block -/
def sM_A (c : Dev nD) (t : Fin cfg1.N) (h0 : cond1_0 (grid1.coords t)) (h1 : ¬cond1_1 (grid1.coords t)) : Vec F S2x512x1 .f32 :=
  VM.read (Elt F) (VM.writes (Elt F) VM.junk (runA V c t h0 h1).1)
def sL_A (c : Dev nD) (t : Fin cfg1.N) (h0 : cond1_0 (grid1.coords t)) (h1 : ¬cond1_1 (grid1.coords t)) : Vec F S2x512x1 .f32 :=
  VL.read (Elt F) (VL.writes (Elt F) VL.junk (runA V c t h0 h1).2.1)
def sAcc_A (c : Dev nD) (t : Fin cfg1.N) (h0 : cond1_0 (grid1.coords t)) (h1 : ¬cond1_1 (grid1.coords t)) : Vec F S2x512x1024 .f32 :=
  VA.read (Elt F) (VA.writes (Elt F) VA.junk (runA V c t h0 h1).2.2.1)
theorem coverM_A (c : Dev nD) (t : Fin cfg1.N) (h0 : cond1_0 (grid1.coords t)) (h1 : ¬cond1_1 (grid1.coords t)) (y : S2x512x1.Idx) :
    ∃ pc ∈ (runA V c t h0 h1).1, y ∈ pc.1.set :=
  View.cover_of_tiledL (runA V c t h0 h1).1 S2x512x1.size (by sl_kernel_rfl) y
theorem coverL_A (c : Dev nD) (t : Fin cfg1.N) (h0 : cond1_0 (grid1.coords t)) (h1 : ¬cond1_1 (grid1.coords t)) (y : S2x512x1.Idx) :
    ∃ pc ∈ (runA V c t h0 h1).2.1, y ∈ pc.1.set :=
  View.cover_of_tiledL (runA V c t h0 h1).2.1 S2x512x1.size (by sl_kernel_rfl) y
theorem coverAcc_A (c : Dev nD) (t : Fin cfg1.N) (h0 : cond1_0 (grid1.coords t)) (h1 : ¬cond1_1 (grid1.coords t)) (y : S2x512x1024.Idx) :
    ∃ pc ∈ (runA V c t h0 h1).2.2.1, y ∈ pc.1.set :=
  View.cover_of_tiledL (runA V c t h0 h1).2.2.1 S2x512x1024.size (by sl_kernel_rfl) y

/-! ### Middle block -/
def sM_B (c : Dev nD) (t : Fin cfg1.N) (h0 : ¬cond1_0 (grid1.coords t)) (h1 : ¬cond1_1 (grid1.coords t)) (sm : Vec F S2x512x1 .f32) (sl : Vec F S2x512x1 .f32) (sa : Vec F S2x512x1024 .f32) : Vec F S2x512x1 .f32 :=
  VM.read (Elt F) (VM.writes (Elt F) VM.junk (runB V c t h0 h1 sm sl sa).1)
def sL_B (c : Dev nD) (t : Fin cfg1.N) (h0 : ¬cond1_0 (grid1.coords t)) (h1 : ¬cond1_1 (grid1.coords t)) (sm : Vec F S2x512x1 .f32) (sl : Vec F S2x512x1 .f32) (sa : Vec F S2x512x1024 .f32) : Vec F S2x512x1 .f32 :=
  VL.read (Elt F) (VL.writes (Elt F) VL.junk (runB V c t h0 h1 sm sl sa).2.1)
def sAcc_B (c : Dev nD) (t : Fin cfg1.N) (h0 : ¬cond1_0 (grid1.coords t)) (h1 : ¬cond1_1 (grid1.coords t)) (sm : Vec F S2x512x1 .f32) (sl : Vec F S2x512x1 .f32) (sa : Vec F S2x512x1024 .f32) : Vec F S2x512x1024 .f32 :=
  VA.read (Elt F) (VA.writes (Elt F) VA.junk (runB V c t h0 h1 sm sl sa).2.2.1)
theorem coverM_B (c : Dev nD) (t : Fin cfg1.N) (h0 : ¬cond1_0 (grid1.coords t)) (h1 : ¬cond1_1 (grid1.coords t)) (sm : Vec F S2x512x1 .f32) (sl : Vec F S2x512x1 .f32) (sa : Vec F S2x512x1024 .f32) (y : S2x512x1.Idx) :
    ∃ pc ∈ (runB V c t h0 h1 sm sl sa).1, y ∈ pc.1.set :=
  View.cover_of_tiledL (runB V c t h0 h1 sm sl sa).1 S2x512x1.size (by sl_kernel_rfl) y
theorem coverL_B (c : Dev nD) (t : Fin cfg1.N) (h0 : ¬cond1_0 (grid1.coords t)) (h1 : ¬cond1_1 (grid1.coords t)) (sm : Vec F S2x512x1 .f32) (sl : Vec F S2x512x1 .f32) (sa : Vec F S2x512x1024 .f32) (y : S2x512x1.Idx) :
    ∃ pc ∈ (runB V c t h0 h1 sm sl sa).2.1, y ∈ pc.1.set :=
  View.cover_of_tiledL (runB V c t h0 h1 sm sl sa).2.1 S2x512x1.size (by sl_kernel_rfl) y
theorem coverAcc_B (c : Dev nD) (t : Fin cfg1.N) (h0 : ¬cond1_0 (grid1.coords t)) (h1 : ¬cond1_1 (grid1.coords t)) (sm : Vec F S2x512x1 .f32) (sl : Vec F S2x512x1 .f32) (sa : Vec F S2x512x1024 .f32) (y : S2x512x1024.Idx) :
    ∃ pc ∈ (runB V c t h0 h1 sm sl sa).2.2.1, y ∈ pc.1.set :=
  View.cover_of_tiledL (runB V c t h0 h1 sm sl sa).2.2.1 S2x512x1024.size (by sl_kernel_rfl) y

/-! ### Last block -/
def sO_C (c : Dev nD) (t : Fin cfg1.N) (h0 : ¬cond1_0 (grid1.coords t)) (h1 : cond1_1 (grid1.coords t)) (sm : Vec F S2x512x1 .f32) (sl : Vec F S2x512x1 .f32) (sa : Vec F S2x512x1024 .f32) : Vec F S2x512x1024 .f32 :=
  VO.read (Elt F) (VO.writes (Elt F) VO.junk (runC V c t h0 h1 sm sl sa).1)
def sM_C (c : Dev nD) (t : Fin cfg1.N) (h0 : ¬cond1_0 (grid1.coords t)) (h1 : cond1_1 (grid1.coords t)) (sm : Vec F S2x512x1 .f32) (sl : Vec F S2x512x1 .f32) (sa : Vec F S2x512x1024 .f32) : Vec F S2x512x1 .f32 :=
  VM.read (Elt F) (VM.writes (Elt F) VM.junk (runC V c t h0 h1 sm sl sa).2.1)
def sL_C (c : Dev nD) (t : Fin cfg1.N) (h0 : ¬cond1_0 (grid1.coords t)) (h1 : cond1_1 (grid1.coords t)) (sm : Vec F S2x512x1 .f32) (sl : Vec F S2x512x1 .f32) (sa : Vec F S2x512x1024 .f32) : Vec F S2x512x1 .f32 :=
  VL.read (Elt F) (VL.writes (Elt F) VL.junk (runC V c t h0 h1 sm sl sa).2.2.1)
def sAcc_C (c : Dev nD) (t : Fin cfg1.N) (h0 : ¬cond1_0 (grid1.coords t)) (h1 : cond1_1 (grid1.coords t)) (sm : Vec F S2x512x1 .f32) (sl : Vec F S2x512x1 .f32) (sa : Vec F S2x512x1024 .f32) : Vec F S2x512x1024 .f32 :=
  VA.read (Elt F) (VA.writes (Elt F) VA.junk (runC V c t h0 h1 sm sl sa).2.2.2.1)
theorem coverO_C (c : Dev nD) (t : Fin cfg1.N) (h0 : ¬cond1_0 (grid1.coords t)) (h1 : cond1_1 (grid1.coords t)) (sm : Vec F S2x512x1 .f32) (sl : Vec F S2x512x1 .f32) (sa : Vec F S2x512x1024 .f32) (y : S2x512x1024.Idx) :
    ∃ pc ∈ (runC V c t h0 h1 sm sl sa).1, y ∈ pc.1.set :=
  View.cover_of_tiledL (runC V c t h0 h1 sm sl sa).1 S1x512x1024.size (by sl_kernel_rfl) y
theorem coverM_C (c : Dev nD) (t : Fin cfg1.N) (h0 : ¬cond1_0 (grid1.coords t)) (h1 : cond1_1 (grid1.coords t)) (sm : Vec F S2x512x1 .f32) (sl : Vec F S2x512x1 .f32) (sa : Vec F S2x512x1024 .f32) (y : S2x512x1.Idx) :
    ∃ pc ∈ (runC V c t h0 h1 sm sl sa).2.1, y ∈ pc.1.set :=
  View.cover_of_tiledL (runC V c t h0 h1 sm sl sa).2.1 S2x512x1.size (by sl_kernel_rfl) y
theorem coverL_C (c : Dev nD) (t : Fin cfg1.N) (h0 : ¬cond1_0 (grid1.coords t)) (h1 : cond1_1 (grid1.coords t)) (sm : Vec F S2x512x1 .f32) (sl : Vec F S2x512x1 .f32) (sa : Vec F S2x512x1024 .f32) (y : S2x512x1.Idx) :
    ∃ pc ∈ (runC V c t h0 h1 sm sl sa).2.2.1, y ∈ pc.1.set :=
  View.cover_of_tiledL (runC V c t h0 h1 sm sl sa).2.2.1 S2x512x1.size (by sl_kernel_rfl) y
theorem coverAcc_C (c : Dev nD) (t : Fin cfg1.N) (h0 : ¬cond1_0 (grid1.coords t)) (h1 : cond1_1 (grid1.coords t)) (sm : Vec F S2x512x1 .f32) (sl : Vec F S2x512x1 .f32) (sa : Vec F S2x512x1024 .f32) (y : S2x512x1024.Idx) :
    ∃ pc ∈ (runC V c t h0 h1 sm sl sa).2.2.2.1, y ∈ pc.1.set :=
  View.cover_of_tiledL (runC V c t h0 h1 sm sl sa).2.2.2.1 S2x512x1024.size (by sl_kernel_rfl) y

/-! ## What the buffers hold after each point -/

/-- After the body at position `n`: the output buffer, the running maximum, the running sum, the running accumulator. -/
def outsAt1 (c : Dev nD) : (n : ℕ) → n < cfg1.N → Vec F S2x512x1024 .f32 × Vec F S2x512x1 .f32 × Vec F S2x512x1 .f32 × Vec F S2x512x1024 .f32
  | 0, hn =>
    have h0 : cond1_0 (grid1.coords ⟨0, hn⟩) := (hcond1_0 ⟨0, hn⟩).mpr (Nat.zero_mod _)
    have h1 : ¬cond1_1 (grid1.coords ⟨0, hn⟩) := fun h => (fun h => by (try dsimp only at h); omega) ((hcond1_1 ⟨0, hn⟩).mp h)
    (unread, sM_A V c ⟨0, hn⟩ h0 h1, sL_A V c ⟨0, hn⟩ h0 h1, sAcc_A V c ⟨0, hn⟩ h0 h1)
  | n + 1, hn =>
    if h0 : (n + 1) % 16 = 0 then
      if h1 : (n + 1) % 16 = 15 then False.elim (by omega)
      else
        (unread, sM_A V c ⟨n + 1, hn⟩ ((hcond1_0 ⟨n + 1, hn⟩).mpr h0) (fun h => h1 ((hcond1_1 ⟨n + 1, hn⟩).mp h)),
          sL_A V c ⟨n + 1, hn⟩ ((hcond1_0 ⟨n + 1, hn⟩).mpr h0) (fun h => h1 ((hcond1_1 ⟨n + 1, hn⟩).mp h)),
          sAcc_A V c ⟨n + 1, hn⟩ ((hcond1_0 ⟨n + 1, hn⟩).mpr h0) (fun h => h1 ((hcond1_1 ⟨n + 1, hn⟩).mp h)))
    else
      if h1 : (n + 1) % 16 = 15 then
        (sO_C V c ⟨n + 1, hn⟩ (fun h => h0 ((hcond1_0 ⟨n + 1, hn⟩).mp h)) ((hcond1_1 ⟨n + 1, hn⟩).mpr h1) (outsAt1 c n (Nat.lt_of_succ_lt hn)).2.1 (outsAt1 c n (Nat.lt_of_succ_lt hn)).2.2.1 (outsAt1 c n (Nat.lt_of_succ_lt hn)).2.2.2,
          sM_C V c ⟨n + 1, hn⟩ (fun h => h0 ((hcond1_0 ⟨n + 1, hn⟩).mp h)) ((hcond1_1 ⟨n + 1, hn⟩).mpr h1) (outsAt1 c n (Nat.lt_of_succ_lt hn)).2.1 (outsAt1 c n (Nat.lt_of_succ_lt hn)).2.2.1 (outsAt1 c n (Nat.lt_of_succ_lt hn)).2.2.2,
          sL_C V c ⟨n + 1, hn⟩ (fun h => h0 ((hcond1_0 ⟨n + 1, hn⟩).mp h)) ((hcond1_1 ⟨n + 1, hn⟩).mpr h1) (outsAt1 c n (Nat.lt_of_succ_lt hn)).2.1 (outsAt1 c n (Nat.lt_of_succ_lt hn)).2.2.1 (outsAt1 c n (Nat.lt_of_succ_lt hn)).2.2.2,
          sAcc_C V c ⟨n + 1, hn⟩ (fun h => h0 ((hcond1_0 ⟨n + 1, hn⟩).mp h)) ((hcond1_1 ⟨n + 1, hn⟩).mpr h1) (outsAt1 c n (Nat.lt_of_succ_lt hn)).2.1 (outsAt1 c n (Nat.lt_of_succ_lt hn)).2.2.1 (outsAt1 c n (Nat.lt_of_succ_lt hn)).2.2.2)
      else
        (unread,
          sM_B V c ⟨n + 1, hn⟩ (fun h => h0 ((hcond1_0 ⟨n + 1, hn⟩).mp h)) (fun h => h1 ((hcond1_1 ⟨n + 1, hn⟩).mp h)) (outsAt1 c n (Nat.lt_of_succ_lt hn)).2.1 (outsAt1 c n (Nat.lt_of_succ_lt hn)).2.2.1 (outsAt1 c n (Nat.lt_of_succ_lt hn)).2.2.2,
          sL_B V c ⟨n + 1, hn⟩ (fun h => h0 ((hcond1_0 ⟨n + 1, hn⟩).mp h)) (fun h => h1 ((hcond1_1 ⟨n + 1, hn⟩).mp h)) (outsAt1 c n (Nat.lt_of_succ_lt hn)).2.1 (outsAt1 c n (Nat.lt_of_succ_lt hn)).2.2.1 (outsAt1 c n (Nat.lt_of_succ_lt hn)).2.2.2,
          sAcc_B V c ⟨n + 1, hn⟩ (fun h => h0 ((hcond1_0 ⟨n + 1, hn⟩).mp h)) (fun h => h1 ((hcond1_1 ⟨n + 1, hn⟩).mp h)) (outsAt1 c n (Nat.lt_of_succ_lt hn)).2.1 (outsAt1 c n (Nat.lt_of_succ_lt hn)).2.2.1 (outsAt1 c n (Nat.lt_of_succ_lt hn)).2.2.2)

/-- What the point before `t` left (used at points that are not the first of a query block). -/
abbrev prev1 (c : Dev nD) (t : Fin cfg1.N) : Vec F S2x512x1024 .f32 × Vec F S2x512x1 .f32 × Vec F S2x512x1 .f32 × Vec F S2x512x1024 .f32 :=
  outsAt1 V c (t.val - 1) (Nat.lt_of_le_of_lt (Nat.sub_le _ _) t.isLt)

theorem outsAt1_A (c : Dev nD) (t : Fin cfg1.N) (h0 : t.val % 16 = 0) (h1 : ¬t.val % 16 = 15) :
    outsAt1 V c t.val t.isLt = (unread, sM_A V c t ((hcond1_0 t).mpr h0) (fun h => h1 ((hcond1_1 t).mp h)),
      sL_A V c t ((hcond1_0 t).mpr h0) (fun h => h1 ((hcond1_1 t).mp h)), sAcc_A V c t ((hcond1_0 t).mpr h0) (fun h => h1 ((hcond1_1 t).mp h))) := by
  obtain ⟨n, hn⟩ := t
  cases n with
  | zero => exact rfl
  | succ n => exact (dif_pos h0).trans ((dif_neg h1).trans rfl)

theorem outsAt1_B (c : Dev nD) (t : Fin cfg1.N) (h0 : ¬t.val % 16 = 0) (h1 : ¬t.val % 16 = 15) :
    outsAt1 V c t.val t.isLt = (unread,
      sM_B V c t (fun h => h0 ((hcond1_0 t).mp h)) (fun h => h1 ((hcond1_1 t).mp h)) (prev1 V c t).2.1 (prev1 V c t).2.2.1 (prev1 V c t).2.2.2,
      sL_B V c t (fun h => h0 ((hcond1_0 t).mp h)) (fun h => h1 ((hcond1_1 t).mp h)) (prev1 V c t).2.1 (prev1 V c t).2.2.1 (prev1 V c t).2.2.2,
      sAcc_B V c t (fun h => h0 ((hcond1_0 t).mp h)) (fun h => h1 ((hcond1_1 t).mp h)) (prev1 V c t).2.1 (prev1 V c t).2.2.1 (prev1 V c t).2.2.2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 16 = 0) (h1 : t.val % 16 = 15) :
    outsAt1 V c t.val t.isLt = (
      sO_C V c t (fun h => h0 ((hcond1_0 t).mp h)) ((hcond1_1 t).mpr h1) (prev1 V c t).2.1 (prev1 V c t).2.2.1 (prev1 V c t).2.2.2,
      sM_C V c t (fun h => h0 ((hcond1_0 t).mp h)) ((hcond1_1 t).mpr h1) (prev1 V c t).2.1 (prev1 V c t).2.2.1 (prev1 V c t).2.2.2,
      sL_C V c t (fun h => h0 ((hcond1_0 t).mp h)) ((hcond1_1 t).mpr h1) (prev1 V c t).2.1 (prev1 V c t).2.2.1 (prev1 V c t).2.2.2,
      sAcc_C V c t (fun h => h0 ((hcond1_0 t).mp h)) ((hcond1_1 t).mpr h1) (prev1 V c t).2.1 (prev1 V c t).2.2.1 (prev1 V c t).2.2.2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before position `n`: at the region's entry the entry invariant (every scratch buffer at anything); afterwards the other
    region's staging buffers at anything, the three scratch buffers at what the point before left, the generator register at
    some state. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ owns (c : Thread nD τ) scM fullShare ((outsAt1 V c n hn).2.1) ∗ owns (c : Thread nD τ) scL fullShare ((outsAt1 V c n hn).2.2.1) ∗ owns (c : Thread nD τ) scA fullShare ((outsAt1 V c n hn).2.2.2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ owns (c : Thread nD τ) scM fullShare ((outsAt1 V c n hn).2.1) ∗ owns (c : Thread nD τ) scL fullShare ((outsAt1 V c n hn).2.2.1) ∗ owns (c : Thread nD τ) scA fullShare ((outsAt1 V c n hn).2.2.2)) ∗ (∃ r, prngReg c r)) := rfl

theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ owns (c : Thread nD τ) scM fullShare ((outsAt1 V c (n - 1) (by omega)).2.1) ∗ owns (c : Thread nD τ) scL fullShare ((outsAt1 V c (n - 1) (by omega)).2.2.1) ∗ owns (c : Thread nD τ) scA fullShare ((outsAt1 V c (n - 1) (by omega)).2.2.2)) ∗ (∃ r, prngReg c r)) := by
  cases n with
  | zero => exact absurd rfl hz
  | succ n => rfl

/-! ## The region's proof data -/

def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = blk1 V c 3 t := by dsimp only [dat1]
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = blk1 V c 0 t :=
  before1_0_of V (dat1 V c) (A_eq1 V c 0) (after1_0 V c) t d
theorem before1_1 (c : Dev nD) (t : Fin cfg1.N) (d) : (dat1 V c).before 1 t d = blk1 V c 1 t :=
  before1_1_of V (dat1 V c) (A_eq1 V c 1) (after1_1 V c) t d
theorem before1_2 (c : Dev nD) (t : Fin cfg1.N) (d) : (dat1 V c).before 2 t d = blk1 V c 2 t :=
  before1_2_of V (dat1 V c) (A_eq1 V c 2) (after1_2 V c) t d
theorem before1_3 (c : Dev nD) (t : Fin cfg1.N) (d) : (dat1 V c).before 3 t d = blk1 V c 3 t :=
  before1_3_of V (dat1 V c) (A_eq1 V c 3) (after1_3 V c) t d

/-! ## The body obligation, at a symbolic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t
    ∗ (dat1 V c).leavesExact 3 t ∗ (dat1 V c).leavesExact 4 t)

theorem leaves1_0 (c : Dev nD) (t : Fin cfg1.N) : (dat1 V c).leavesExact 0 t = owns (c : Thread nD τ) (ms1_0 t) fullShare (blk1 V c 0 t) := by
  unfold Dat.leavesExact; rw [liveAt1_0 t, after1_0]
theorem leaves1_1 (c : Dev nD) (t : Fin cfg1.N) : (dat1 V c).leavesExact 1 t = owns (c : Thread nD τ) (ms1_1 t) fullShare (blk1 V c 1 t) := by
  unfold Dat.leavesExact; rw [liveAt1_1 t, after1_1]
theorem leaves1_2 (c : Dev nD) (t : Fin cfg1.N) : (dat1 V c).leavesExact 2 t = owns (c : Thread nD τ) (ms1_2 t) fullShare (blk1 V c 2 t) := by
  unfold Dat.leavesExact; rw [liveAt1_2 t, after1_2]
theorem leaves1_3 (c : Dev nD) (t : Fin cfg1.N) : (dat1 V c).leavesExact 3 t = owns (c : Thread nD τ) (ms1_3 t) fullShare (blk1 V c 3 t) := by
  unfold Dat.leavesExact; rw [liveAt1_3 t, after1_3]

set_option maxHeartbeats 8000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  rw [leaves1_0, leaves1_1, leaves1_2, leaves1_3]
  have hN : t.val < 128 := lt_of_lt_of_eq t.isLt (show cfg1.N = 128 from N_1)
  by_cases h0 : t.val % 16 = 0
  · by_cases h1 : t.val % 16 = 15
    · exfalso; omega
    · have hc0 : cond1_0 (grid1.coords t) := (hcond1_0 t).mpr h0
      have hc1 : ¬cond1_1 (grid1.coords t) := fun h => h1 ((hcond1_1 t).mp h)
      rw [Dat.leavesExact_idle (dat1 V c) 4 t (idleAt1_4 t hc1) (noFlush1_4 t hc1)]
      rw [outsAt1_A V c t h0 h1]
      unfold sM_A sL_A sAcc_A; (try dsimp only)
      by_cases hz : t.val = 0
      · rw [PhiS_castSucc V c t, PhiS_zero V c _ _ hz, PhiA1_eq]
        iintro ⟨⟨⟨R1, R2, R3, R4, R5, R6, R7, R8, R9, R10, R11, HS0, HS1, HS2⟩, Hg⟩, Ho, ⟨%d0, H0⟩, ⟨%d1, H1⟩, ⟨%d2, H2⟩, ⟨%d3, H3⟩, ⟨%d4, H4⟩⟩
        iapply ((runA V c t hc0 hc1).2.2.2 _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        iintro ⟨H0, H1, H2, H3, H4, ⟨%e7, H7⟩, ⟨%e8, H8⟩, ⟨%e9, H9⟩⟩
        isplitl [R1 R2 R3 R4 R5 R6 R7 R8 R9 R10 R11 H7 H8 H9 Hg]
        · isplitl [R1 R2 R3 R4 R5 R6 R7 R8 R9 R10 R11 H7 H8 H9]
          · isplitl [R1]; · iexact R1
            isplitl [R2]; · iexact R2
            isplitl [R3]; · iexact R3
            isplitl [R4]; · iexact R4
            isplitl [R5]; · iexact R5
            isplitl [R6]; · iexact R6
            isplitl [R7]; · iexact R7
            isplitl [R8]; · iexact R8
            isplitl [R9]; · iexact R9
            isplitl [R10]; · iexact R10
            isplitl [R11]; · iexact R11
            isplitl [H7]
            · unfold owns; iexists _; isplitr
              swap; · iexact H7
              ipureintro; exact View.read_writes_of_cover _ _ _ _ _ (coverM_A V c t hc0 hc1)
            isplitl [H8]
            · unfold owns; iexists _; isplitr
              swap; · iexact H8
              ipureintro; exact View.read_writes_of_cover _ _ _ _ _ (coverL_A V c t hc0 hc1)
            unfold owns; iexists _; isplitr
            swap; · iexact H9
            ipureintro; exact View.read_writes_of_cover _ _ _ _ _ (coverAcc_A V c t hc0 hc1)
          iexact Hg
        isplitl [Ho]; · iexact Ho
        isplitl [H0]; · iexact H0
        isplitl [H1]; · iexact H1
        isplitl [H2]; · iexact H2
        isplitl [H3]; · iexact H3
        iexists _; iexact H4
      · rw [PhiS_castSucc V c t, PhiS_pos V c _ _ hz]
        iintro ⟨⟨⟨R1, R2, R3, R4, R5, R6, R7, R8, R9, R10, R11, HS0, HS1, HS2⟩, Hg⟩, Ho, ⟨%d0, H0⟩, ⟨%d1, H1⟩, ⟨%d2, H2⟩, ⟨%d3, H3⟩, ⟨%d4, H4⟩⟩
        iapply ((runA V c t hc0 hc1).2.2.2 _ Set.univ _)
        isplitl [H0]; · iexact H0
        isplitl [H1]; · iexact H1
        isplitl [H2]; · iexact H2
        isplitl [H3]; · iexact H3
        isplitl [H4]; · iexact H4
        isplitl [HS0]; · iexists _; iexact HS0
        isplitl [HS1]; · iexists _; iexact HS1
        isplitl [HS2]; · iexists _; iexact HS2
        iintro ⟨H0, H1, H2, H3, H4, ⟨%e7, H7⟩, ⟨%e8, H8⟩, ⟨%e9, H9⟩⟩
        isplitl [R1 R2 R3 R4 R5 R6 R7 R8 R9 R10 R11 H7 H8 H9 Hg]
        · isplitl [R1 R2 R3 R4 R5 R6 R7 R8 R9 R10 R11 H7 H8 H9]
          · isplitl [R1]; · iexact R1
            isplitl [R2]; · iexact R2
            isplitl [R3]; · iexact R3
            isplitl [R4]; · iexact R4
            isplitl [R5]; · iexact R5
            isplitl [R6]; · iexact R6
            isplitl [R7]; · iexact R7
            isplitl [R8]; · iexact R8
            isplitl [R9]; · iexact R9
            isplitl [R10]; · iexact R10
            isplitl [R11]; · iexact R11
            isplitl [H7]
            · unfold owns; iexists _; isplitr
              swap; · iexact H7
              ipureintro; exact View.read_writes_of_cover _ _ _ _ _ (coverM_A V c t hc0 hc1)
            isplitl [H8]
            · unfold owns; iexists _; isplitr
              swap; · iexact H8
              ipureintro; exact View.read_writes_of_cover _ _ _ _ _ (coverL_A V c t hc0 hc1)
            unfold owns; iexists _; isplitr
            swap; · iexact H9
            ipureintro; exact View.read_writes_of_cover _ _ _ _ _ (coverAcc_A V c t hc0 hc1)
          iexact Hg
        isplitl [Ho]; · iexact Ho
        isplitl [H0]; · iexact H0
        isplitl [H1]; · iexact H1
        isplitl [H2]; · iexact H2
        isplitl [H3]; · iexact H3
        iexists _; iexact H4
  · have hz : t.val ≠ 0 := fun h => h0 (by rw [h])
    have hc0 : ¬cond1_0 (grid1.coords t) := fun h => h0 ((hcond1_0 t).mp h)
    by_cases h1 : t.val % 16 = 15
    · have hc1 : cond1_1 (grid1.coords t) := (hcond1_1 t).mpr h1
      rw [show (dat1 V c).leavesExact 4 t = owns (c : Thread nD τ) (ms1_4 t) fullShare ((dat1 V c).after 4 t) from by
        unfold Dat.leavesExact; rw [liveAt1_4 t hc1], after1_4]
      rw [outsAt1_C V c t h0 h1]
      unfold sO_C sM_C sL_C sAcc_C; (try dsimp only)
      rw [PhiS_castSucc V c t, PhiS_pos V c _ _ hz]
      iintro ⟨⟨⟨R1, R2, R3, R4, R5, R6, R7, R8, R9, R10, R11, HS0, HS1, HS2⟩, Hg⟩, Ho, ⟨%d0, H0⟩, ⟨%d1, H1⟩, ⟨%d2, H2⟩, ⟨%d3, H3⟩, ⟨%d4, H4⟩⟩
      iapply ((runC V c t hc0 hc1 _ _ _).2.2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      iintro ⟨H0, H1, H2, H3, ⟨%e6, H4⟩, ⟨%e7, H7⟩, ⟨%e8, H8⟩, ⟨%e9, H9⟩⟩
      isplitl [R1 R2 R3 R4 R5 R6 R7 R8 R9 R10 R11 H7 H8 H9 Hg]
      · isplitl [R1 R2 R3 R4 R5 R6 R7 R8 R9 R10 R11 H7 H8 H9]
        · isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [R10]; · iexact R10
          isplitl [R11]; · iexact R11
          isplitl [H7]
          · unfold owns; iexists _; isplitr
            swap; · iexact H7
            ipureintro; exact View.read_writes_of_cover _ _ _ _ _ (coverM_C V c t hc0 hc1 _ _ _)
          isplitl [H8]
          · unfold owns; iexists _; isplitr
            swap; · iexact H8
            ipureintro; exact View.read_writes_of_cover _ _ _ _ _ (coverL_C V c t hc0 hc1 _ _ _)
          unfold owns; iexists _; isplitr
          swap; · iexact H9
          ipureintro; exact View.read_writes_of_cover _ _ _ _ _ (coverAcc_C V c t hc0 hc1 _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverO_C V c t hc0 hc1 _ _ _)
    · have hc1 : ¬cond1_1 (grid1.coords t) := fun h => h1 ((hcond1_1 t).mp h)
      rw [Dat.leavesExact_idle (dat1 V c) 4 t (idleAt1_4 t hc1) (noFlush1_4 t hc1)]
      rw [outsAt1_B V c t h0 h1]
      unfold sM_B sL_B sAcc_B; (try dsimp only)
      rw [PhiS_castSucc V c t, PhiS_pos V c _ _ hz]
      iintro ⟨⟨⟨R1, R2, R3, R4, R5, R6, R7, R8, R9, R10, R11, HS0, HS1, HS2⟩, Hg⟩, Ho, ⟨%d0, H0⟩, ⟨%d1, H1⟩, ⟨%d2, H2⟩, ⟨%d3, H3⟩, ⟨%d4, H4⟩⟩
      iapply ((runB V c t hc0 hc1 _ _ _).2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, ⟨%e7, H7⟩, ⟨%e8, H8⟩, ⟨%e9, H9⟩⟩
      isplitl [R1 R2 R3 R4 R5 R6 R7 R8 R9 R10 R11 H7 H8 H9 Hg]
      · isplitl [R1 R2 R3 R4 R5 R6 R7 R8 R9 R10 R11 H7 H8 H9]
        · isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [R10]; · iexact R10
          isplitl [R11]; · iexact R11
          isplitl [H7]
          · unfold owns; iexists _; isplitr
            swap; · iexact H7
            ipureintro; exact View.read_writes_of_cover _ _ _ _ _ (coverM_B V c t hc0 hc1 _ _ _)
          isplitl [H8]
          · unfold owns; iexists _; isplitr
            swap; · iexact H8
            ipureintro; exact View.read_writes_of_cover _ _ _ _ _ (coverL_B V c t hc0 hc1 _ _ _)
          unfold owns; iexists _; isplitr
          swap; · iexact H9
          ipureintro; exact View.read_writes_of_cover _ _ _ _ _ (coverAcc_B V c t hc0 hc1 _ _ _)
        iexact Hg
      isplitl [Ho]; · iexact Ho
      isplitl [H0]; · iexact H0
      isplitl [H1]; · iexact H1
      isplitl [H2]; · iexact H2
      isplitl [H3]; · iexact H3
      iexists _; iexact H4

/-- The body obligation of the region, at every point. -/
theorem body_obligation1 (c : Dev nD) : BodyObligation (dat1 (F := F) V c) (defs₀ (F := F)) Variants.none () Set.univ := fun t => by
  rw [bigSep_W1, bigSep_W1]
  exact sound_body1 V c t

/-- The entry invariant is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the entry invariant back: the scratch contents are forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 128 := N_1; omega), PhiA1_eq]
  iintro ⟨⟨R1, R2, R3, R4, R5, R6, R7, R8, R9, R10, R11, HS0, HS1, HS2⟩, Hg⟩
  isplitl [R1 R2 R3 R4 R5 R6 R7 R8 R9 R10 R11 HS0 HS1 HS2]
  ·
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [HS0]; · iexists _; iexact HS0
    isplitl [HS1]; · iexists _; iexact HS1
    iexists _; iexact HS2
  iexact Hg

end Cert.Kernel.Hand

end
-- ==== Proof.BitsFrame.lean ====
/-
  The whole program as a run: two stretches of host operations and two kernel regions, in order.  The buffer contents at
  each boundary are a fold from the launch memory — a host stretch applies its operations, a region leaves each of its
  arrays at what its write-backs leave and every other buffer as entered —; each region is a segment over the thread
  state "every unscoped buffer at the boundary's contents, the generator register at some state, nothing owed"; and the
  run ends with every unscoped buffer at the last boundary's contents.  Read at an argument that is the launch memory
  (no item writes an argument); read at the result it is what the second region's write-backs leave.
-/
import proofs.«139794_j13168369730002_2_alg».proof.Proof.BitsRegion0
import proofs.«139794_j13168369730002_2_alg».proof.Proof.BitsRegion1
import proofs.«139794_j13168369730002_2_alg».proof.Proof.Gen.Kernel.Regions
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
/-- After the first host stretch (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the second region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the second region's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- A buffer no host stretch writes and no region has as a window's array ends as launched. -/
theorem W4_unwritten (c : Dev nD) (r : Ref sig .tc) (h0 : r ∉ hostOps0_W) (h0' : ∀ w, Pipeline.arrRef spec0 w ≠ r)
    (h1 : r ∉ hostOps1_W) (h1' : ∀ w, Pipeline.arrRef spec1 w ≠ r) :
    W4 m ρ c (Proc.devRef .tc r) = m ((c : Thread nD τ).loc r) :=
  calc W4 m ρ c (Proc.devRef .tc r)
    _ = W3 m ρ c (Proc.devRef .tc r) := W4_of_ne m ρ c r h1'
    _ = W2 m ρ c (Proc.devRef .tc r) := StableHlo.after_of_writes_sub hostOps1 _ hostOps1_writes h1
    _ = W1 m ρ c (Proc.devRef .tc r) := W2_of_ne m ρ c r h0'
    _ = W0 m ρ c (Proc.devRef .tc r) := StableHlo.after_of_writes_sub hostOps0 _ hostOps0_writes h0
    _ = m ((c : Thread nD τ).loc r) := rfl

theorem W4_main_arg0 (c : Dev nD) : W4 m ρ c (Proc.devRef .tc main_arg0) = m ((c : Thread nD τ).loc main_arg0) :=
  W4_unwritten m ρ c main_arg0 (by decide) (by decide) (by decide) (by decide)
theorem W4_main_arg1 (c : Dev nD) : W4 m ρ c (Proc.devRef .tc main_arg1) = m ((c : Thread nD τ).loc main_arg1) :=
  W4_unwritten m ρ c main_arg1 (by decide) (by decide) (by decide) (by decide)
theorem W4_main_arg2 (c : Dev nD) : W4 m ρ c (Proc.devRef .tc main_arg2) = m ((c : Thread nD τ).loc main_arg2) :=
  W4_unwritten m ρ c main_arg2 (by decide) (by decide) (by decide) (by decide)
theorem W4_main_arg3 (c : Dev nD) : W4 m ρ c (Proc.devRef .tc main_arg3) = m ((c : Thread nD τ).loc main_arg3) :=
  W4_unwritten m ρ c main_arg3 (by decide) (by decide) (by decide) (by decide)
theorem W4_main_arg4 (c : Dev nD) : W4 m ρ c (Proc.devRef .tc main_arg4) = m ((c : Thread nD τ).loc main_arg4) :=
  W4_unwritten m ρ c main_arg4 (by decide) (by decide) (by decide) (by decide)

/-! ## The proof data family and the thread state -/

abbrev adm' : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm' p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The first region: entered from every unscoped buffer at `W1`, left at `W2`. -/
def reg0 : Pipeline.RegionSeg (pcfgs (F := F)) adm' (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm' (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from every unscoped buffer at `W3`, left at `W4`.  Its invariant starts as the entry
    invariant and ends giving it back, the scratch contents forgotten. -/
def reg1 : Pipeline.RegionSeg (pcfgs (F := F)) adm' (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm' (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (hout1 (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm' (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev segs : List (Pipeline.Seg (pcfgs (F := F)) adm' (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- THE RUN. From any memory with zero counters every weakly fair execution of the program on the TensorCores
    terminates, nothing faulting, and every final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm' (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c)⟩) (run_all m ρ)

/-- THE RESULT, NAMED: the run again, the result array at what the second region's write-backs leave and the arguments as
    launched. -/
theorem run_result : θ_run defs (onTc (τ := τ) (main (F := F))) ⟨m, fun _ => 0, ρ⟩ (fun r => ∀ c : Dev nD,
      r.2.mem ((c.tc : Thread nD τ).loc main_v9) = (dat1 (V3 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_v9 (by decide))).trans (W4_arr m ρ c 4),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c)⟩) (run_all m ρ)

end Cert.Kernel.Hand

end
-- ==== Proof.IdealRegion0.lean ====
/-
  The first kernel region (the fused q/k/v projection, a grid of 16 row blocks), entered with the core's buffers at
  contents `V`: each window's block at a grid point, what the body's three stores leave in the three output buffers
  as functions of the input blocks, the body run once on arbitrary whole staging buffers, the region's proof data and the
  body obligation at a symbolic point.  The region keeps nothing between points.
-/
import proofs.«139794_j13168369730002_2_alg».proof.Proof.Gen.KernelIdeal.Launch
import proofs.«139794_j13168369730002_2_alg».proof.Proof.Gen.KernelIdeal.Skeleton
import proofs.«139794_j13168369730002_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the block was fetched there or is
    the one fetched earlier and left in place (the weights' index never moves). -/
theorem before0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = blk0 V c 3 t) (t : Fin cfg0.N) (d) : dat.before 3 t d = blk0 V c 3 t :=
  (dat.before_in_eq_fetched 3 rfl (fun _ => rfl) (fun _ _ _ => rfl) (fun t => by rw [hafter]; unfold Dat.blockOf blk0; rw [hA]; try rfl) t d).trans
    (by unfold Dat.fetched Dat.blockOf blk0; rw [hA]; try rfl)

/-! ## The body's accesses and what its stores leave -/

/-- The whole 512 × 1024 block. -/
abbrev rA : Rect S512x1024 := Rect.unit (s := S512x1024) ![0, 0] S512x1024.size inb_S512x1024_S512x1024_0_0
/-- The whole 1024 × 1024 weight. -/
abbrev rW : Rect S1024x1024 := Rect.unit (s := S1024x1024) ![0, 0] S1024x1024.size inb_S1024x1024_S1024x1024_0_0

/-- The q output buffer after the body: one store of the whole block. -/
def outQ (x : Vec F S512x1024 .f32) (w : Vec F S1024x1024 .bf16) : Vec F S512x1024 .bf16 :=
  View.canon [⟨rA, k0_pay2 (View.ld x rA) (View.ld w rW)⟩]
/-- The k output buffer after the body. -/
def outK (x : Vec F S512x1024 .f32) (w : Vec F S1024x1024 .bf16) : Vec F S512x1024 .bf16 :=
  View.canon [⟨rA, k0_pay3 (View.ld x rA) (View.ld w rW)⟩]
/-- The v output buffer after the body. -/
def outV (x : Vec F S512x1024 .f32) (w : Vec F S1024x1024 .bf16) : Vec F S512x1024 .bf16 :=
  View.canon [⟨rA, k0_pay4 (View.ld x rA) (View.ld w rW)⟩]

/-- One store of the whole block covers the buffer. -/
theorem coverA (p : Vec F S512x1024 .bf16) (y : S512x1024.Idx) :
    ∃ pc ∈ ([⟨rA, p⟩] : List (View.Piece (Elt F) S512x1024 .bf16)), y ∈ pc.1.set :=
  View.cover_of_tiled [⟨rA, p⟩] S512x1024.size (by rfl) y

/-! ## The body's triple -/

set_option maxHeartbeats 4000000 in
/-- On whole staging memrefs, the four inputs at read contents and the three outputs at anything, the body runs to its
    return with the inputs as they were and each output at its one store. -/
theorem sound_qkv (c : Dev nD) (E : Set ℕ) (i : grid0.Coords)
    (a1 : Memref sig .tc .vmem S512x1024 .f32) (h1 : a1.IsWhole)
    (a2 : Memref sig .tc .vmem S1024x1024 .bf16) (h2 : a2.IsWhole) (a3 : Memref sig .tc .vmem S1024x1024 .bf16) (h3 : a3.IsWhole)
    (a4 : Memref sig .tc .vmem S1024x1024 .bf16) (h4 : a4.IsWhole)
    (a5 : Memref sig .tc .vmem S512x1024 .bf16) (h5 : a5.IsWhole) (a6 : Memref sig .tc .vmem S512x1024 .bf16) (h6 : a6.IsWhole)
    (a7 : Memref sig .tc .vmem S512x1024 .bf16) (h7 : a7.IsWhole)
    (x : Vec F S512x1024 .f32) (wq wk wv : Vec F S1024x1024 .bf16) (K : PUnit → sProp 𝕄) :
    iprop(owns (c : Thread nD τ) a1 fullShare x ∗ owns (c : Thread nD τ) a2 fullShare wq ∗ owns (c : Thread nD τ) a3 fullShare wk
        ∗ owns (c : Thread nD τ) a4 fullShare wv
        ∗ (∃ d, owns (c : Thread nD τ) a5 fullShare d) ∗ (∃ d, owns (c : Thread nD τ) a6 fullShare d) ∗ (∃ d, owns (c : Thread nD τ) a7 fullShare d)
        ∗ (iprop(owns (c : Thread nD τ) a1 fullShare x ∗ owns (c : Thread nD τ) a2 fullShare wq ∗ owns (c : Thread nD τ) a3 fullShare wk
            ∗ owns (c : Thread nD τ) a4 fullShare wv
            ∗ owns (c : Thread nD τ) a5 fullShare (outQ x wq) ∗ owns (c : Thread nD τ) a6 fullShare (outK x wk)
            ∗ owns (c : Thread nD τ) a7 fullShare (outV x wv)) -∗ K ⟨⟩))
      ⊢ wp frame (wpE (defs₀ (F := F)) Variants.none c none) E (cc0__qkv_kernel i a1 h1 a2 h2 a3 h3 a4 h4 a5 h5 a6 h6 a7 h7) K := by
  simp only [cc0__qkv_kernel_eq_skeleton]; unfold cc0__qkv_kernel_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf1; subst hf2; subst hf3; subst hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (coverA _)
  isplitl [H6]
  · iexists _; isplitr
    swap; · iexact H6
    ipureintro
    exact View.read_writes_eq_canon _ _ _ (coverA _)
  iexists _; isplitr
  swap; · iexact H7
  ipureintro
  exact View.read_writes_eq_canon _ _ _ (coverA _)

/-! ## The region's proof data -/

/-- The arrays as the region finds them; after the body at point `t` each input's buffer at its block and each output's at
    its store of the input blocks; nothing kept between points beyond the untouched rest; nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => outQ (blk0 V c 0 t) (blk0 V c 1 t)
    | ⟨5, _⟩ => outK (blk0 V c 0 t) (blk0 V c 2 t)
    | ⟨6, _⟩ => outV (blk0 V c 0 t) (blk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = blk0 V c 3 t := by dsimp only [dat0]
theorem after0_4 (c : Dev nD) (t : Fin cfg0.N) : (dat0 V c).after 4 t = outQ (blk0 V c 0 t) (blk0 V c 1 t) := by dsimp only [dat0]
theorem after0_5 (c : Dev nD) (t : Fin cfg0.N) : (dat0 V c).after 5 t = outK (blk0 V c 0 t) (blk0 V c 2 t) := by dsimp only [dat0]
theorem after0_6 (c : Dev nD) (t : Fin cfg0.N) : (dat0 V c).after 6 t = outV (blk0 V c 0 t) (blk0 V c 3 t) := by dsimp only [dat0]

theorem before0_0 (c : Dev nD) (t : Fin cfg0.N) (d) : (dat0 V c).before 0 t d = blk0 V c 0 t :=
  before0_0_of V (dat0 V c) (A_eq0 V c 0) (after0_0 V c) t d
theorem before0_1 (c : Dev nD) (t : Fin cfg0.N) (d) : (dat0 V c).before 1 t d = blk0 V c 1 t :=
  before0_1_of V (dat0 V c) (A_eq0 V c 1) (after0_1 V c) t d
theorem before0_2 (c : Dev nD) (t : Fin cfg0.N) (d) : (dat0 V c).before 2 t d = blk0 V c 2 t :=
  before0_2_of V (dat0 V c) (A_eq0 V c 2) (after0_2 V c) t d
theorem before0_3 (c : Dev nD) (t : Fin cfg0.N) (d) : (dat0 V c).before 3 t d = blk0 V c 3 t :=
  before0_3_of V (dat0 V c) (A_eq0 V c 3) (after0_3 V c) t d

/-! ## The body obligation, at a symbolic point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_qkv c Set.univ _ _ _ _ _ _ _ _ _ _ _ _ _ _ _ (blk0 V c 0 t) (blk0 V c 1 t) (blk0 V c 2 t) (blk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of the region, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.IdealRegion1Common.lean ====
/-
  The second kernel region (flash attention with the output projection fused into its last step; a grid of 8 query
  blocks × 16 key/value blocks), entered with the core's buffers at contents `V`: what its runs share.  The blocks at a
  grid point; the body's two conditions — "this is the first key/value block", "this is the last" — in closed form over
  the grid; where the output window is idle (everywhere but at the last key/value block); the memrefs the body is called
  with, the three scratch buffers (running maximum, running sum, running accumulator) among them.
-/
import proofs.«139794_j13168369730002_2_alg».proof.Proof.Gen.KernelIdeal.Launch
import proofs.«139794_j13168369730002_2_alg».proof.Proof.Gen.KernelIdeal.Skeleton
import proofs.«139794_j13168369730002_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or left in place. -/
theorem before1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = blk1 V c 3 t) (t : Fin cfg1.N) (d) : dat.before 3 t d = blk1 V c 3 t :=
  (dat.before_in_eq_fetched 3 rfl (fun _ => rfl) (fun _ _ _ => rfl) (fun t => by rw [hafter]; unfold Dat.blockOf blk1; rw [hA]; try rfl) t d).trans
    (by unfold Dat.fetched Dat.blockOf blk1; rw [hA]; try rfl)

end

/-! ## The body's conditions -/

/-- "This is the first key/value block": the scalar chain of the body's first conditional, over the grid coordinates. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 16 = 0 :=
  (by decide +kernel : ∀ t : Fin grid1.N, cond1_0 (grid1.coords t) ↔ t.val % 16 = 0)

/-- "This is the last key/value block". -/
abbrev cond1_1 (i : grid1.Coords) : Prop := k1_cond2 i = 1#1
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Off the last key/value block the output window is idle and is not written back. -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
/-- At the last key/value block it is live. -/
theorem liveAt1_4 : ∀ t : Fin cfg1.N, cond1_1 (grid1.coords t) → cfg1.idle 4 (grid1.coords t) = false := by decide +kernel

/-! ## The memrefs the body is called with -/

abbrev ms1_0 (t : Fin cfg1.N) : Memref sig .tc .vmem S2x512x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2x256x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2x256x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S2x512x1024 .f32 := win1_4.stage (cfg1.slots t 4)
abbrev hs1_4 (t : Fin cfg1.N) : (ms1_4 t).IsWhole := hstage1_4 ((cfg1.slots t 4).cast nbuf1_4)
/-- The running maximum, the running sum and the running accumulator: whole scoped buffers of the kernel's own. -/
abbrev scM : Memref sig .tc .vmem S2x512x1 .f32 := Memref.whole cc1_scratch0
abbrev scL : Memref sig .tc .vmem S2x512x1 .f32 := Memref.whole cc1_scratch1
abbrev scA : Memref sig .tc .vmem S2x512x1024 .f32 := Memref.whole cc1_scratch2
/-- Views through which the contents of the output's buffer and of the three scratch buffers are stated. -/
abbrev VO : View sig .tc .vmem S2x512x1024 .f32 := (Memref.whole cc1_stg4_0 : Memref sig .tc .vmem S2x512x1024 .f32).view
abbrev VM : View sig .tc .vmem S2x512x1 .f32 := scM.view
abbrev VL : View sig .tc .vmem S2x512x1 .f32 := scL.view
abbrev VA : View sig .tc .vmem S2x512x1024 .f32 := scA.view

/-- The other region's staging buffers, each whole at some contents: they ride through this region untouched. -/
abbrev otherStg (c : Dev nD) : sProp 𝕄 := iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f))

/-- The invariant the region is entered with, the three scratch buffers as memrefs owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ d, owns (c : Thread nD τ) scM fullShare d) ∗ (∃ d, owns (c : Thread nD τ) scL fullShare d) ∗ (∃ d, owns (c : Thread nD τ) scA fullShare d)) ∗ (∃ r, prngReg c r)) := by
  unfold Pipeline.ΦA; rw [scopedRest1_eq]; simp only [scM, scL, scA, owns_whole]; try rfl

end Cert.KernelIdeal.Hand

end
-- ==== Proof.IdealRegion1RunA.lean ====
/-
  The flash-attention body run once, at the first key/value block of a query block (the scratch is reset, then updated; the output is left alone).
-/
import proofs.«139794_j13168369730002_2_alg».proof.Proof.IdealRegion1Common

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the three scratch buffers, last first, with the proof that on whole memrefs — the four
    inputs at read contents, the output at contents handed back untouched, the scratch at anything — the body
    runs to its return with the inputs as they were and each stored buffer with its pieces written. -/
noncomputable def kernelRun1_A (c : Dev nD) (i : grid1.Coords) (a2 : Memref sig .tc .vmem S2x512x1024 .bf16) (h2 : a2.IsWhole) (a3 : Memref sig .tc .vmem S2x256x1024 .bf16) (h3 : a3.IsWhole) (a4 : Memref sig .tc .vmem S2x256x1024 .bf16) (h4 : a4.IsWhole) (a5 : Memref sig .tc .vmem S1024x1024 .bf16) (h5 : a5.IsWhole) (a6 : Memref sig .tc .vmem S2x512x1024 .f32) (h6 : a6.IsWhole) (a7 : Memref sig .tc .vmem S2x512x1 .f32) (h7 : a7.IsWhole) (a8 : Memref sig .tc .vmem S2x512x1 .f32) (h8 : a8.IsWhole) (a9 : Memref sig .tc .vmem S2x512x1024 .f32) (h9 : a9.IsWhole) (hc0 : cond1_0 i) (hc1 : ¬cond1_1 i)
    (xq : Vec F S2x512x1024 .bf16) (xk : Vec F S2x256x1024 .bf16) (xv : Vec F S2x256x1024 .bf16) (xw : Vec F S1024x1024 .bf16) :
    Σ' (LM : List (View.Piece (Elt F) S2x512x1 .f32)) (LL : List (View.Piece (Elt F) S2x512x1 .f32)), { LA : List (View.Piece (Elt F) S2x512x1024 .f32) //
      ∀ (xo : Vec F S2x512x1024 .f32) (E : Set ℕ) (K : PUnit → sProp 𝕄),
        iprop(owns (c : Thread nD τ) a2 fullShare xq ∗ owns (c : Thread nD τ) a3 fullShare xk ∗ owns (c : Thread nD τ) a4 fullShare xv ∗ owns (c : Thread nD τ) a5 fullShare xw ∗ owns (c : Thread nD τ) a6 fullShare xo
            ∗ (∃ d, owns (c : Thread nD τ) a7 fullShare d) ∗ (∃ d, owns (c : Thread nD τ) a8 fullShare d) ∗ (∃ d, owns (c : Thread nD τ) a9 fullShare d)
            ∗ (iprop(owns (c : Thread nD τ) a2 fullShare xq ∗ owns (c : Thread nD τ) a3 fullShare xk ∗ owns (c : Thread nD τ) a4 fullShare xv ∗ owns (c : Thread nD τ) a5 fullShare xw ∗ owns (c : Thread nD τ) a6 fullShare xo
                ∗ (∃ f, a7.view.loc (c : Thread nD τ) ↦[a7.view.set]{fullShare} a7.view.writes (Elt F) f LM) ∗ (∃ f, a8.view.loc (c : Thread nD τ) ↦[a8.view.set]{fullShare} a8.view.writes (Elt F) f LL) ∗ (∃ f, a9.view.loc (c : Thread nD τ) ↦[a9.view.set]{fullShare} a9.view.writes (Elt F) f LA)) -∗ K ⟨⟩))
          ⊢ wp frame (wpE (defs₀ (F := F)) Variants.none c none) E (cc1__flash_attn_wo_kernel i a2 h2 a3 h3 a4 h4 a5 h5 a6 h6 a7 h7 a8 h8 a9 h9) K } := by
  refine ⟨?_, ?_, ?_, fun xo E K => ?run⟩
  case run =>
    simp only [cc1__flash_attn_wo_kernel_eq_skeleton]; unfold cc1__flash_attn_wo_kernel_skel
    simp only [k1_part1_eq_skeleton]
    unfold owns
    iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
    obtain rfl := h2.eq_unread hf2; obtain rfl := h3.eq_unread hf3; obtain rfl := h4.eq_unread hf4; obtain rfl := h5.eq_unread hf5; obtain rfl := h6.eq_unread hf6
    sl_exec (disch := first | exact hc0 | exact hc1)
    sl_step
    iapply Hk
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]; · iexists _; iexact H7
    isplitl [H8]; · iexists _; iexact H8
    iexists _; iexact H9

end Cert.KernelIdeal.Hand

end
-- ==== Proof.IdealRegion1RunB.lean ====
/-
  The flash-attention body run once, at a middle key/value block (the scratch is updated from what the block before left; the output is left alone).
-/
import proofs.«139794_j13168369730002_2_alg».proof.Proof.IdealRegion1RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the three scratch buffers, last first, with the proof that on whole memrefs — the four
    inputs at read contents, the output at contents handed back untouched, the scratch at what the block before left — the body
    runs to its return with the inputs as they were and each stored buffer with its pieces written. -/
noncomputable def kernelRun1_B (c : Dev nD) (i : grid1.Coords) (a2 : Memref sig .tc .vmem S2x512x1024 .bf16) (h2 : a2.IsWhole) (a3 : Memref sig .tc .vmem S2x256x1024 .bf16) (h3 : a3.IsWhole) (a4 : Memref sig .tc .vmem S2x256x1024 .bf16) (h4 : a4.IsWhole) (a5 : Memref sig .tc .vmem S1024x1024 .bf16) (h5 : a5.IsWhole) (a6 : Memref sig .tc .vmem S2x512x1024 .f32) (h6 : a6.IsWhole) (a7 : Memref sig .tc .vmem S2x512x1 .f32) (h7 : a7.IsWhole) (a8 : Memref sig .tc .vmem S2x512x1 .f32) (h8 : a8.IsWhole) (a9 : Memref sig .tc .vmem S2x512x1024 .f32) (h9 : a9.IsWhole) (hc0 : ¬cond1_0 i) (hc1 : ¬cond1_1 i)
    (xq : Vec F S2x512x1024 .bf16) (xk : Vec F S2x256x1024 .bf16) (xv : Vec F S2x256x1024 .bf16) (xw : Vec F S1024x1024 .bf16) (sm : Vec F S2x512x1 .f32) (sl : Vec F S2x512x1 .f32) (sa : Vec F S2x512x1024 .f32) :
    Σ' (LM : List (View.Piece (Elt F) S2x512x1 .f32)) (LL : List (View.Piece (Elt F) S2x512x1 .f32)), { LA : List (View.Piece (Elt F) S2x512x1024 .f32) //
      ∀ (xo : Vec F S2x512x1024 .f32) (E : Set ℕ) (K : PUnit → sProp 𝕄),
        iprop(owns (c : Thread nD τ) a2 fullShare xq ∗ owns (c : Thread nD τ) a3 fullShare xk ∗ owns (c : Thread nD τ) a4 fullShare xv ∗ owns (c : Thread nD τ) a5 fullShare xw ∗ owns (c : Thread nD τ) a6 fullShare xo
            ∗ owns (c : Thread nD τ) a7 fullShare sm ∗ owns (c : Thread nD τ) a8 fullShare sl ∗ owns (c : Thread nD τ) a9 fullShare sa
            ∗ (iprop(owns (c : Thread nD τ) a2 fullShare xq ∗ owns (c : Thread nD τ) a3 fullShare xk ∗ owns (c : Thread nD τ) a4 fullShare xv ∗ owns (c : Thread nD τ) a5 fullShare xw ∗ owns (c : Thread nD τ) a6 fullShare xo
                ∗ (∃ f, a7.view.loc (c : Thread nD τ) ↦[a7.view.set]{fullShare} a7.view.writes (Elt F) f LM) ∗ (∃ f, a8.view.loc (c : Thread nD τ) ↦[a8.view.set]{fullShare} a8.view.writes (Elt F) f LL) ∗ (∃ f, a9.view.loc (c : Thread nD τ) ↦[a9.view.set]{fullShare} a9.view.writes (Elt F) f LA)) -∗ K ⟨⟩))
          ⊢ wp frame (wpE (defs₀ (F := F)) Variants.none c none) E (cc1__flash_attn_wo_kernel i a2 h2 a3 h3 a4 h4 a5 h5 a6 h6 a7 h7 a8 h8 a9 h9) K } := by
  refine ⟨?_, ?_, ?_, fun xo E K => ?run⟩
  case run =>
    simp only [cc1__flash_attn_wo_kernel_eq_skeleton]; unfold cc1__flash_attn_wo_kernel_skel
    simp only [k1_part1_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
    obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h9.eq_unread hf9
    sl_exec (disch := first | exact hc0 | exact hc1)
    sl_step
    iapply Hk
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]; · iexists _; iexact H7
    isplitl [H8]; · iexists _; iexact H8
    iexists _; iexact H9

end Cert.KernelIdeal.Hand

end
-- ==== Proof.IdealRegion1RunC.lean ====
/-
  The flash-attention body run once, at the last key/value block (the scratch is updated, then the output block is stored from it, one batch slab at a time).
-/
import proofs.«139794_j13168369730002_2_alg».proof.Proof.IdealRegion1RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output buffer and the three scratch buffers, last first, with the proof that on whole memrefs — the four
    inputs at read contents, the output at anything, the scratch at what the block before left — the body
    runs to its return with the inputs as they were and each stored buffer with its pieces written. -/
noncomputable def kernelRun1_C (c : Dev nD) (i : grid1.Coords) (a2 : Memref sig .tc .vmem S2x512x1024 .bf16) (h2 : a2.IsWhole) (a3 : Memref sig .tc .vmem S2x256x1024 .bf16) (h3 : a3.IsWhole) (a4 : Memref sig .tc .vmem S2x256x1024 .bf16) (h4 : a4.IsWhole) (a5 : Memref sig .tc .vmem S1024x1024 .bf16) (h5 : a5.IsWhole) (a6 : Memref sig .tc .vmem S2x512x1024 .f32) (h6 : a6.IsWhole) (a7 : Memref sig .tc .vmem S2x512x1 .f32) (h7 : a7.IsWhole) (a8 : Memref sig .tc .vmem S2x512x1 .f32) (h8 : a8.IsWhole) (a9 : Memref sig .tc .vmem S2x512x1024 .f32) (h9 : a9.IsWhole) (hc0 : ¬cond1_0 i) (hc1 : cond1_1 i)
    (xq : Vec F S2x512x1024 .bf16) (xk : Vec F S2x256x1024 .bf16) (xv : Vec F S2x256x1024 .bf16) (xw : Vec F S1024x1024 .bf16) (sm : Vec F S2x512x1 .f32) (sl : Vec F S2x512x1 .f32) (sa : Vec F S2x512x1024 .f32) :
    Σ' (LO : List (View.Piece (Elt F) S2x512x1024 .f32)) (LM : List (View.Piece (Elt F) S2x512x1 .f32)) (LL : List (View.Piece (Elt F) S2x512x1 .f32)), { LA : List (View.Piece (Elt F) S2x512x1024 .f32) //
      ∀ (E : Set ℕ) (K : PUnit → sProp 𝕄),
        iprop(owns (c : Thread nD τ) a2 fullShare xq ∗ owns (c : Thread nD τ) a3 fullShare xk ∗ owns (c : Thread nD τ) a4 fullShare xv ∗ owns (c : Thread nD τ) a5 fullShare xw ∗ (∃ d, owns (c : Thread nD τ) a6 fullShare d)
            ∗ owns (c : Thread nD τ) a7 fullShare sm ∗ owns (c : Thread nD τ) a8 fullShare sl ∗ owns (c : Thread nD τ) a9 fullShare sa
            ∗ (iprop(owns (c : Thread nD τ) a2 fullShare xq ∗ owns (c : Thread nD τ) a3 fullShare xk ∗ owns (c : Thread nD τ) a4 fullShare xv ∗ owns (c : Thread nD τ) a5 fullShare xw ∗ (∃ f, a6.view.loc (c : Thread nD τ) ↦[a6.view.set]{fullShare} a6.view.writes (Elt F) f LO)
                ∗ (∃ f, a7.view.loc (c : Thread nD τ) ↦[a7.view.set]{fullShare} a7.view.writes (Elt F) f LM) ∗ (∃ f, a8.view.loc (c : Thread nD τ) ↦[a8.view.set]{fullShare} a8.view.writes (Elt F) f LL) ∗ (∃ f, a9.view.loc (c : Thread nD τ) ↦[a9.view.set]{fullShare} a9.view.writes (Elt F) f LA)) -∗ K ⟨⟩))
          ⊢ wp frame (wpE (defs₀ (F := F)) Variants.none c none) E (cc1__flash_attn_wo_kernel i a2 h2 a3 h3 a4 h4 a5 h5 a6 h6 a7 h7 a8 h8 a9 h9) K } := by
  refine ⟨?_, ?_, ?_, ?_, fun E K => ?run⟩
  case run =>
    simp only [cc1__flash_attn_wo_kernel_eq_skeleton]; unfold cc1__flash_attn_wo_kernel_skel
    simp only [k1_part1_eq_skeleton]
    unfold owns
    iintro ⟨⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, Hk⟩
    obtain rfl := h2.eq_unread hf2; obtain rfl := h3.eq_unread hf3; obtain rfl := h4.eq_unread hf4; obtain rfl := h5.eq_unread hf5; obtain rfl := h7.eq_unread hf7; obtain rfl := h8.eq_unread hf8; obtain rfl := h9.eq_unread hf9
    sl_exec (disch := first | exact hc0 | exact hc1)
    sl_step
    iapply Hk
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]; · iexists _; iexact H6
    isplitl [H7]; · iexists _; iexact H7
    isplitl [H8]; · iexists _; iexact H8
    iexists _; iexact H9

end Cert.KernelIdeal.Hand

end
-- ==== Proof.IdealRegion1.lean ====
/-
  The second kernel region (flash attention), entered with the core's buffers at contents `V`: what the output buffer and
  the three scratch buffers hold after each grid point — by recursion on the point, the case (first, middle or last
  key/value block of a query block) chosen by the closed forms —, the invariant that carries the scratch from one
  point to the next, the region's proof data and its body obligation at a symbolic point.
-/
import proofs.«139794_j13168369730002_2_alg».proof.Proof.IdealRegion1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The runs at a grid point -/

/-- The first-block run at point `t`, on the memrefs the body is called with there and the point's input blocks. -/
abbrev runA (c : Dev nD) (t : Fin cfg1.N) (h0 : cond1_0 (grid1.coords t)) (h1 : ¬cond1_1 (grid1.coords t)) :=
  kernelRun1_A (F := F) c (grid1.coords t) (ms1_0 t) (hs1_0 t) (ms1_1 t) (hs1_1 t) (ms1_2 t) (hs1_2 t) (ms1_3 t) (hs1_3 t) (ms1_4 t) (hs1_4 t) scM (Memref.isWhole_whole _) scL (Memref.isWhole_whole _) scA (Memref.isWhole_whole _) h0 h1 (blk1 V c 0 t) (blk1 V c 1 t) (blk1 V c 2 t) (blk1 V c 3 t)
/-- The middle-block run at point `t`, the scratch at `sm`, `sl`, `sa`. -/
abbrev runB (c : Dev nD) (t : Fin cfg1.N) (h0 : ¬cond1_0 (grid1.coords t)) (h1 : ¬cond1_1 (grid1.coords t)) (sm : Vec F S2x512x1 .f32) (sl : Vec F S2x512x1 .f32) (sa : Vec F S2x512x1024 .f32) :=
  kernelRun1_B (F := F) c (grid1.coords t) (ms1_0 t) (hs1_0 t) (ms1_1 t) (hs1_1 t) (ms1_2 t) (hs1_2 t) (ms1_3 t) (hs1_3 t) (ms1_4 t) (hs1_4 t) scM (Memref.isWhole_whole _) scL (Memref.isWhole_whole _) scA (Memref.isWhole_whole _) h0 h1 (blk1 V c 0 t) (blk1 V c 1 t) (blk1 V c 2 t) (blk1 V c 3 t) sm sl sa
/-- The last-block run at point `t`. -/
abbrev runC (c : Dev nD) (t : Fin cfg1.N) (h0 : ¬cond1_0 (grid1.coords t)) (h1 : cond1_1 (grid1.coords t)) (sm : Vec F S2x512x1 .f32) (sl : Vec F S2x512x1 .f32) (sa : Vec F S2x512x1024 .f32) :=
  kernelRun1_C (F := F) c (grid1.coords t) (ms1_0 t) (hs1_0 t) (ms1_1 t) (hs1_1 t) (ms1_2 t) (hs1_2 t) (ms1_3 t) (hs1_3 t) (ms1_4 t) (hs1_4 t) scM (Memref.isWhole_whole _) scL (Memref.isWhole_whole _) scA (Memref.isWhole_whole _) h0 h1 (blk1 V c 0 t) (blk1 V c 1 t) (blk1 V c 2 t) (blk1 V c 3 t) sm sl sa

/-- Contents nothing reads: the output buffer's at a point where the body does not store into it. -/
def unread : Vec F S2x512x1024 .f32 := VO.read (Elt F) VO.junk

/-! ### First block -/
def sM_A (c : Dev nD) (t : Fin cfg1.N) (h0 : cond1_0 (grid1.coords t)) (h1 : ¬cond1_1 (grid1.coords t)) : Vec F S2x512x1 .f32 :=
  VM.read (Elt F) (VM.writes (Elt F) VM.junk (runA V c t h0 h1).1)
def sL_A (c : Dev nD) (t : Fin cfg1.N) (h0 : cond1_0 (grid1.coords t)) (h1 : ¬cond1_1 (grid1.coords t)) : Vec F S2x512x1 .f32 :=
  VL.read (Elt F) (VL.writes (Elt F) VL.junk (runA V c t h0 h1).2.1)
def sAcc_A (c : Dev nD) (t : Fin cfg1.N) (h0 : cond1_0 (grid1.coords t)) (h1 : ¬cond1_1 (grid1.coords t)) : Vec F S2x512x1024 .f32 :=
  VA.read (Elt F) (VA.writes (Elt F) VA.junk (runA V c t h0 h1).2.2.1)
theorem coverM_A (c : Dev nD) (t : Fin cfg1.N) (h0 : cond1_0 (grid1.coords t)) (h1 : ¬cond1_1 (grid1.coords t)) (y : S2x512x1.Idx) :
    ∃ pc ∈ (runA V c t h0 h1).1, y ∈ pc.1.set :=
  View.cover_of_tiledL (runA V c t h0 h1).1 S2x512x1.size (by sl_kernel_rfl) y
theorem coverL_A (c : Dev nD) (t : Fin cfg1.N) (h0 : cond1_0 (grid1.coords t)) (h1 : ¬cond1_1 (grid1.coords t)) (y : S2x512x1.Idx) :
    ∃ pc ∈ (runA V c t h0 h1).2.1, y ∈ pc.1.set :=
  View.cover_of_tiledL (runA V c t h0 h1).2.1 S2x512x1.size (by sl_kernel_rfl) y
theorem coverAcc_A (c : Dev nD) (t : Fin cfg1.N) (h0 : cond1_0 (grid1.coords t)) (h1 : ¬cond1_1 (grid1.coords t)) (y : S2x512x1024.Idx) :
    ∃ pc ∈ (runA V c t h0 h1).2.2.1, y ∈ pc.1.set :=
  View.cover_of_tiledL (runA V c t h0 h1).2.2.1 S2x512x1024.size (by sl_kernel_rfl) y

/-! ### Middle block -/
def sM_B (c : Dev nD) (t : Fin cfg1.N) (h0 : ¬cond1_0 (grid1.coords t)) (h1 : ¬cond1_1 (grid1.coords t)) (sm : Vec F S2x512x1 .f32) (sl : Vec F S2x512x1 .f32) (sa : Vec F S2x512x1024 .f32) : Vec F S2x512x1 .f32 :=
  VM.read (Elt F) (VM.writes (Elt F) VM.junk (runB V c t h0 h1 sm sl sa).1)
def sL_B (c : Dev nD) (t : Fin cfg1.N) (h0 : ¬cond1_0 (grid1.coords t)) (h1 : ¬cond1_1 (grid1.coords t)) (sm : Vec F S2x512x1 .f32) (sl : Vec F S2x512x1 .f32) (sa : Vec F S2x512x1024 .f32) : Vec F S2x512x1 .f32 :=
  VL.read (Elt F) (VL.writes (Elt F) VL.junk (runB V c t h0 h1 sm sl sa).2.1)
def sAcc_B (c : Dev nD) (t : Fin cfg1.N) (h0 : ¬cond1_0 (grid1.coords t)) (h1 : ¬cond1_1 (grid1.coords t)) (sm : Vec F S2x512x1 .f32) (sl : Vec F S2x512x1 .f32) (sa : Vec F S2x512x1024 .f32) : Vec F S2x512x1024 .f32 :=
  VA.read (Elt F) (VA.writes (Elt F) VA.junk (runB V c t h0 h1 sm sl sa).2.2.1)
theorem coverM_B (c : Dev nD) (t : Fin cfg1.N) (h0 : ¬cond1_0 (grid1.coords t)) (h1 : ¬cond1_1 (grid1.coords t)) (sm : Vec F S2x512x1 .f32) (sl : Vec F S2x512x1 .f32) (sa : Vec F S2x512x1024 .f32) (y : S2x512x1.Idx) :
    ∃ pc ∈ (runB V c t h0 h1 sm sl sa).1, y ∈ pc.1.set :=
  View.cover_of_tiledL (runB V c t h0 h1 sm sl sa).1 S2x512x1.size (by sl_kernel_rfl) y
theorem coverL_B (c : Dev nD) (t : Fin cfg1.N) (h0 : ¬cond1_0 (grid1.coords t)) (h1 : ¬cond1_1 (grid1.coords t)) (sm : Vec F S2x512x1 .f32) (sl : Vec F S2x512x1 .f32) (sa : Vec F S2x512x1024 .f32) (y : S2x512x1.Idx) :
    ∃ pc ∈ (runB V c t h0 h1 sm sl sa).2.1, y ∈ pc.1.set :=
  View.cover_of_tiledL (runB V c t h0 h1 sm sl sa).2.1 S2x512x1.size (by sl_kernel_rfl) y
theorem coverAcc_B (c : Dev nD) (t : Fin cfg1.N) (h0 : ¬cond1_0 (grid1.coords t)) (h1 : ¬cond1_1 (grid1.coords t)) (sm : Vec F S2x512x1 .f32) (sl : Vec F S2x512x1 .f32) (sa : Vec F S2x512x1024 .f32) (y : S2x512x1024.Idx) :
    ∃ pc ∈ (runB V c t h0 h1 sm sl sa).2.2.1, y ∈ pc.1.set :=
  View.cover_of_tiledL (runB V c t h0 h1 sm sl sa).2.2.1 S2x512x1024.size (by sl_kernel_rfl) y

/-! ### Last block -/
def sO_C (c : Dev nD) (t : Fin cfg1.N) (h0 : ¬cond1_0 (grid1.coords t)) (h1 : cond1_1 (grid1.coords t)) (sm : Vec F S2x512x1 .f32) (sl : Vec F S2x512x1 .f32) (sa : Vec F S2x512x1024 .f32) : Vec F S2x512x1024 .f32 :=
  VO.read (Elt F) (VO.writes (Elt F) VO.junk (runC V c t h0 h1 sm sl sa).1)
def sM_C (c : Dev nD) (t : Fin cfg1.N) (h0 : ¬cond1_0 (grid1.coords t)) (h1 : cond1_1 (grid1.coords t)) (sm : Vec F S2x512x1 .f32) (sl : Vec F S2x512x1 .f32) (sa : Vec F S2x512x1024 .f32) : Vec F S2x512x1 .f32 :=
  VM.read (Elt F) (VM.writes (Elt F) VM.junk (runC V c t h0 h1 sm sl sa).2.1)
def sL_C (c : Dev nD) (t : Fin cfg1.N) (h0 : ¬cond1_0 (grid1.coords t)) (h1 : cond1_1 (grid1.coords t)) (sm : Vec F S2x512x1 .f32) (sl : Vec F S2x512x1 .f32) (sa : Vec F S2x512x1024 .f32) : Vec F S2x512x1 .f32 :=
  VL.read (Elt F) (VL.writes (Elt F) VL.junk (runC V c t h0 h1 sm sl sa).2.2.1)
def sAcc_C (c : Dev nD) (t : Fin cfg1.N) (h0 : ¬cond1_0 (grid1.coords t)) (h1 : cond1_1 (grid1.coords t)) (sm : Vec F S2x512x1 .f32) (sl : Vec F S2x512x1 .f32) (sa : Vec F S2x512x1024 .f32) : Vec F S2x512x1024 .f32 :=
  VA.read (Elt F) (VA.writes (Elt F) VA.junk (runC V c t h0 h1 sm sl sa).2.2.2.1)
theorem coverO_C (c : Dev nD) (t : Fin cfg1.N) (h0 : ¬cond1_0 (grid1.coords t)) (h1 : cond1_1 (grid1.coords t)) (sm : Vec F S2x512x1 .f32) (sl : Vec F S2x512x1 .f32) (sa : Vec F S2x512x1024 .f32) (y : S2x512x1024.Idx) :
    ∃ pc ∈ (runC V c t h0 h1 sm sl sa).1, y ∈ pc.1.set :=
  View.cover_of_tiledL (runC V c t h0 h1 sm sl sa).1 S1x512x1024.size (by sl_kernel_rfl) y
theorem coverM_C (c : Dev nD) (t : Fin cfg1.N) (h0 : ¬cond1_0 (grid1.coords t)) (h1 : cond1_1 (grid1.coords t)) (sm : Vec F S2x512x1 .f32) (sl : Vec F S2x512x1 .f32) (sa : Vec F S2x512x1024 .f32) (y : S2x512x1.Idx) :
    ∃ pc ∈ (runC V c t h0 h1 sm sl sa).2.1, y ∈ pc.1.set :=
  View.cover_of_tiledL (runC V c t h0 h1 sm sl sa).2.1 S2x512x1.size (by sl_kernel_rfl) y
theorem coverL_C (c : Dev nD) (t : Fin cfg1.N) (h0 : ¬cond1_0 (grid1.coords t)) (h1 : cond1_1 (grid1.coords t)) (sm : Vec F S2x512x1 .f32) (sl : Vec F S2x512x1 .f32) (sa : Vec F S2x512x1024 .f32) (y : S2x512x1.Idx) :
    ∃ pc ∈ (runC V c t h0 h1 sm sl sa).2.2.1, y ∈ pc.1.set :=
  View.cover_of_tiledL (runC V c t h0 h1 sm sl sa).2.2.1 S2x512x1.size (by sl_kernel_rfl) y
theorem coverAcc_C (c : Dev nD) (t : Fin cfg1.N) (h0 : ¬cond1_0 (grid1.coords t)) (h1 : cond1_1 (grid1.coords t)) (sm : Vec F S2x512x1 .f32) (sl : Vec F S2x512x1 .f32) (sa : Vec F S2x512x1024 .f32) (y : S2x512x1024.Idx) :
    ∃ pc ∈ (runC V c t h0 h1 sm sl sa).2.2.2.1, y ∈ pc.1.set :=
  View.cover_of_tiledL (runC V c t h0 h1 sm sl sa).2.2.2.1 S2x512x1024.size (by sl_kernel_rfl) y

/-! ## What the buffers hold after each point -/

/-- After the body at position `n`: the output buffer, the running maximum, the running sum, the running accumulator. -/
def outsAt1 (c : Dev nD) : (n : ℕ) → n < cfg1.N → Vec F S2x512x1024 .f32 × Vec F S2x512x1 .f32 × Vec F S2x512x1 .f32 × Vec F S2x512x1024 .f32
  | 0, hn =>
    have h0 : cond1_0 (grid1.coords ⟨0, hn⟩) := (hcond1_0 ⟨0, hn⟩).mpr (Nat.zero_mod _)
    have h1 : ¬cond1_1 (grid1.coords ⟨0, hn⟩) := fun h => (fun h => by (try dsimp only at h); omega) ((hcond1_1 ⟨0, hn⟩).mp h)
    (unread, sM_A V c ⟨0, hn⟩ h0 h1, sL_A V c ⟨0, hn⟩ h0 h1, sAcc_A V c ⟨0, hn⟩ h0 h1)
  | n + 1, hn =>
    if h0 : (n + 1) % 16 = 0 then
      if h1 : (n + 1) % 16 = 15 then False.elim (by omega)
      else
        (unread, sM_A V c ⟨n + 1, hn⟩ ((hcond1_0 ⟨n + 1, hn⟩).mpr h0) (fun h => h1 ((hcond1_1 ⟨n + 1, hn⟩).mp h)),
          sL_A V c ⟨n + 1, hn⟩ ((hcond1_0 ⟨n + 1, hn⟩).mpr h0) (fun h => h1 ((hcond1_1 ⟨n + 1, hn⟩).mp h)),
          sAcc_A V c ⟨n + 1, hn⟩ ((hcond1_0 ⟨n + 1, hn⟩).mpr h0) (fun h => h1 ((hcond1_1 ⟨n + 1, hn⟩).mp h)))
    else
      if h1 : (n + 1) % 16 = 15 then
        (sO_C V c ⟨n + 1, hn⟩ (fun h => h0 ((hcond1_0 ⟨n + 1, hn⟩).mp h)) ((hcond1_1 ⟨n + 1, hn⟩).mpr h1) (outsAt1 c n (Nat.lt_of_succ_lt hn)).2.1 (outsAt1 c n (Nat.lt_of_succ_lt hn)).2.2.1 (outsAt1 c n (Nat.lt_of_succ_lt hn)).2.2.2,
          sM_C V c ⟨n + 1, hn⟩ (fun h => h0 ((hcond1_0 ⟨n + 1, hn⟩).mp h)) ((hcond1_1 ⟨n + 1, hn⟩).mpr h1) (outsAt1 c n (Nat.lt_of_succ_lt hn)).2.1 (outsAt1 c n (Nat.lt_of_succ_lt hn)).2.2.1 (outsAt1 c n (Nat.lt_of_succ_lt hn)).2.2.2,
          sL_C V c ⟨n + 1, hn⟩ (fun h => h0 ((hcond1_0 ⟨n + 1, hn⟩).mp h)) ((hcond1_1 ⟨n + 1, hn⟩).mpr h1) (outsAt1 c n (Nat.lt_of_succ_lt hn)).2.1 (outsAt1 c n (Nat.lt_of_succ_lt hn)).2.2.1 (outsAt1 c n (Nat.lt_of_succ_lt hn)).2.2.2,
          sAcc_C V c ⟨n + 1, hn⟩ (fun h => h0 ((hcond1_0 ⟨n + 1, hn⟩).mp h)) ((hcond1_1 ⟨n + 1, hn⟩).mpr h1) (outsAt1 c n (Nat.lt_of_succ_lt hn)).2.1 (outsAt1 c n (Nat.lt_of_succ_lt hn)).2.2.1 (outsAt1 c n (Nat.lt_of_succ_lt hn)).2.2.2)
      else
        (unread,
          sM_B V c ⟨n + 1, hn⟩ (fun h => h0 ((hcond1_0 ⟨n + 1, hn⟩).mp h)) (fun h => h1 ((hcond1_1 ⟨n + 1, hn⟩).mp h)) (outsAt1 c n (Nat.lt_of_succ_lt hn)).2.1 (outsAt1 c n (Nat.lt_of_succ_lt hn)).2.2.1 (outsAt1 c n (Nat.lt_of_succ_lt hn)).2.2.2,
          sL_B V c ⟨n + 1, hn⟩ (fun h => h0 ((hcond1_0 ⟨n + 1, hn⟩).mp h)) (fun h => h1 ((hcond1_1 ⟨n + 1, hn⟩).mp h)) (outsAt1 c n (Nat.lt_of_succ_lt hn)).2.1 (outsAt1 c n (Nat.lt_of_succ_lt hn)).2.2.1 (outsAt1 c n (Nat.lt_of_succ_lt hn)).2.2.2,
          sAcc_B V c ⟨n + 1, hn⟩ (fun h => h0 ((hcond1_0 ⟨n + 1, hn⟩).mp h)) (fun h => h1 ((hcond1_1 ⟨n + 1, hn⟩).mp h)) (outsAt1 c n (Nat.lt_of_succ_lt hn)).2.1 (outsAt1 c n (Nat.lt_of_succ_lt hn)).2.2.1 (outsAt1 c n (Nat.lt_of_succ_lt hn)).2.2.2)

/-- What the point before `t` left (used at points that are not the first of a query block). -/
abbrev prev1 (c : Dev nD) (t : Fin cfg1.N) : Vec F S2x512x1024 .f32 × Vec F S2x512x1 .f32 × Vec F S2x512x1 .f32 × Vec F S2x512x1024 .f32 :=
  outsAt1 V c (t.val - 1) (Nat.lt_of_le_of_lt (Nat.sub_le _ _) t.isLt)

theorem outsAt1_A (c : Dev nD) (t : Fin cfg1.N) (h0 : t.val % 16 = 0) (h1 : ¬t.val % 16 = 15) :
    outsAt1 V c t.val t.isLt = (unread, sM_A V c t ((hcond1_0 t).mpr h0) (fun h => h1 ((hcond1_1 t).mp h)),
      sL_A V c t ((hcond1_0 t).mpr h0) (fun h => h1 ((hcond1_1 t).mp h)), sAcc_A V c t ((hcond1_0 t).mpr h0) (fun h => h1 ((hcond1_1 t).mp h))) := by
  obtain ⟨n, hn⟩ := t
  cases n with
  | zero => exact rfl
  | succ n => exact (dif_pos h0).trans ((dif_neg h1).trans rfl)

theorem outsAt1_B (c : Dev nD) (t : Fin cfg1.N) (h0 : ¬t.val % 16 = 0) (h1 : ¬t.val % 16 = 15) :
    outsAt1 V c t.val t.isLt = (unread,
      sM_B V c t (fun h => h0 ((hcond1_0 t).mp h)) (fun h => h1 ((hcond1_1 t).mp h)) (prev1 V c t).2.1 (prev1 V c t).2.2.1 (prev1 V c t).2.2.2,
      sL_B V c t (fun h => h0 ((hcond1_0 t).mp h)) (fun h => h1 ((hcond1_1 t).mp h)) (prev1 V c t).2.1 (prev1 V c t).2.2.1 (prev1 V c t).2.2.2,
      sAcc_B V c t (fun h => h0 ((hcond1_0 t).mp h)) (fun h => h1 ((hcond1_1 t).mp h)) (prev1 V c t).2.1 (prev1 V c t).2.2.1 (prev1 V c t).2.2.2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 16 = 0) (h1 : t.val % 16 = 15) :
    outsAt1 V c t.val t.isLt = (
      sO_C V c t (fun h => h0 ((hcond1_0 t).mp h)) ((hcond1_1 t).mpr h1) (prev1 V c t).2.1 (prev1 V c t).2.2.1 (prev1 V c t).2.2.2,
      sM_C V c t (fun h => h0 ((hcond1_0 t).mp h)) ((hcond1_1 t).mpr h1) (prev1 V c t).2.1 (prev1 V c t).2.2.1 (prev1 V c t).2.2.2,
      sL_C V c t (fun h => h0 ((hcond1_0 t).mp h)) ((hcond1_1 t).mpr h1) (prev1 V c t).2.1 (prev1 V c t).2.2.1 (prev1 V c t).2.2.2,
      sAcc_C V c t (fun h => h0 ((hcond1_0 t).mp h)) ((hcond1_1 t).mpr h1) (prev1 V c t).2.1 (prev1 V c t).2.2.1 (prev1 V c t).2.2.2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before position `n`: at the region's entry the entry invariant (every scratch buffer at anything); afterwards the other
    region's staging buffers at anything, the three scratch buffers at what the point before left, the generator register at
    some state. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ owns (c : Thread nD τ) scM fullShare ((outsAt1 V c n hn).2.1) ∗ owns (c : Thread nD τ) scL fullShare ((outsAt1 V c n hn).2.2.1) ∗ owns (c : Thread nD τ) scA fullShare ((outsAt1 V c n hn).2.2.2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ owns (c : Thread nD τ) scM fullShare ((outsAt1 V c n hn).2.1) ∗ owns (c : Thread nD τ) scL fullShare ((outsAt1 V c n hn).2.2.1) ∗ owns (c : Thread nD τ) scA fullShare ((outsAt1 V c n hn).2.2.2)) ∗ (∃ r, prngReg c r)) := rfl

theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ owns (c : Thread nD τ) scM fullShare ((outsAt1 V c (n - 1) (by omega)).2.1) ∗ owns (c : Thread nD τ) scL fullShare ((outsAt1 V c (n - 1) (by omega)).2.2.1) ∗ owns (c : Thread nD τ) scA fullShare ((outsAt1 V c (n - 1) (by omega)).2.2.2)) ∗ (∃ r, prngReg c r)) := by
  cases n with
  | zero => exact absurd rfl hz
  | succ n => rfl

/-! ## The region's proof data -/

def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = blk1 V c 3 t := by dsimp only [dat1]
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = blk1 V c 0 t :=
  before1_0_of V (dat1 V c) (A_eq1 V c 0) (after1_0 V c) t d
theorem before1_1 (c : Dev nD) (t : Fin cfg1.N) (d) : (dat1 V c).before 1 t d = blk1 V c 1 t :=
  before1_1_of V (dat1 V c) (A_eq1 V c 1) (after1_1 V c) t d
theorem before1_2 (c : Dev nD) (t : Fin cfg1.N) (d) : (dat1 V c).before 2 t d = blk1 V c 2 t :=
  before1_2_of V (dat1 V c) (A_eq1 V c 2) (after1_2 V c) t d
theorem before1_3 (c : Dev nD) (t : Fin cfg1.N) (d) : (dat1 V c).before 3 t d = blk1 V c 3 t :=
  before1_3_of V (dat1 V c) (A_eq1 V c 3) (after1_3 V c) t d

/-! ## The body obligation, at a symbolic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t
    ∗ (dat1 V c).leavesExact 3 t ∗ (dat1 V c).leavesExact 4 t)

theorem leaves1_0 (c : Dev nD) (t : Fin cfg1.N) : (dat1 V c).leavesExact 0 t = owns (c : Thread nD τ) (ms1_0 t) fullShare (blk1 V c 0 t) := by
  unfold Dat.leavesExact; rw [liveAt1_0 t, after1_0]
theorem leaves1_1 (c : Dev nD) (t : Fin cfg1.N) : (dat1 V c).leavesExact 1 t = owns (c : Thread nD τ) (ms1_1 t) fullShare (blk1 V c 1 t) := by
  unfold Dat.leavesExact; rw [liveAt1_1 t, after1_1]
theorem leaves1_2 (c : Dev nD) (t : Fin cfg1.N) : (dat1 V c).leavesExact 2 t = owns (c : Thread nD τ) (ms1_2 t) fullShare (blk1 V c 2 t) := by
  unfold Dat.leavesExact; rw [liveAt1_2 t, after1_2]
theorem leaves1_3 (c : Dev nD) (t : Fin cfg1.N) : (dat1 V c).leavesExact 3 t = owns (c : Thread nD τ) (ms1_3 t) fullShare (blk1 V c 3 t) := by
  unfold Dat.leavesExact; rw [liveAt1_3 t, after1_3]

set_option maxHeartbeats 8000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  rw [leaves1_0, leaves1_1, leaves1_2, leaves1_3]
  have hN : t.val < 128 := lt_of_lt_of_eq t.isLt (show cfg1.N = 128 from N_1)
  by_cases h0 : t.val % 16 = 0
  · by_cases h1 : t.val % 16 = 15
    · exfalso; omega
    · have hc0 : cond1_0 (grid1.coords t) := (hcond1_0 t).mpr h0
      have hc1 : ¬cond1_1 (grid1.coords t) := fun h => h1 ((hcond1_1 t).mp h)
      rw [Dat.leavesExact_idle (dat1 V c) 4 t (idleAt1_4 t hc1) (noFlush1_4 t hc1)]
      rw [outsAt1_A V c t h0 h1]
      unfold sM_A sL_A sAcc_A; (try dsimp only)
      by_cases hz : t.val = 0
      · rw [PhiS_castSucc V c t, PhiS_zero V c _ _ hz, PhiA1_eq]
        iintro ⟨⟨⟨R1, R2, R3, R4, R5, R6, R7, R8, R9, R10, R11, HS0, HS1, HS2⟩, Hg⟩, Ho, ⟨%d0, H0⟩, ⟨%d1, H1⟩, ⟨%d2, H2⟩, ⟨%d3, H3⟩, ⟨%d4, H4⟩⟩
        iapply ((runA V c t hc0 hc1).2.2.2 _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        iintro ⟨H0, H1, H2, H3, H4, ⟨%e7, H7⟩, ⟨%e8, H8⟩, ⟨%e9, H9⟩⟩
        isplitl [R1 R2 R3 R4 R5 R6 R7 R8 R9 R10 R11 H7 H8 H9 Hg]
        · isplitl [R1 R2 R3 R4 R5 R6 R7 R8 R9 R10 R11 H7 H8 H9]
          · isplitl [R1]; · iexact R1
            isplitl [R2]; · iexact R2
            isplitl [R3]; · iexact R3
            isplitl [R4]; · iexact R4
            isplitl [R5]; · iexact R5
            isplitl [R6]; · iexact R6
            isplitl [R7]; · iexact R7
            isplitl [R8]; · iexact R8
            isplitl [R9]; · iexact R9
            isplitl [R10]; · iexact R10
            isplitl [R11]; · iexact R11
            isplitl [H7]
            · unfold owns; iexists _; isplitr
              swap; · iexact H7
              ipureintro; exact View.read_writes_of_cover _ _ _ _ _ (coverM_A V c t hc0 hc1)
            isplitl [H8]
            · unfold owns; iexists _; isplitr
              swap; · iexact H8
              ipureintro; exact View.read_writes_of_cover _ _ _ _ _ (coverL_A V c t hc0 hc1)
            unfold owns; iexists _; isplitr
            swap; · iexact H9
            ipureintro; exact View.read_writes_of_cover _ _ _ _ _ (coverAcc_A V c t hc0 hc1)
          iexact Hg
        isplitl [Ho]; · iexact Ho
        isplitl [H0]; · iexact H0
        isplitl [H1]; · iexact H1
        isplitl [H2]; · iexact H2
        isplitl [H3]; · iexact H3
        iexists _; iexact H4
      · rw [PhiS_castSucc V c t, PhiS_pos V c _ _ hz]
        iintro ⟨⟨⟨R1, R2, R3, R4, R5, R6, R7, R8, R9, R10, R11, HS0, HS1, HS2⟩, Hg⟩, Ho, ⟨%d0, H0⟩, ⟨%d1, H1⟩, ⟨%d2, H2⟩, ⟨%d3, H3⟩, ⟨%d4, H4⟩⟩
        iapply ((runA V c t hc0 hc1).2.2.2 _ Set.univ _)
        isplitl [H0]; · iexact H0
        isplitl [H1]; · iexact H1
        isplitl [H2]; · iexact H2
        isplitl [H3]; · iexact H3
        isplitl [H4]; · iexact H4
        isplitl [HS0]; · iexists _; iexact HS0
        isplitl [HS1]; · iexists _; iexact HS1
        isplitl [HS2]; · iexists _; iexact HS2
        iintro ⟨H0, H1, H2, H3, H4, ⟨%e7, H7⟩, ⟨%e8, H8⟩, ⟨%e9, H9⟩⟩
        isplitl [R1 R2 R3 R4 R5 R6 R7 R8 R9 R10 R11 H7 H8 H9 Hg]
        · isplitl [R1 R2 R3 R4 R5 R6 R7 R8 R9 R10 R11 H7 H8 H9]
          · isplitl [R1]; · iexact R1
            isplitl [R2]; · iexact R2
            isplitl [R3]; · iexact R3
            isplitl [R4]; · iexact R4
            isplitl [R5]; · iexact R5
            isplitl [R6]; · iexact R6
            isplitl [R7]; · iexact R7
            isplitl [R8]; · iexact R8
            isplitl [R9]; · iexact R9
            isplitl [R10]; · iexact R10
            isplitl [R11]; · iexact R11
            isplitl [H7]
            · unfold owns; iexists _; isplitr
              swap; · iexact H7
              ipureintro; exact View.read_writes_of_cover _ _ _ _ _ (coverM_A V c t hc0 hc1)
            isplitl [H8]
            · unfold owns; iexists _; isplitr
              swap; · iexact H8
              ipureintro; exact View.read_writes_of_cover _ _ _ _ _ (coverL_A V c t hc0 hc1)
            unfold owns; iexists _; isplitr
            swap; · iexact H9
            ipureintro; exact View.read_writes_of_cover _ _ _ _ _ (coverAcc_A V c t hc0 hc1)
          iexact Hg
        isplitl [Ho]; · iexact Ho
        isplitl [H0]; · iexact H0
        isplitl [H1]; · iexact H1
        isplitl [H2]; · iexact H2
        isplitl [H3]; · iexact H3
        iexists _; iexact H4
  · have hz : t.val ≠ 0 := fun h => h0 (by rw [h])
    have hc0 : ¬cond1_0 (grid1.coords t) := fun h => h0 ((hcond1_0 t).mp h)
    by_cases h1 : t.val % 16 = 15
    · have hc1 : cond1_1 (grid1.coords t) := (hcond1_1 t).mpr h1
      rw [show (dat1 V c).leavesExact 4 t = owns (c : Thread nD τ) (ms1_4 t) fullShare ((dat1 V c).after 4 t) from by
        unfold Dat.leavesExact; rw [liveAt1_4 t hc1], after1_4]
      rw [outsAt1_C V c t h0 h1]
      unfold sO_C sM_C sL_C sAcc_C; (try dsimp only)
      rw [PhiS_castSucc V c t, PhiS_pos V c _ _ hz]
      iintro ⟨⟨⟨R1, R2, R3, R4, R5, R6, R7, R8, R9, R10, R11, HS0, HS1, HS2⟩, Hg⟩, Ho, ⟨%d0, H0⟩, ⟨%d1, H1⟩, ⟨%d2, H2⟩, ⟨%d3, H3⟩, ⟨%d4, H4⟩⟩
      iapply ((runC V c t hc0 hc1 _ _ _).2.2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      iintro ⟨H0, H1, H2, H3, ⟨%e6, H4⟩, ⟨%e7, H7⟩, ⟨%e8, H8⟩, ⟨%e9, H9⟩⟩
      isplitl [R1 R2 R3 R4 R5 R6 R7 R8 R9 R10 R11 H7 H8 H9 Hg]
      · isplitl [R1 R2 R3 R4 R5 R6 R7 R8 R9 R10 R11 H7 H8 H9]
        · isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [R10]; · iexact R10
          isplitl [R11]; · iexact R11
          isplitl [H7]
          · unfold owns; iexists _; isplitr
            swap; · iexact H7
            ipureintro; exact View.read_writes_of_cover _ _ _ _ _ (coverM_C V c t hc0 hc1 _ _ _)
          isplitl [H8]
          · unfold owns; iexists _; isplitr
            swap; · iexact H8
            ipureintro; exact View.read_writes_of_cover _ _ _ _ _ (coverL_C V c t hc0 hc1 _ _ _)
          unfold owns; iexists _; isplitr
          swap; · iexact H9
          ipureintro; exact View.read_writes_of_cover _ _ _ _ _ (coverAcc_C V c t hc0 hc1 _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverO_C V c t hc0 hc1 _ _ _)
    · have hc1 : ¬cond1_1 (grid1.coords t) := fun h => h1 ((hcond1_1 t).mp h)
      rw [Dat.leavesExact_idle (dat1 V c) 4 t (idleAt1_4 t hc1) (noFlush1_4 t hc1)]
      rw [outsAt1_B V c t h0 h1]
      unfold sM_B sL_B sAcc_B; (try dsimp only)
      rw [PhiS_castSucc V c t, PhiS_pos V c _ _ hz]
      iintro ⟨⟨⟨R1, R2, R3, R4, R5, R6, R7, R8, R9, R10, R11, HS0, HS1, HS2⟩, Hg⟩, Ho, ⟨%d0, H0⟩, ⟨%d1, H1⟩, ⟨%d2, H2⟩, ⟨%d3, H3⟩, ⟨%d4, H4⟩⟩
      iapply ((runB V c t hc0 hc1 _ _ _).2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, ⟨%e7, H7⟩, ⟨%e8, H8⟩, ⟨%e9, H9⟩⟩
      isplitl [R1 R2 R3 R4 R5 R6 R7 R8 R9 R10 R11 H7 H8 H9 Hg]
      · isplitl [R1 R2 R3 R4 R5 R6 R7 R8 R9 R10 R11 H7 H8 H9]
        · isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [R10]; · iexact R10
          isplitl [R11]; · iexact R11
          isplitl [H7]
          · unfold owns; iexists _; isplitr
            swap; · iexact H7
            ipureintro; exact View.read_writes_of_cover _ _ _ _ _ (coverM_B V c t hc0 hc1 _ _ _)
          isplitl [H8]
          · unfold owns; iexists _; isplitr
            swap; · iexact H8
            ipureintro; exact View.read_writes_of_cover _ _ _ _ _ (coverL_B V c t hc0 hc1 _ _ _)
          unfold owns; iexists _; isplitr
          swap; · iexact H9
          ipureintro; exact View.read_writes_of_cover _ _ _ _ _ (coverAcc_B V c t hc0 hc1 _ _ _)
        iexact Hg
      isplitl [Ho]; · iexact Ho
      isplitl [H0]; · iexact H0
      isplitl [H1]; · iexact H1
      isplitl [H2]; · iexact H2
      isplitl [H3]; · iexact H3
      iexists _; iexact H4

/-- The body obligation of the region, at every point. -/
theorem body_obligation1 (c : Dev nD) : BodyObligation (dat1 (F := F) V c) (defs₀ (F := F)) Variants.none () Set.univ := fun t => by
  rw [bigSep_W1, bigSep_W1]
  exact sound_body1 V c t

/-- The entry invariant is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the entry invariant back: the scratch contents are forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 128 := N_1; omega), PhiA1_eq]
  iintro ⟨⟨R1, R2, R3, R4, R5, R6, R7, R8, R9, R10, R11, HS0, HS1, HS2⟩, Hg⟩
  isplitl [R1 R2 R3 R4 R5 R6 R7 R8 R9 R10 R11 HS0 HS1 HS2]
  ·
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [HS0]; · iexists _; iexact HS0
    isplitl [HS1]; · iexists _; iexact HS1
    iexists _; iexact HS2
  iexact Hg

end Cert.KernelIdeal.Hand

end
-- ==== Proof.IdealFrame.lean ====
/-
  The whole program as a run: two stretches of host operations and two kernel regions, in order.  The buffer contents at
  each boundary are a fold from the launch memory — a host stretch applies its operations, a region leaves each of its
  arrays at what its write-backs leave and every other buffer as entered —; each region is a segment over the thread
  state "every unscoped buffer at the boundary's contents, the generator register at some state, nothing owed"; and the
  run ends with every unscoped buffer at the last boundary's contents.  Read at an argument that is the launch memory
  (no item writes an argument); read at the result it is what the second region's write-backs leave.
-/
import proofs.«139794_j13168369730002_2_alg».proof.Proof.IdealRegion0
import proofs.«139794_j13168369730002_2_alg».proof.Proof.IdealRegion1
import proofs.«139794_j13168369730002_2_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
/-- After the first host stretch (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the second region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the second region's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- A buffer no host stretch writes and no region has as a window's array ends as launched. -/
theorem W4_unwritten (c : Dev nD) (r : Ref sig .tc) (h0 : r ∉ hostOps0_W) (h0' : ∀ w, Pipeline.arrRef spec0 w ≠ r)
    (h1 : r ∉ hostOps1_W) (h1' : ∀ w, Pipeline.arrRef spec1 w ≠ r) :
    W4 m ρ c (Proc.devRef .tc r) = m ((c : Thread nD τ).loc r) :=
  calc W4 m ρ c (Proc.devRef .tc r)
    _ = W3 m ρ c (Proc.devRef .tc r) := W4_of_ne m ρ c r h1'
    _ = W2 m ρ c (Proc.devRef .tc r) := StableHlo.after_of_writes_sub hostOps1 _ hostOps1_writes h1
    _ = W1 m ρ c (Proc.devRef .tc r) := W2_of_ne m ρ c r h0'
    _ = W0 m ρ c (Proc.devRef .tc r) := StableHlo.after_of_writes_sub hostOps0 _ hostOps0_writes h0
    _ = m ((c : Thread nD τ).loc r) := rfl

theorem W4_main_arg0 (c : Dev nD) : W4 m ρ c (Proc.devRef .tc main_arg0) = m ((c : Thread nD τ).loc main_arg0) :=
  W4_unwritten m ρ c main_arg0 (by decide) (by decide) (by decide) (by decide)
theorem W4_main_arg1 (c : Dev nD) : W4 m ρ c (Proc.devRef .tc main_arg1) = m ((c : Thread nD τ).loc main_arg1) :=
  W4_unwritten m ρ c main_arg1 (by decide) (by decide) (by decide) (by decide)
theorem W4_main_arg2 (c : Dev nD) : W4 m ρ c (Proc.devRef .tc main_arg2) = m ((c : Thread nD τ).loc main_arg2) :=
  W4_unwritten m ρ c main_arg2 (by decide) (by decide) (by decide) (by decide)
theorem W4_main_arg3 (c : Dev nD) : W4 m ρ c (Proc.devRef .tc main_arg3) = m ((c : Thread nD τ).loc main_arg3) :=
  W4_unwritten m ρ c main_arg3 (by decide) (by decide) (by decide) (by decide)
theorem W4_main_arg4 (c : Dev nD) : W4 m ρ c (Proc.devRef .tc main_arg4) = m ((c : Thread nD τ).loc main_arg4) :=
  W4_unwritten m ρ c main_arg4 (by decide) (by decide) (by decide) (by decide)

/-! ## The proof data family and the thread state -/

abbrev adm' : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm' p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The first region: entered from every unscoped buffer at `W1`, left at `W2`. -/
def reg0 : Pipeline.RegionSeg (pcfgs (F := F)) adm' (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm' (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from every unscoped buffer at `W3`, left at `W4`.  Its invariant starts as the entry
    invariant and ends giving it back, the scratch contents forgotten. -/
def reg1 : Pipeline.RegionSeg (pcfgs (F := F)) adm' (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm' (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (hout1 (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm' (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev segs : List (Pipeline.Seg (pcfgs (F := F)) adm' (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- THE RUN. From any memory with zero counters every weakly fair execution of the program on the TensorCores
    terminates, nothing faulting, and every final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm' (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c)⟩) (run_all m ρ)

/-- THE RESULT, NAMED: the run again, the result array at what the second region's write-backs leave and the arguments as
    launched. -/
theorem run_result : θ_run defs (onTc (τ := τ) (main (F := F))) ⟨m, fun _ => 0, ρ⟩ (fun r => ∀ c : Dev nD,
      r.2.mem ((c.tc : Thread nD τ).loc main_v9) = (dat1 (V3 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_v9 (by decide))).trans (W4_arr m ρ c 4),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c)⟩) (run_all m ρ)

end Cert.KernelIdeal.Hand

end
-- ==== Proof.IdealValue0a.lean ====
/-
  The first region's arithmetic at an index, over the extended reals.

  The body rounds its 512 × 1024 block of activations and multiplies it by a 1024 × 1024 weight, contracting the
  second axis of both, into a zero accumulator, and rounds the product.  On the extended reals a rounding is the
  identity and the product into zero is the plain sum: element (p, e) is the sum over d of x(p, d) · w(e, d).
-/
import proofs.«139794_j13168369730002_2_alg».proof.Proof.IdealRegion0
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)

/-! ## The contraction's index maps, by coordinates -/

theorem lhs_qkv_0 (i : S512x1024.Idx) (q : dot_S512x1024_S1024x1024_S512x1024_1_1_0_0_n_n.contr.Idx) :
    (dot_S512x1024_S1024x1024_S512x1024_1_1_0_0_n_n.lhsIdx i q 0).val = (i 0).val := by
  unfold DotDims.lhsIdx
  rw [dif_neg (show ¬(0 : Fin S512x1024.rank) ∈ dot_S512x1024_S1024x1024_S512x1024_1_1_0_0_n_n.lhsBatch by decide),
    dif_pos (show (0 : Fin S512x1024.rank) ∈ dot_S512x1024_S1024x1024_S512x1024_1_1_0_0_n_n.lhsNonContracting by decide)]
  rfl
theorem lhs_qkv_1 (i : S512x1024.Idx) (q : dot_S512x1024_S1024x1024_S512x1024_1_1_0_0_n_n.contr.Idx) :
    (dot_S512x1024_S1024x1024_S512x1024_1_1_0_0_n_n.lhsIdx i q 1).val = (q ⟨0, by decide⟩).val :=
  dot_S512x1024_S1024x1024_S512x1024_1_1_0_0_n_n.lhsIdx_val_of_single rfl i q
theorem rhs_qkv_0 (i : S512x1024.Idx) (q : dot_S512x1024_S1024x1024_S512x1024_1_1_0_0_n_n.contr.Idx) :
    (dot_S512x1024_S1024x1024_S512x1024_1_1_0_0_n_n.rhsIdx i q 0).val = (i 1).val := by
  unfold DotDims.rhsIdx
  rw [dif_neg (show ¬(0 : Fin S1024x1024.rank) ∈ dot_S512x1024_S1024x1024_S512x1024_1_1_0_0_n_n.rhsBatch by decide),
    dif_pos (show (0 : Fin S1024x1024.rank) ∈ dot_S512x1024_S1024x1024_S512x1024_1_1_0_0_n_n.rhsNonContracting by decide)]
  rfl
theorem rhs_qkv_1 (i : S512x1024.Idx) (q : dot_S512x1024_S1024x1024_S512x1024_1_1_0_0_n_n.contr.Idx) :
    (dot_S512x1024_S1024x1024_S512x1024_1_1_0_0_n_n.rhsIdx i q 1).val = (q ⟨0, by decide⟩).val :=
  dot_S512x1024_S1024x1024_S512x1024_1_1_0_0_n_n.rhsIdx_val_of_single rfl i q

/-! ## The product into zero at an index -/

/-- Row block times weight, both contracted along their second axis, into the zero accumulator: element (p, e). -/
theorem matmul_qkv_apply (x : FVec Ideal S512x1024 .bf16) (w : FVec Ideal S1024x1024 .bf16) (p : Fin 512) (e : Fin 1024) :
    (matmul (F := Ideal) dot_S512x1024_S1024x1024_S512x1024_1_1_0_0_n_n none x w (constant (F := Ideal) S512x1024 .f32 0x00000000#32)
        : FVec Ideal S512x1024 .f32) (ix2 p e)
      = ∑ d : Fin 1024, (x (ix2 p d) : EReal) * (w (ix2 e d) : EReal) := by
  show FloatOps.matmul _ _ _ _ _ _ = _
  rw [Ideal.matmul_constant_zero_apply,
    ← Equiv.sum_comp (ValueIdx.contrEquiv1 dot_S512x1024_S1024x1024_S512x1024_1_1_0_0_n_n 1024 rfl rfl).symm]
  refine Finset.sum_congr rfl fun k _ => ?_
  have hk := ValueIdx.contrEquiv1_symm_val dot_S512x1024_S1024x1024_S512x1024_1_1_0_0_n_n 1024 rfl rfl k
  have el : dot_S512x1024_S1024x1024_S512x1024_1_1_0_0_n_n.lhsIdx (ix2 p e)
      ((ValueIdx.contrEquiv1 dot_S512x1024_S1024x1024_S512x1024_1_1_0_0_n_n 1024 rfl rfl).symm k) = ix2 p k :=
    funext fun a => Fin.ext (by
      match a with
      | ⟨0, _⟩ => exact lhs_qkv_0 _ _
      | ⟨1, _⟩ => exact (lhs_qkv_1 _ _).trans hk)
  have er : dot_S512x1024_S1024x1024_S512x1024_1_1_0_0_n_n.rhsIdx (ix2 p e)
      ((ValueIdx.contrEquiv1 dot_S512x1024_S1024x1024_S512x1024_1_1_0_0_n_n 1024 rfl rfl).symm k) = ix2 e k :=
    funext fun a => Fin.ext (by
      match a with
      | ⟨0, _⟩ => exact rhs_qkv_0 _ _
      | ⟨1, _⟩ => exact (rhs_qkv_1 _ _).trans hk)
  rw [el, er]

/-! ## The three payloads at an index -/

/-- The rounded block is the block. -/
theorem pay1_eq (x : Vec Ideal S512x1024 .f32) : (k0_pay1 (F := Ideal) x : S512x1024.Idx → EReal) = x := by
  unfold k0_pay1
  rw [shapeCast_self]
  rfl

/-- The q payload at (p, e). -/
theorem pay2_apply (x : Vec Ideal S512x1024 .f32) (w : Vec Ideal S1024x1024 .bf16) (p : Fin 512) (e : Fin 1024) :
    (k0_pay2 (F := Ideal) x w : S512x1024.Idx → EReal) (ix2 p e)
      = ∑ d : Fin 1024, (x (ix2 p d) : EReal) * (w (ix2 e d) : EReal) := by
  unfold k0_pay2
  rw [shapeCast_self]
  refine (matmul_qkv_apply (k0_pay1 (F := Ideal) x) w p e).trans ?_
  rw [pay1_eq]

/-- The k payload at (p, e). -/
theorem pay3_apply (x : Vec Ideal S512x1024 .f32) (w : Vec Ideal S1024x1024 .bf16) (p : Fin 512) (e : Fin 1024) :
    (k0_pay3 (F := Ideal) x w : S512x1024.Idx → EReal) (ix2 p e)
      = ∑ d : Fin 1024, (x (ix2 p d) : EReal) * (w (ix2 e d) : EReal) := by
  unfold k0_pay3
  rw [shapeCast_self]
  refine (matmul_qkv_apply (k0_pay1 (F := Ideal) x) w p e).trans ?_
  rw [pay1_eq]

/-- The v payload at (p, e). -/
theorem pay4_apply (x : Vec Ideal S512x1024 .f32) (w : Vec Ideal S1024x1024 .bf16) (p : Fin 512) (e : Fin 1024) :
    (k0_pay4 (F := Ideal) x w : S512x1024.Idx → EReal) (ix2 p e)
      = ∑ d : Fin 1024, (x (ix2 p d) : EReal) * (w (ix2 e d) : EReal) := by
  unfold k0_pay4
  rw [shapeCast_self]
  refine (matmul_qkv_apply (k0_pay1 (F := Ideal) x) w p e).trans ?_
  rw [pay1_eq]

/-! ## What the body's stores leave -/

theorem hz : (![0, 0] : Fin 2 → Nat) = fun _ => 0 := funext fun a => by fin_cases a <;> rfl

/-- One store of the whole block leaves its payload; the loads read the whole staging buffers. -/
theorem outQ_eq (x : Vec Ideal S512x1024 .f32) (w : Vec Ideal S1024x1024 .bf16) : outQ (F := Ideal) x w = k0_pay2 x w := by
  unfold outQ
  rw [View.canon_unit_zero hz]
  simp only [View.ld_unit_zero (S := S512x1024) hz, View.ld_unit_zero (S := S1024x1024) hz]
theorem outK_eq (x : Vec Ideal S512x1024 .f32) (w : Vec Ideal S1024x1024 .bf16) : outK (F := Ideal) x w = k0_pay3 x w := by
  unfold outK
  rw [View.canon_unit_zero hz]
  simp only [View.ld_unit_zero (S := S512x1024) hz, View.ld_unit_zero (S := S1024x1024) hz]
theorem outV_eq (x : Vec Ideal S512x1024 .f32) (w : Vec Ideal S1024x1024 .bf16) : outV (F := Ideal) x w = k0_pay4 x w := by
  unfold outV
  rw [View.canon_unit_zero hz]
  simp only [View.ld_unit_zero (S := S512x1024) hz, View.ld_unit_zero (S := S1024x1024) hz]

end Cert.KernelIdeal.Hand

end
-- ==== Proof.IdealValue0.lean ====
/-
  The first region's three output arrays after the region, as functions of the arrays it is entered with.

  Grid point t reads rows 512·t … 512·t + 511 of the activations and the whole of each weight, and writes the same rows
  of each output; the sixteen row blocks tile the 8192 rows.  So each output array ends, at (r, e), at the sum over d
  of activations(r, d) · weight(e, d).
-/
import proofs.«139794_j13168369730002_2_alg».proof.Proof.IdealValue0a

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-- The projection of the rows of `X` by the rows of `Wt`. -/
abbrev projArr (X : S8192x1024.Idx → EReal) (Wt : S1024x1024.Idx → EReal) : S8192x1024.Idx → EReal :=
  fun i => ∑ d : Fin 1024, X (ix2 (i 0) d) * Wt (ix2 (i 1) d)

/-! ## The index maps, decided over the grid -/

/-- The activations' and the outputs' windows are at row block t; the weights' windows never move. -/
theorem idx_facts : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0) :=
  (by decide +kernel : ∀ t : Fin grid0.N, _)

/-! ## The input blocks, read off the arrays -/

/-- The activations' block at point t is rows 512·t … of the array. -/
theorem blk0_x_apply (c : Dev nD) (t : Fin cfg0.N) (y : S512x1024.Idx) (k : S8192x1024.Idx)
    (hk0 : (k 0).val = t.val * 512 + (y 0).val) (hk1 : (k 1).val = (y 1).val) :
    (blk0 V c 0 t : Vec Ideal S512x1024 .f32) y = (V c main_v0 : S8192x1024.Idx → EReal) k := by
  obtain ⟨⟨h0, h1⟩, -⟩ := idx_facts t
  unfold blk0
  rw [View.read_apply]
  show V c main_v0 _ = V c main_v0 _
  congr 1
  funext a
  apply Fin.ext
  match a with
  | ⟨0, _⟩ => show win0_0.index t 0 * 512 + 1 * (y 0).val = (k 0).val; rw [h0, hk0]; omega
  | ⟨1, _⟩ => show win0_0.index t 1 * 1024 + 1 * (y 1).val = (k 1).val; rw [h1, hk1]; omega

/-- A weight's block at any point is the whole array. -/
theorem blk0_w1_apply (c : Dev nD) (t : Fin cfg0.N) (y : S1024x1024.Idx) :
    (blk0 V c 1 t : Vec Ideal S1024x1024 .bf16) y = (V c main_v1 : S1024x1024.Idx → EReal) y := by
  obtain ⟨-, ⟨h0, h1⟩, -⟩ := idx_facts t
  unfold blk0
  rw [View.read_apply]
  show V c main_v1 _ = V c main_v1 _
  congr 1
  funext a
  apply Fin.ext
  match a with
  | ⟨0, _⟩ => show win0_1.index t 0 * 1024 + 1 * (y 0).val = (y 0).val; rw [h0]; omega
  | ⟨1, _⟩ => show win0_1.index t 1 * 1024 + 1 * (y 1).val = (y 1).val; rw [h1]; omega
theorem blk0_w2_apply (c : Dev nD) (t : Fin cfg0.N) (y : S1024x1024.Idx) :
    (blk0 V c 2 t : Vec Ideal S1024x1024 .bf16) y = (V c main_v2 : S1024x1024.Idx → EReal) y := by
  obtain ⟨-, -, ⟨h0, h1⟩, -⟩ := idx_facts t
  unfold blk0
  rw [View.read_apply]
  show V c main_v2 _ = V c main_v2 _
  congr 1
  funext a
  apply Fin.ext
  match a with
  | ⟨0, _⟩ => show win0_2.index t 0 * 1024 + 1 * (y 0).val = (y 0).val; rw [h0]; omega
  | ⟨1, _⟩ => show win0_2.index t 1 * 1024 + 1 * (y 1).val = (y 1).val; rw [h1]; omega
theorem blk0_w3_apply (c : Dev nD) (t : Fin cfg0.N) (y : S1024x1024.Idx) :
    (blk0 V c 3 t : Vec Ideal S1024x1024 .bf16) y = (V c main_v3 : S1024x1024.Idx → EReal) y := by
  obtain ⟨-, -, -, ⟨h0, h1⟩, -⟩ := idx_facts t
  unfold blk0
  rw [View.read_apply]
  show V c main_v3 _ = V c main_v3 _
  congr 1
  funext a
  apply Fin.ext
  match a with
  | ⟨0, _⟩ => show win0_3.index t 0 * 1024 + 1 * (y 0).val = (y 0).val; rw [h0]; omega
  | ⟨1, _⟩ => show win0_3.index t 1 * 1024 + 1 * (y 1).val = (y 1).val; rw [h1]; omega

/-! ## What a point writes back -/

/-- The q payload of the blocks at point t, at (p, e): row 512·t + p of the activations against row e of the weight. -/
theorem pay2_blk_apply (c : Dev nD) (t : Fin cfg0.N) (p : Fin 512) (e : Fin 1024) (k : S8192x1024.Idx)
    (hk0 : (k 0).val = t.val * 512 + p.val) (hk1 : (k 1).val = e.val) :
    (k0_pay2 (F := Ideal) (blk0 V c 0 t) (blk0 V c 1 t) : S512x1024.Idx → EReal) (ix2 p e)
      = projArr (V c main_v0) (V c main_v1) k := by
  rw [pay2_apply]
  refine Finset.sum_congr rfl fun d _ => ?_
  rw [blk0_x_apply V c t (ix2 p d) (ix2 (k 0) d) hk0 rfl, blk0_w1_apply V c t (ix2 e d)]
  have he : k 1 = e := Fin.ext hk1
  rw [he]

/-- What point t writes back to the q output is block t of the projection of the arrays the region is entered with. -/
theorem flushed_q (c : Dev nD) (t : Fin cfg0.N) :
    (dat0 (F := Ideal) V c).flushed 4 t
      = ((cfg0.win 4).blk t).view.read (Elt Ideal) (projArr (V c main_v0) (V c main_v1)) := by
  show (cfg0.win 4).cut (grid0.coords t) ((dat0 V c).after 4 t) = _
  rw [after0_4, outQ_eq]
  obtain ⟨-, -, -, -, ⟨h0, h1⟩, -⟩ := idx_facts t
  funext y
  obtain ⟨p, e, rfl⟩ : ∃ (p : Fin 512) (e : Fin 1024), y = ix2 p e := ⟨y 0, y 1, eq_ix2 y⟩
  rw [View.read_apply]
  refine pay2_blk_apply V c t p e _ ?_ ?_
  · show win0_4.index t 0 * 512 + 1 * p.val = t.val * 512 + p.val; rw [h0]; omega
  · show win0_4.index t 1 * 1024 + 1 * e.val = e.val; rw [h1]; omega

/-- An index of the q output is in point t's block iff each coordinate is in the block's range on its axis. -/
theorem mem_blk_q (t : Fin cfg0.N) (i : S8192x1024.Idx) :
    i ∈ ((cfg0.win 4).blk t).view.set ↔ ∀ a : Fin 2, win0_4.index t a * S512x1024.size a ≤ (i a).val
      ∧ (i a).val < win0_4.index t a * S512x1024.size a + S512x1024.size a := by
  show i ∈ ((View.whole main_v5_0).slice (win0_4.rect t)).set ↔ _
  rw [View.set_slice_whole, Rect.mem_set_unit]
  exact Iff.rfl

/-- Row r of the q output is in the block of point r / 512, and every point writes back. -/
theorem cover_q (i : S8192x1024.Idx) :
    ∃ t : Fin cfg0.N, (cfg0.win 4).flush t = true ∧ i ∈ ((cfg0.win 4).blk t).view.set := by
  have hi0 : (i 0).val < 8192 := (i 0).isLt
  have hi1 : (i 1).val < 1024 := (i 1).isLt
  have hN : grid0.N = 16 := N_0
  obtain ⟨t, ht⟩ : ∃ t : Fin cfg0.N, t.val = (i 0).val / 512 := ⟨⟨(i 0).val / 512, by show (i 0).val / 512 < grid0.N; rw [hN]; omega⟩, rfl⟩
  refine ⟨t, flush0_4 t, ?_⟩
  rw [mem_blk_q]
  obtain ⟨-, -, -, -, ⟨h0, h1⟩, -⟩ := idx_facts t
  intro a
  match a with
  | ⟨0, _⟩ =>
    show win0_4.index t 0 * 512 ≤ (i 0).val ∧ (i 0).val < win0_4.index t 0 * 512 + 512
    rw [h0, ht]; omega
  | ⟨1, _⟩ =>
    show win0_4.index t 1 * 1024 ≤ (i 1).val ∧ (i 1).val < win0_4.index t 1 * 1024 + 1024
    rw [h1]; omega

/-- THE Q OUTPUT after the region. -/
theorem region0_q (c : Dev nD) :
    (dat0 (F := Ideal) V c).arrAt 4 cfg0.N
      = projArr (V c main_v0) (V c main_v1) :=
  (dat0 V c).arrAt_eq_of_cover 4 (projArr (V c main_v0) (V c main_v1)) (fun t _ => flushed_q V c t) cover_q

/-- The k payload of the blocks at point t, at (p, e): row 512·t + p of the activations against row e of the weight. -/
theorem pay3_blk_apply (c : Dev nD) (t : Fin cfg0.N) (p : Fin 512) (e : Fin 1024) (k : S8192x1024.Idx)
    (hk0 : (k 0).val = t.val * 512 + p.val) (hk1 : (k 1).val = e.val) :
    (k0_pay3 (F := Ideal) (blk0 V c 0 t) (blk0 V c 2 t) : S512x1024.Idx → EReal) (ix2 p e)
      = projArr (V c main_v0) (V c main_v2) k := by
  rw [pay3_apply]
  refine Finset.sum_congr rfl fun d _ => ?_
  rw [blk0_x_apply V c t (ix2 p d) (ix2 (k 0) d) hk0 rfl, blk0_w2_apply V c t (ix2 e d)]
  have he : k 1 = e := Fin.ext hk1
  rw [he]

/-- What point t writes back to the k output is block t of the projection of the arrays the region is entered with. -/
theorem flushed_k (c : Dev nD) (t : Fin cfg0.N) :
    (dat0 (F := Ideal) V c).flushed 5 t
      = ((cfg0.win 5).blk t).view.read (Elt Ideal) (projArr (V c main_v0) (V c main_v2)) := by
  show (cfg0.win 5).cut (grid0.coords t) ((dat0 V c).after 5 t) = _
  rw [after0_5, outK_eq]
  obtain ⟨-, -, -, -, -, ⟨h0, h1⟩, -⟩ := idx_facts t
  funext y
  obtain ⟨p, e, rfl⟩ : ∃ (p : Fin 512) (e : Fin 1024), y = ix2 p e := ⟨y 0, y 1, eq_ix2 y⟩
  rw [View.read_apply]
  refine pay3_blk_apply V c t p e _ ?_ ?_
  · show win0_5.index t 0 * 512 + 1 * p.val = t.val * 512 + p.val; rw [h0]; omega
  · show win0_5.index t 1 * 1024 + 1 * e.val = e.val; rw [h1]; omega

/-- An index of the k output is in point t's block iff each coordinate is in the block's range on its axis. -/
theorem mem_blk_k (t : Fin cfg0.N) (i : S8192x1024.Idx) :
    i ∈ ((cfg0.win 5).blk t).view.set ↔ ∀ a : Fin 2, win0_5.index t a * S512x1024.size a ≤ (i a).val
      ∧ (i a).val < win0_5.index t a * S512x1024.size a + S512x1024.size a := by
  show i ∈ ((View.whole main_v5_1).slice (win0_5.rect t)).set ↔ _
  rw [View.set_slice_whole, Rect.mem_set_unit]
  exact Iff.rfl

/-- Row r of the k output is in the block of point r / 512, and every point writes back. -/
theorem cover_k (i : S8192x1024.Idx) :
    ∃ t : Fin cfg0.N, (cfg0.win 5).flush t = true ∧ i ∈ ((cfg0.win 5).blk t).view.set := by
  have hi0 : (i 0).val < 8192 := (i 0).isLt
  have hi1 : (i 1).val < 1024 := (i 1).isLt
  have hN : grid0.N = 16 := N_0
  obtain ⟨t, ht⟩ : ∃ t : Fin cfg0.N, t.val = (i 0).val / 512 := ⟨⟨(i 0).val / 512, by show (i 0).val / 512 < grid0.N; rw [hN]; omega⟩, rfl⟩
  refine ⟨t, flush0_5 t, ?_⟩
  rw [mem_blk_k]
  obtain ⟨-, -, -, -, -, ⟨h0, h1⟩, -⟩ := idx_facts t
  intro a
  match a with
  | ⟨0, _⟩ =>
    show win0_5.index t 0 * 512 ≤ (i 0).val ∧ (i 0).val < win0_5.index t 0 * 512 + 512
    rw [h0, ht]; omega
  | ⟨1, _⟩ =>
    show win0_5.index t 1 * 1024 ≤ (i 1).val ∧ (i 1).val < win0_5.index t 1 * 1024 + 1024
    rw [h1]; omega

/-- THE K OUTPUT after the region. -/
theorem region0_k (c : Dev nD) :
    (dat0 (F := Ideal) V c).arrAt 5 cfg0.N
      = projArr (V c main_v0) (V c main_v2) :=
  (dat0 V c).arrAt_eq_of_cover 5 (projArr (V c main_v0) (V c main_v2)) (fun t _ => flushed_k V c t) cover_k

/-- The v payload of the blocks at point t, at (p, e): row 512·t + p of the activations against row e of the weight. -/
theorem pay4_blk_apply (c : Dev nD) (t : Fin cfg0.N) (p : Fin 512) (e : Fin 1024) (k : S8192x1024.Idx)
    (hk0 : (k 0).val = t.val * 512 + p.val) (hk1 : (k 1).val = e.val) :
    (k0_pay4 (F := Ideal) (blk0 V c 0 t) (blk0 V c 3 t) : S512x1024.Idx → EReal) (ix2 p e)
      = projArr (V c main_v0) (V c main_v3) k := by
  rw [pay4_apply]
  refine Finset.sum_congr rfl fun d _ => ?_
  rw [blk0_x_apply V c t (ix2 p d) (ix2 (k 0) d) hk0 rfl, blk0_w3_apply V c t (ix2 e d)]
  have he : k 1 = e := Fin.ext hk1
  rw [he]

/-- What point t writes back to the v output is block t of the projection of the arrays the region is entered with. -/
theorem flushed_v (c : Dev nD) (t : Fin cfg0.N) :
    (dat0 (F := Ideal) V c).flushed 6 t
      = ((cfg0.win 6).blk t).view.read (Elt Ideal) (projArr (V c main_v0) (V c main_v3)) := by
  show (cfg0.win 6).cut (grid0.coords t) ((dat0 V c).after 6 t) = _
  rw [after0_6, outV_eq]
  obtain ⟨-, -, -, -, -, -, ⟨h0, h1⟩⟩ := idx_facts t
  funext y
  obtain ⟨p, e, rfl⟩ : ∃ (p : Fin 512) (e : Fin 1024), y = ix2 p e := ⟨y 0, y 1, eq_ix2 y⟩
  rw [View.read_apply]
  refine pay4_blk_apply V c t p e _ ?_ ?_
  · show win0_6.index t 0 * 512 + 1 * p.val = t.val * 512 + p.val; rw [h0]; omega
  · show win0_6.index t 1 * 1024 + 1 * e.val = e.val; rw [h1]; omega

/-- An index of the v output is in point t's block iff each coordinate is in the block's range on its axis. -/
theorem mem_blk_v (t : Fin cfg0.N) (i : S8192x1024.Idx) :
    i ∈ ((cfg0.win 6).blk t).view.set ↔ ∀ a : Fin 2, win0_6.index t a * S512x1024.size a ≤ (i a).val
      ∧ (i a).val < win0_6.index t a * S512x1024.size a + S512x1024.size a := by
  show i ∈ ((View.whole main_v5_2).slice (win0_6.rect t)).set ↔ _
  rw [View.set_slice_whole, Rect.mem_set_unit]
  exact Iff.rfl

/-- Row r of the v output is in the block of point r / 512, and every point writes back. -/
theorem cover_v (i : S8192x1024.Idx) :
    ∃ t : Fin cfg0.N, (cfg0.win 6).flush t = true ∧ i ∈ ((cfg0.win 6).blk t).view.set := by
  have hi0 : (i 0).val < 8192 := (i 0).isLt
  have hi1 : (i 1).val < 1024 := (i 1).isLt
  have hN : grid0.N = 16 := N_0
  obtain ⟨t, ht⟩ : ∃ t : Fin cfg0.N, t.val = (i 0).val / 512 := ⟨⟨(i 0).val / 512, by show (i 0).val / 512 < grid0.N; rw [hN]; omega⟩, rfl⟩
  refine ⟨t, flush0_6 t, ?_⟩
  rw [mem_blk_v]
  obtain ⟨-, -, -, -, -, -, ⟨h0, h1⟩⟩ := idx_facts t
  intro a
  match a with
  | ⟨0, _⟩ =>
    show win0_6.index t 0 * 512 ≤ (i 0).val ∧ (i 0).val < win0_6.index t 0 * 512 + 512
    rw [h0, ht]; omega
  | ⟨1, _⟩ =>
    show win0_6.index t 1 * 1024 ≤ (i 1).val ∧ (i 1).val < win0_6.index t 1 * 1024 + 1024
    rw [h1]; omega

/-- THE V OUTPUT after the region. -/
theorem region0_v (c : Dev nD) :
    (dat0 (F := Ideal) V c).arrAt 6 cfg0.N
      = projArr (V c main_v0) (V c main_v3) :=
  (dat0 V c).arrAt_eq_of_cover 6 (projArr (V c main_v0) (V c main_v3)) (fun t _ => flushed_v V c t) cover_v

end Cert.KernelIdeal.Hand

end
-- ==== Proof.LibReshape.lean ====
/-
  Layout operations read at an index, for shapes the value library does not yet spell out.

  * A trailing unit axis: an `[a, b]` array cast to `[a, b, 1]`, and an `[a, b, 1]` array broadcast
    along its unit axis to `[a, b, c]`. Together they read a per-(row, group) quantity at every lane of
    the group.
  * Two adjacent axes merged or split by a cast, row-major order kept: `[a, b, c]` to `[a, b * c]`
    (the last two axes merged), `[a, b, c]` to `[a * b, c]` (the first two merged) and back. The merged
    coordinate is `j * c + k`, respectively `i * b + j`; the lemmas take it as a variable with that
    equation, so that a caller may present it in whichever form it has (a quotient and remainder, or a
    product and sum).

  All of them are the library's `shapeCast_apply` / `broadcastTo_apply` with the two row-major positions
  computed.
-/
import Idealize.ShloMosaic.Lib.Pipeline.Value
import Idealize.ShloMosaic.Lib.ValueIdx

namespace Cert.LibReshape

open Idealize.ShloMosaic Idealize.ShloMosaic.ValueIdx

variable {α : Type}

/-! ## A trailing unit axis -/

/-- An `[a, b]` array cast to `[a, b, 1]` reads, at `(i, j, u)`, the operand at `(i, j)`, whatever the unit
    coordinate `u`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_two, Shape.rowMajor_val_three]
    show i.val * b + j.val = (i.val * b + j.val) * 1 + u.val
    rw [hu, Nat.mul_one, Nat.add_zero])

/-- An `[a, b, 1]` array broadcast to `[a, b, c]` reads, at `(i, j, k)`, the operand at `(i, j, 0)`: the value
    does not depend on the position `k` along the broadcast axis. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-! ## Two adjacent axes merged or split -/

/-- An `[a, b, c]` array cast to `[a, n]` with `n = b * c` reads, at `(i, q)` with `q = j * c + k`, the operand at
    `(i, j, k)`. -/
theorem shapeCast_abc_a_bc_apply {a b c n : ℕ} (x : (⟨3, ![a, b, c]⟩ : Shape).Idx → α)
    (h : (⟨3, ![a, b, c]⟩ : Shape).ShapeCasts ⟨2, ![a, n]⟩) (hn : n = b * c)
    (i : Fin a) (j : Fin b) (k : Fin c) (q : Fin n) (hq : q.val = j.val * c + k.val) :
    shapeCast ⟨2, ![a, n]⟩ x h (ix2 i q) = x (ix3 i j k) :=
  shapeCast_apply x h _ _ (by
    rw [Shape.rowMajor_val_three, Shape.rowMajor_val_two]
    show (i.val * b + j.val) * c + k.val = i.val * n + q.val
    rw [hq, hn, Nat.add_mul, Nat.mul_assoc, Nat.add_assoc])

/-- An `[a, b, c]` array cast to `[n, c]` (with `n = a * b`) reads, at `(r, k)` with `r = i * b + j`, the operand at
    `(i, j, k)`. -/
theorem shapeCast_abc_ab_c_apply {a b c n : ℕ} (x : (⟨3, ![a, b, c]⟩ : Shape).Idx → α)
    (h : (⟨3, ![a, b, c]⟩ : Shape).ShapeCasts ⟨2, ![n, c]⟩)
    (i : Fin a) (j : Fin b) (k : Fin c) (r : Fin n) (hr : r.val = i.val * b + j.val) :
    shapeCast ⟨2, ![n, c]⟩ x h (ix2 r k) = x (ix3 i j k) :=
  shapeCast_apply x h _ _ (by
    rw [Shape.rowMajor_val_three, Shape.rowMajor_val_two]
    show (i.val * b + j.val) * c + k.val = r.val * c + k.val
    rw [hr])

/-- An `[n, c]` array (with `n = a * b`) cast to `[a, b, c]` reads, at `(i, j, k)`, the operand at `(r, k)` with
    `r = i * b + j`. -/
theorem shapeCast_ab_c_abc_apply {a b c n : ℕ} (x : (⟨2, ![n, c]⟩ : Shape).Idx → α)
    (h : (⟨2, ![n, c]⟩ : Shape).ShapeCasts ⟨3, ![a, b, c]⟩)
    (i : Fin a) (j : Fin b) (k : Fin c) (r : Fin n) (hr : r.val = i.val * b + j.val) :
    shapeCast ⟨3, ![a, b, c]⟩ x h (ix3 i j k) = x (ix2 r k) :=
  shapeCast_apply x h _ _ (by
    rw [Shape.rowMajor_val_two, Shape.rowMajor_val_three]
    show r.val * c + k.val = (i.val * b + j.val) * c + k.val
    rw [hr])

end Cert.LibReshape
-- ==== Proof.Spec.lean ====
/-
  Single-head self-attention with four bias-free linear layers, over the reals.

  From `x : [2, 4096, 1024]` and four weight matrices `[1024, 1024]`: the projections `q, k, v = x · Wᵀ`; the scores
  `q · kᵀ / 32` (32 = √1024); each row of scores turned into softmax weights; the weighted sum of the rows of `v`; and the
  output projection by `Woᵀ`.  The softmax-weighted sum is written as ONE quotient, the sum of `exp(score) · v` over
  the sum of `exp(score)`: subtracting a row maximum first, as both programs do, changes neither.
-/
import Idealize.ShloMosaic.PureOps.Ideal
import Idealize.ShloMosaic.Lib.ValueIdx

noncomputable section

namespace Cert.Spec

open Idealize.ShloMosaic Idealize.ShloMosaic.ValueIdx

/-- The activations' shape, batch × sequence × features. -/
abbrev S3 : Shape := ⟨3, ![2, 4096, 1024]⟩
/-- A weight matrix's shape, output features × input features. -/
abbrev S2 : Shape := ⟨2, ![1024, 1024]⟩

/-- A linear layer without bias: row `(b, s)` of `x` against row `e` of `w`. -/
def proj (x : S3.Idx → ℝ) (w : S2.Idx → ℝ) (b : Fin 2) (s : Fin 4096) (e : Fin 1024) : ℝ :=
  ∑ d : Fin 1024, x (ix3 b s d) * w (ix2 e d)

/-- The scaled score of query position `q` against key position `k`. -/
def score (x : S3.Idx → ℝ) (wq wk : S2.Idx → ℝ) (b : Fin 2) (q k : Fin 4096) : ℝ :=
  (∑ d : Fin 1024, proj x wq b q d * proj x wk b k d) / 32

/-- The attention output before the last projection: the softmax-weighted sum of the value rows. -/
def attn (x : S3.Idx → ℝ) (wq wk wv : S2.Idx → ℝ) (b : Fin 2) (q : Fin 4096) (d : Fin 1024) : ℝ :=
  (∑ k : Fin 4096, Real.exp (score x wq wk b q k) * proj x wv b k d) / (∑ k : Fin 4096, Real.exp (score x wq wk b q k))

/-- The result. -/
def out (x : S3.Idx → ℝ) (wq wk wv wo : S2.Idx → ℝ) (b : Fin 2) (q : Fin 4096) (e : Fin 1024) : ℝ :=
  ∑ d : Fin 1024, attn x wq wk wv b q d * wo (ix2 e d)

/-- The result as an array of extended reals. -/
def outArr (x : S3.Idx → ℝ) (wq wk wv wo : S2.Idx → ℝ) : S3.Idx → EReal :=
  fun i => ((out x wq wk wv wo (i 0) (i 1) (i 2) : ℝ) : EReal)

end Cert.Spec

end
-- ==== Proof.LibOnlineSoftmax.lean ====
/-
  The online softmax recurrence on the extended reals.

  A row of scores is visited block by block.  After each block the running reference point moves from `m` to a
  new real `μ`, and the two running sums are rescaled and extended:

      l' = exp (m - μ) · l + ∑ j, exp (s j - μ)
      a' = exp (m - μ) · a + ∑ j, exp (s j - μ) · v j

  starting from `m = -∞`, `l = 0`, `a = 0` (so that the first rescaling factor is `exp (-∞) = 0`).
  For real scores and weights, after `n + 1` blocks the sums are the real partition sum and the real weighted sum of
  ALL scores seen so far, taken at the current reference point; the identity behind it is
  `exp (μ₀ - μ) · exp (s - μ₀) = exp (s - μ)`.  Nothing below needs the reference points to be running maxima:
  any real sequence gives the same quotient `a / l`, which is the softmax-weighted sum of the weights — the value the
  plain formula `∑ k, (exp (y k - M) / ∑ k', exp (y k' - M)) · u k` computes, for any `M`.
-/
import Idealize.ShloMosaic.PureOps.Ideal

noncomputable section

namespace OnlineSoftmax

open Idealize.ShloMosaic

/-! ## Real numbers inside the extended reals -/

/-- A finite sum of reals, read in the extended reals, is the sum of the summands read there. -/
theorem coe_sum {α : Type*} (s : Finset α) (f : α → ℝ) :
    ((∑ i ∈ s, f i : ℝ) : EReal) = ∑ i ∈ s, (f i : EReal) := by
  induction s using Finset.cons_induction with
  | empty => simp only [Finset.sum_empty, EReal.coe_zero]
  | cons a s ha ih => rw [Finset.sum_cons, Finset.sum_cons, EReal.coe_add, ih]

/-- A finite sum of products of reals, each factor read in the extended reals. -/
theorem coe_sum_mul {α : Type*} (s : Finset α) (f g : α → ℝ) :
    ∑ i ∈ s, (f i : EReal) * (g i : EReal) = ((∑ i ∈ s, f i * g i : ℝ) : EReal) := by
  rw [coe_sum]; exact Finset.sum_congr rfl fun i _ => (EReal.coe_mul _ _).symm

/-- The exponential of a difference of two reals is the real exponential. -/
theorem exp_coe_sub (a b : ℝ) : Ideal.exp ((a : EReal) - (b : EReal)) = ((Real.exp (a - b) : ℝ) : EReal) := by
  rw [← EReal.coe_sub]; rfl

/-- From the reference point `-∞` every rescaling factor is `0`. -/
theorem exp_bot_sub (b : EReal) : Ideal.exp (⊥ - b) = 0 := by
  rw [EReal.bot_sub]; rfl

/-- The first running maximum: `-∞` against a real. -/
theorem max_bot_coe (a : ℝ) : max (⊥ : EReal) (a : EReal) = (a : EReal) := max_eq_right bot_le

/-- A later running maximum: two reals. -/
theorem max_coe_coe (a b : ℝ) : max (a : EReal) (b : EReal) = ((max a b : ℝ) : EReal) :=
  (EReal.coe_strictMono.monotone.map_max).symm

/-- A quotient of two reals with a nonzero divisor is the real quotient. -/
theorem div_coe_coe (a l : ℝ) (hl : l ≠ 0) : Ideal.div (a : EReal) (l : EReal) = ((a / l : ℝ) : EReal) := by
  rw [Ideal.div_coe hl, ← EReal.coe_mul, mul_one_div]

/-! ## One step -/

section Step

variable {ι : Type*} [Fintype ι]

/-- The first block, partition sum: whatever the sum held, it is rescaled by `exp (-∞) = 0`. -/
theorem step_first_l (s : ι → ℝ) (μ : ℝ) (l : EReal) :
    Ideal.exp (⊥ - (μ : EReal)) * l + ∑ j, Ideal.exp ((s j : EReal) - (μ : EReal))
      = ((∑ j, Real.exp (s j - μ) : ℝ) : EReal) := by
  rw [exp_bot_sub, zero_mul, zero_add, coe_sum]
  exact Finset.sum_congr rfl fun j _ => exp_coe_sub _ _

/-- The first block, weighted sum. -/
theorem step_first_a (s v : ι → ℝ) (μ : ℝ) (a : EReal) :
    Ideal.exp (⊥ - (μ : EReal)) * a + ∑ j, Ideal.exp ((s j : EReal) - (μ : EReal)) * (v j : EReal)
      = ((∑ j, Real.exp (s j - μ) * v j : ℝ) : EReal) := by
  rw [exp_bot_sub, zero_mul, zero_add, coe_sum]
  refine Finset.sum_congr rfl fun j _ => ?_
  rw [exp_coe_sub, EReal.coe_mul]

/-- A later block, partition sum: from real reference point `μ₀` and real sum `L₀`. -/
theorem step_next_l (s : ι → ℝ) (μ₀ μ L₀ : ℝ) :
    Ideal.exp ((μ₀ : EReal) - (μ : EReal)) * (L₀ : EReal) + ∑ j, Ideal.exp ((s j : EReal) - (μ : EReal))
      = ((Real.exp (μ₀ - μ) * L₀ + ∑ j, Real.exp (s j - μ) : ℝ) : EReal) := by
  rw [EReal.coe_add, EReal.coe_mul, coe_sum, exp_coe_sub]
  congr 1

/-- A later block, weighted sum. -/
theorem step_next_a (s v : ι → ℝ) (μ₀ μ A₀ : ℝ) :
    Ideal.exp ((μ₀ : EReal) - (μ : EReal)) * (A₀ : EReal) + ∑ j, Ideal.exp ((s j : EReal) - (μ : EReal)) * (v j : EReal)
      = ((Real.exp (μ₀ - μ) * A₀ + ∑ j, Real.exp (s j - μ) * v j : ℝ) : EReal) := by
  rw [EReal.coe_add, EReal.coe_mul, coe_sum, exp_coe_sub]
  congr 1

end Step

/-! ## The sums over the blocks seen so far -/

section Blocks

variable {ι : Type*} [Fintype ι]

/-- The partition sum of the first `n` blocks of scores `x`, at the reference point `ν`. -/
def Z (x : ℕ → ι → ℝ) (n : ℕ) (ν : ℝ) : ℝ := ∑ t ∈ Finset.range n, ∑ j, Real.exp (x t j - ν)

/-- The weighted sum of the first `n` blocks (weights `w`), at the reference point `ν`. -/
def N (x w : ℕ → ι → ℝ) (n : ℕ) (ν : ℝ) : ℝ := ∑ t ∈ Finset.range n, ∑ j, Real.exp (x t j - ν) * w t j

theorem Z_succ (x : ℕ → ι → ℝ) (n : ℕ) (ν : ℝ) : Z x (n + 1) ν = Z x n ν + ∑ j, Real.exp (x n j - ν) :=
  Finset.sum_range_succ _ _

theorem N_succ (x w : ℕ → ι → ℝ) (n : ℕ) (ν : ℝ) :
    N x w (n + 1) ν = N x w n ν + ∑ j, Real.exp (x n j - ν) * w n j :=
  Finset.sum_range_succ _ _

/-- Moving the reference point from `ν₀` to `ν` multiplies the partition sum by `exp (ν₀ - ν)`. -/
theorem Z_shift (x : ℕ → ι → ℝ) (n : ℕ) (ν₀ ν : ℝ) : Real.exp (ν₀ - ν) * Z x n ν₀ = Z x n ν := by
  unfold Z
  rw [Finset.mul_sum]
  refine Finset.sum_congr rfl fun t _ => ?_
  rw [Finset.mul_sum]
  refine Finset.sum_congr rfl fun j _ => ?_
  have h : ν₀ - ν + (x t j - ν₀) = x t j - ν := by ring
  rw [← Real.exp_add, h]

/-- The same for the weighted sum. -/
theorem N_shift (x w : ℕ → ι → ℝ) (n : ℕ) (ν₀ ν : ℝ) : Real.exp (ν₀ - ν) * N x w n ν₀ = N x w n ν := by
  unfold N
  rw [Finset.mul_sum]
  refine Finset.sum_congr rfl fun t _ => ?_
  rw [Finset.mul_sum]
  refine Finset.sum_congr rfl fun j _ => ?_
  have h : ν₀ - ν + (x t j - ν₀) = x t j - ν := by ring
  rw [← mul_assoc, ← Real.exp_add, h]

/-- With at least one entry per block, the partition sum of one or more blocks is positive. -/
theorem Z_pos [Nonempty ι] (x : ℕ → ι → ℝ) (n : ℕ) (ν : ℝ) : 0 < Z x (n + 1) ν := by
  rw [Z_succ]
  refine add_pos_of_nonneg_of_pos ?_ (Finset.sum_pos (fun _ _ => Real.exp_pos _) Finset.univ_nonempty)
  exact Finset.sum_nonneg fun _ _ => Finset.sum_nonneg fun _ _ => (Real.exp_pos _).le

/-- The quotient of the two sums does not depend on the reference point. -/
theorem ratio_shift (x w : ℕ → ι → ℝ) (n : ℕ) (ν₀ ν : ℝ) : N x w n ν₀ / Z x n ν₀ = N x w n ν / Z x n ν := by
  rw [← N_shift x w n ν₀ ν, ← Z_shift x n ν₀ ν, mul_div_mul_left _ _ (Real.exp_pos _).ne']

/-! ## The recurrence -/

/-- One step of the recurrence on the triple (reference point, partition sum, weighted sum): the block's scores `s`, its
    weights `v`, and the new reference point `μ`. -/
def step (s v : ι → ℝ) (μ : ℝ) (st : EReal × EReal × EReal) : EReal × EReal × EReal :=
  ((μ : EReal),
   Ideal.exp (st.1 - (μ : EReal)) * st.2.1 + ∑ j, Ideal.exp ((s j : EReal) - (μ : EReal)),
   Ideal.exp (st.1 - (μ : EReal)) * st.2.2 + ∑ j, Ideal.exp ((s j : EReal) - (μ : EReal)) * (v j : EReal))

/-- The recurrence from `(-∞, 0, 0)`: block `n` has scores `x n`, weights `w n`, and moves the reference point to `μ n`. -/
def run (x w : ℕ → ι → ℝ) (μ : ℕ → ℝ) : ℕ → EReal × EReal × EReal
  | 0 => (⊥, 0, 0)
  | n + 1 => step (x n) (w n) (μ n) (run x w μ n)

/-- THE INVARIANT. After `n + 1` blocks the triple holds the current reference point and the two real sums over all
    the blocks seen, taken at that point. -/
theorem run_succ (x w : ℕ → ι → ℝ) (μ : ℕ → ℝ) (n : ℕ) :
    run x w μ (n + 1) = ((μ n : EReal), ((Z x (n + 1) (μ n) : ℝ) : EReal), ((N x w (n + 1) (μ n) : ℝ) : EReal)) := by
  induction n with
  | zero =>
    show step (x 0) (w 0) (μ 0) (⊥, 0, 0) = _
    unfold step
    refine Prod.ext rfl (Prod.ext ?_ ?_)
    · show Ideal.exp (⊥ - (μ 0 : EReal)) * 0 + ∑ j, Ideal.exp ((x 0 j : EReal) - (μ 0 : EReal)) = _
      rw [step_first_l]; unfold Z; rw [Finset.sum_range_one]
    · show Ideal.exp (⊥ - (μ 0 : EReal)) * 0 + ∑ j, Ideal.exp ((x 0 j : EReal) - (μ 0 : EReal)) * (w 0 j : EReal) = _
      rw [step_first_a]; unfold N; rw [Finset.sum_range_one]
  | succ n ih =>
    show step (x (n + 1)) (w (n + 1)) (μ (n + 1)) (run x w μ (n + 1)) = _
    rw [ih]
    unfold step
    refine Prod.ext rfl (Prod.ext ?_ ?_)
    · show Ideal.exp ((μ n : EReal) - (μ (n + 1) : EReal)) * ((Z x (n + 1) (μ n) : ℝ) : EReal)
          + ∑ j, Ideal.exp ((x (n + 1) j : EReal) - (μ (n + 1) : EReal)) = _
      rw [step_next_l, Z_shift, ← Z_succ]
    · show Ideal.exp ((μ n : EReal) - (μ (n + 1) : EReal)) * ((N x w (n + 1) (μ n) : ℝ) : EReal)
          + ∑ j, Ideal.exp ((x (n + 1) j : EReal) - (μ (n + 1) : EReal)) * (w (n + 1) j : EReal) = _
      rw [step_next_a, N_shift, ← N_succ]

/-- The quotient after `n + 1` blocks is the real quotient of the two sums, at ANY reference point. -/
theorem run_div [Nonempty ι] (x w : ℕ → ι → ℝ) (μ : ℕ → ℝ) (n : ℕ) (ν : ℝ) :
    Ideal.div (run x w μ (n + 1)).2.2 (run x w μ (n + 1)).2.1 = ((N x w (n + 1) ν / Z x (n + 1) ν : ℝ) : EReal) := by
  rw [run_succ]
  show Ideal.div ((N x w (n + 1) (μ n) : ℝ) : EReal) ((Z x (n + 1) (μ n) : ℝ) : EReal) = _
  rw [div_coe_coe _ _ (Z_pos x n _).ne', ratio_shift x w (n + 1) (μ n) ν]

/-! ## The blocks laid side by side -/

/-- The weighted sum over `T` blocks is the weighted sum over one flat index set the blocks tile. -/
theorem N_eq_flat {κ : Type*} [Fintype κ] (x w : ℕ → ι → ℝ) (T : ℕ) (e : Fin T × ι ≃ κ) (y u : κ → ℝ)
    (hy : ∀ t j, y (e (t, j)) = x t j) (hu : ∀ t j, u (e (t, j)) = w t j) (ν : ℝ) :
    N x w T ν = ∑ k, Real.exp (y k - ν) * u k := by
  unfold N
  rw [← Equiv.sum_comp e, Fintype.sum_prod_type, Finset.sum_range]
  refine Finset.sum_congr rfl fun t _ => Finset.sum_congr rfl fun j _ => ?_
  rw [hy, hu]

/-- The same for the partition sum. -/
theorem Z_eq_flat {κ : Type*} [Fintype κ] (x : ℕ → ι → ℝ) (T : ℕ) (e : Fin T × ι ≃ κ) (y : κ → ℝ)
    (hy : ∀ t j, y (e (t, j)) = x t j) (ν : ℝ) :
    Z x T ν = ∑ k, Real.exp (y k - ν) := by
  unfold Z
  rw [← Equiv.sum_comp e, Fintype.sum_prod_type, Finset.sum_range]
  refine Finset.sum_congr rfl fun t _ => Finset.sum_congr rfl fun j _ => ?_
  rw [hy]

end Blocks

/-! ## The recurrence as a kernel writes it: the reference point is the running maximum -/

/-- The maximum of finitely many reals folded from `-∞` in the extended reals is their real supremum. -/
theorem fold_max_bot_coe_sup' {α : Type*} (s : Finset α) (hs : s.Nonempty) (f : α → ℝ) :
    s.fold max (⊥ : EReal) (fun a => (f a : EReal)) = ((s.sup' hs f : ℝ) : EReal) := by
  induction hs using Finset.Nonempty.cons_induction with
  | singleton a => rw [Finset.fold_singleton, Finset.sup'_singleton]; exact max_eq_left bot_le
  | cons a s ha hs ih => rw [Finset.fold_cons, ih, Finset.sup'_cons hs]; exact max_coe_coe _ _

section Max

variable {ι : Type*} [Fintype ι] [Nonempty ι]

/-- The largest score of a block. -/
def blockMax (s : ι → ℝ) : ℝ := Finset.univ.sup' Finset.univ_nonempty s

/-- The running maxima of blocks `x 0, x 1, …`. -/
def runMax (x : ℕ → ι → ℝ) : ℕ → ℝ
  | 0 => blockMax (x 0)
  | n + 1 => max (runMax x n) (blockMax (x (n + 1)))

/-- One block as a kernel writes it, the reference point a running maximum: from `(m, l, a)` the new maximum is
    `M = max m (the block's largest score)`, and the two sums are rescaled by `exp (m - M)` and extended. -/
def maxStep (s v : ι → ℝ) (m l a : EReal) : EReal × EReal × EReal :=
  (max m (Finset.univ.fold max (⊥ : EReal) (fun j => (s j : EReal))),
    Ideal.exp (m - max m (Finset.univ.fold max (⊥ : EReal) (fun j => (s j : EReal)))) * l
      + ∑ j, Ideal.exp ((s j : EReal) - max m (Finset.univ.fold max (⊥ : EReal) (fun j => (s j : EReal)))),
    Ideal.exp (m - max m (Finset.univ.fold max (⊥ : EReal) (fun j => (s j : EReal)))) * a
      + ∑ j, Ideal.exp ((s j : EReal) - max m (Finset.univ.fold max (⊥ : EReal) (fun j => (s j : EReal)))) * (v j : EReal))

/-- THE FIRST BLOCK: from `(-∞, 0, 0)` the new maximum is the block's, and the updates are one step of the recurrence to
    that reference point. -/
theorem first_block (s v : ι → ℝ) : maxStep s v ⊥ 0 0 = step s v (blockMax s) (⊥, 0, 0) := by
  unfold maxStep
  rw [fold_max_bot_coe_sup' Finset.univ Finset.univ_nonempty s, max_bot_coe]
  rfl

/-- A LATER BLOCK: from a real running maximum `μ₀` the new maximum is `max μ₀ (the block's)`, and the updates are one step
    of the recurrence to that reference point. -/
theorem next_block (s v : ι → ℝ) (μ₀ : ℝ) (l a : EReal) :
    maxStep s v (μ₀ : EReal) l a = step s v (max μ₀ (blockMax s)) ((μ₀ : EReal), l, a) := by
  unfold maxStep
  rw [fold_max_bot_coe_sup' Finset.univ Finset.univ_nonempty s, max_coe_coe]
  rfl

/-- The recurrence run with the running maxima as reference points: its first component after `n + 1` blocks. -/
theorem run_runMax_fst (x w : ℕ → ι → ℝ) (n : ℕ) : (run x w (runMax x) (n + 1)).1 = (runMax x n : EReal) := by
  rw [run_succ]

end Max

/-! ## The plain formula -/

/-- The softmax-weighted sum written directly — each score's exponential at a reference point `M`, divided by the sum of
    them all, times its weight — is the real quotient of the weighted sum by the partition sum. -/
theorem softmax_dot {κ : Type*} [Fintype κ] [Nonempty κ] (y u : κ → ℝ) (M : ℝ) :
    ∑ k, Ideal.div (Ideal.exp ((y k : EReal) - (M : EReal))) (∑ k', Ideal.exp ((y k' : EReal) - (M : EReal))) * (u k : EReal)
      = (((∑ k, Real.exp (y k - M) * u k) / (∑ k, Real.exp (y k - M)) : ℝ) : EReal) := by
  have hZ : (∑ k', Ideal.exp ((y k' : EReal) - (M : EReal))) = ((∑ k', Real.exp (y k' - M) : ℝ) : EReal) := by
    rw [coe_sum]; exact Finset.sum_congr rfl fun k _ => exp_coe_sub _ _
  have hpos : 0 < ∑ k', Real.exp (y k' - M) := Finset.sum_pos (fun _ _ => Real.exp_pos _) Finset.univ_nonempty
  rw [Finset.sum_div, coe_sum]
  refine Finset.sum_congr rfl fun k _ => ?_
  rw [hZ, exp_coe_sub, div_coe_coe _ _ hpos.ne', ← EReal.coe_mul]
  congr 1
  ring

/-- The plain formula's value does not depend on its reference point: it is the quotient at reference point `0`. -/
theorem softmax_dot_zero {κ : Type*} [Fintype κ] [Nonempty κ] (y u : κ → ℝ) (M : ℝ) :
    ∑ k, Ideal.div (Ideal.exp ((y k : EReal) - (M : EReal))) (∑ k', Ideal.exp ((y k' : EReal) - (M : EReal))) * (u k : EReal)
      = (((∑ k, Real.exp (y k) * u k) / (∑ k, Real.exp (y k)) : ℝ) : EReal) := by
  rw [softmax_dot]
  congr 1
  have hN : (∑ k, Real.exp (y k - M) * u k) = Real.exp (-M) * ∑ k, Real.exp (y k) * u k := by
    rw [Finset.mul_sum]
    refine Finset.sum_congr rfl fun k _ => ?_
    rw [← mul_assoc, ← Real.exp_add, show -M + y k = y k - M by ring]
  have hZ : (∑ k, Real.exp (y k - M)) = Real.exp (-M) * ∑ k, Real.exp (y k) := by
    rw [Finset.mul_sum]
    refine Finset.sum_congr rfl fun k _ => ?_
    rw [← Real.exp_add, show -M + y k = y k - M by ring]
  rw [hN, hZ, mul_div_mul_left _ _ (Real.exp_pos _).ne']

/-- The recurrence's quotient over `n + 1` blocks tiling a flat index set, at reference point `0`. -/
theorem run_div_flat {ι κ : Type*} [Fintype ι] [Nonempty ι] [Fintype κ]
    (x w : ℕ → ι → ℝ) (μ : ℕ → ℝ) (n : ℕ) (e : Fin (n + 1) × ι ≃ κ) (y u : κ → ℝ)
    (hy : ∀ t j, y (e (t, j)) = x t j) (hu : ∀ t j, u (e (t, j)) = w t j) :
    Ideal.div (run x w μ (n + 1)).2.2 (run x w μ (n + 1)).2.1
      = (((∑ k, Real.exp (y k) * u k) / (∑ k, Real.exp (y k)) : ℝ) : EReal) := by
  rw [run_div x w μ n 0, N_eq_flat x w (n + 1) e y u hy hu, Z_eq_flat x (n + 1) e y hy]
  simp only [sub_zero]

/-- ONLINE = PLAIN. The quotient the recurrence ends with over `T = n + 1` blocks tiling a flat index set is the plain
    softmax-weighted sum over that set, whatever reference points either side used. -/
theorem run_div_eq_softmax_dot {ι κ : Type*} [Fintype ι] [Nonempty ι] [Fintype κ] [Nonempty κ]
    (x w : ℕ → ι → ℝ) (μ : ℕ → ℝ) (n : ℕ) (e : Fin (n + 1) × ι ≃ κ) (y u : κ → ℝ)
    (hy : ∀ t j, y (e (t, j)) = x t j) (hu : ∀ t j, u (e (t, j)) = w t j) (M : ℝ) :
    Ideal.div (run x w μ (n + 1)).2.2 (run x w μ (n + 1)).2.1
      = ∑ k, Ideal.div (Ideal.exp ((y k : EReal) - (M : EReal))) (∑ k', Ideal.exp ((y k' : EReal) - (M : EReal))) * (u k : EReal) := by
  rw [run_div x w μ n M, softmax_dot, N_eq_flat x w (n + 1) e y u hy hu, Z_eq_flat x (n + 1) e y hy]

end OnlineSoftmax

end
-- ==== Proof.IdealValue0Reshape.lean ====
/-
  The fused projection read through the two reshapes around it, over the reals.

  The activations [2, 4096, 1024] are laid out as [8192, 1024] rows (row b · 4096 + s), projected row by row, and the
  result laid out as [2, 4096, 1024] again: at (b, s, e) it is the sum over d of x(b, s, d) · w(e, d), a real on real
  inputs.
-/
import proofs.«139794_j13168369730002_2_alg».proof.Proof.IdealValue0
import proofs.«139794_j13168369730002_2_alg».proof.Proof.LibReshape
import proofs.«139794_j13168369730002_2_alg».proof.Proof.Spec
import proofs.«139794_j13168369730002_2_alg».proof.Proof.LibOnlineSoftmax

noncomputable section

namespace Cert.KernelIdeal.Hand

open Cert.KernelIdeal Cert.KernelIdeal.Gen
open Idealize.ShloMosaic Idealize.ShloMosaic.TcCoe Idealize.ShloMosaic.ValueIdx

/-- Rows merged, projected, rows split: the specification's projection at every index. -/
theorem proj_reshape (x : Cert.Spec.S3.Idx → ℝ) (w : Cert.Spec.S2.Idx → ℝ)
    (h1 : S2x4096x1024.ShapeCasts S8192x1024) (h2 : S8192x1024.ShapeCasts S2x4096x1024) :
    shapeCast S2x4096x1024 (projArr (shapeCast S8192x1024 (fun i => (x i : EReal)) h1) (fun i => (w i : EReal))) h2
      = fun i => ((Cert.Spec.proj x w (i 0) (i 1) (i 2) : ℝ) : EReal) := by
  funext i
  obtain ⟨b, s, e, rfl⟩ : ∃ (b : Fin 2) (s : Fin 4096) (e : Fin 1024), i = ix3 b s e := ⟨_, _, _, eq_ix3 i⟩
  have hr : b.val * 4096 + s.val < 8192 := by have := b.isLt; have := s.isLt; omega
  refine (Cert.LibReshape.shapeCast_ab_c_abc_apply _ h2 b s e ⟨b.val * 4096 + s.val, hr⟩ rfl).trans ?_
  show ∑ d : Fin 1024, shapeCast S8192x1024 (fun i => (x i : EReal)) h1 (ix2 ⟨b.val * 4096 + s.val, hr⟩ d) * (w (ix2 e d) : EReal)
    = ((Cert.Spec.proj x w b s e : ℝ) : EReal)
  unfold Cert.Spec.proj
  rw [OnlineSoftmax.coe_sum]
  refine Finset.sum_congr rfl fun d _ => ?_
  rw [EReal.coe_mul, Cert.LibReshape.shapeCast_abc_ab_c_apply _ h1 b s d ⟨b.val * 4096 + s.val, hr⟩ rfl]

end Cert.KernelIdeal.Hand

end
-- ==== Proof.IdealValue0Host.lean ====
/-
  The two stretches of host operations around the first region, and the second region's inputs over the reals.

  Before the region the host lays the activations out as [8192, 1024] rows and rounds the four weights (the identity on
  the extended reals); after it the host lays each of the three projections out as [2, 4096, 1024] again and leaves
  the fourth weight alone.  So on real inputs the second region is entered with the three projections the
  specification writes and with the output weight.
-/
import proofs.«139794_j13168369730002_2_alg».proof.Proof.IdealFrame
import proofs.«139794_j13168369730002_2_alg».proof.Proof.IdealValue0Reshape

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.StableHlo
open Idealize.ShloMosaic.Pipeline (Dat)

variable (m : (ℓ : Loc nD τ sig) → Buf (Elt Ideal) ℓ) (ρ : Dev nD → PrngReg)

/-! ## The first host stretch -/

/-- The activations, rows merged. -/
theorem V1_main_v0 (c : Dev nD) :
    (V1 (F := Ideal) m ρ c main_v0 : S8192x1024.Idx → EReal)
      = shapeCast S8192x1024 (m ((c : Thread nD τ).loc main_arg0)) shapeCasts_S2x4096x1024_S8192x1024 := by
  show StableHlo.after hostOps0 (W0 m ρ c) (Proc.devRef .tc main_v0) = _
  after_results
  rfl
/-- Each rounded weight is the weight. -/
theorem V1_main_v1 (c : Dev nD) :
    (V1 (F := Ideal) m ρ c main_v1 : S1024x1024.Idx → EReal) = (m ((c : Thread nD τ).loc main_arg1) : S1024x1024.Idx → EReal) := by
  show StableHlo.after hostOps0 (W0 m ρ c) (Proc.devRef .tc main_v1) = _
  after_results
  rfl
theorem V1_main_v2 (c : Dev nD) :
    (V1 (F := Ideal) m ρ c main_v2 : S1024x1024.Idx → EReal) = (m ((c : Thread nD τ).loc main_arg2) : S1024x1024.Idx → EReal) := by
  show StableHlo.after hostOps0 (W0 m ρ c) (Proc.devRef .tc main_v2) = _
  after_results
  rfl
theorem V1_main_v3 (c : Dev nD) :
    (V1 (F := Ideal) m ρ c main_v3 : S1024x1024.Idx → EReal) = (m ((c : Thread nD τ).loc main_arg3) : S1024x1024.Idx → EReal) := by
  show StableHlo.after hostOps0 (W0 m ρ c) (Proc.devRef .tc main_v3) = _
  after_results
  rfl
theorem V1_main_v4 (c : Dev nD) :
    (V1 (F := Ideal) m ρ c main_v4 : S1024x1024.Idx → EReal) = (m ((c : Thread nD τ).loc main_arg4) : S1024x1024.Idx → EReal) := by
  show StableHlo.after hostOps0 (W0 m ρ c) (Proc.devRef .tc main_v4) = _
  after_results
  rfl

/-! ## The second host stretch -/

/-- Each projection, rows split. -/
theorem V3_main_v6 (c : Dev nD) :
    (V3 (F := Ideal) m ρ c main_v6 : S2x4096x1024.Idx → EReal)
      = shapeCast S2x4096x1024 (V2 m ρ c main_v5_0) shapeCasts_S8192x1024_S2x4096x1024 := by
  show StableHlo.after hostOps1 (W2 m ρ c) (Proc.devRef .tc main_v6) = _
  after_results
  rfl
theorem V3_main_v7 (c : Dev nD) :
    (V3 (F := Ideal) m ρ c main_v7 : S2x4096x1024.Idx → EReal)
      = shapeCast S2x4096x1024 (V2 m ρ c main_v5_1) shapeCasts_S8192x1024_S2x4096x1024 := by
  show StableHlo.after hostOps1 (W2 m ρ c) (Proc.devRef .tc main_v7) = _
  after_results
  rfl
theorem V3_main_v8 (c : Dev nD) :
    (V3 (F := Ideal) m ρ c main_v8 : S2x4096x1024.Idx → EReal)
      = shapeCast S2x4096x1024 (V2 m ρ c main_v5_2) shapeCasts_S8192x1024_S2x4096x1024 := by
  show StableHlo.after hostOps1 (W2 m ρ c) (Proc.devRef .tc main_v8) = _
  after_results
  rfl
/-- The output weight is neither an array of the first region nor written by the second stretch. -/
theorem V3_main_v4 (c : Dev nD) : V3 (F := Ideal) m ρ c main_v4 = V1 m ρ c main_v4 :=
  (StableHlo.after_of_writes_sub hostOps1 _ hostOps1_writes (by decide)).trans (W2_of_ne m ρ c main_v4 (by decide))

/-! ## The second region's inputs on real inputs -/

/-- One projection: the region's output array, rows split, is the specification's projection. -/
theorem proj_of_region (c : Dev nD) (x : Cert.Spec.S3.Idx → ℝ) (w : Cert.Spec.S2.Idx → ℝ)
    (A : S8192x1024.Idx → EReal) (Wt : S1024x1024.Idx → EReal)
    (hx : (V1 (F := Ideal) m ρ c main_v0 : S8192x1024.Idx → EReal)
      = shapeCast S8192x1024 (fun i => (x i : EReal)) shapeCasts_S2x4096x1024_S8192x1024)
    (hw : Wt = fun i => (w i : EReal))
    (hA : A = projArr (V1 (F := Ideal) m ρ c main_v0) Wt) :
    shapeCast S2x4096x1024 A shapeCasts_S8192x1024_S2x4096x1024
      = fun i => ((Cert.Spec.proj x w (i 0) (i 1) (i 2) : ℝ) : EReal) := by
  rw [hA, hx, hw]
  exact proj_reshape x w _ _

/-- THE SECOND REGION'S INPUTS. On real inputs: the three projections and the output weight. -/
theorem qkv_value (c : Dev nD) (x : Cert.Spec.S3.Idx → ℝ) (wq wk wv wo : Cert.Spec.S2.Idx → ℝ)
    (h0 : (m ((c : Thread nD τ).loc main_arg0) : S2x4096x1024.Idx → EReal) = fun i => (x i : EReal))
    (h1 : (m ((c : Thread nD τ).loc main_arg1) : S1024x1024.Idx → EReal) = fun i => (wq i : EReal))
    (h2 : (m ((c : Thread nD τ).loc main_arg2) : S1024x1024.Idx → EReal) = fun i => (wk i : EReal))
    (h3 : (m ((c : Thread nD τ).loc main_arg3) : S1024x1024.Idx → EReal) = fun i => (wv i : EReal))
    (h4 : (m ((c : Thread nD τ).loc main_arg4) : S1024x1024.Idx → EReal) = fun i => (wo i : EReal)) :
    (V3 (F := Ideal) m ρ c main_v6 : S2x4096x1024.Idx → EReal) = (fun i => ((Cert.Spec.proj x wq (i 0) (i 1) (i 2) : ℝ) : EReal))
    ∧ (V3 (F := Ideal) m ρ c main_v7 : S2x4096x1024.Idx → EReal) = (fun i => ((Cert.Spec.proj x wk (i 0) (i 1) (i 2) : ℝ) : EReal))
    ∧ (V3 (F := Ideal) m ρ c main_v8 : S2x4096x1024.Idx → EReal) = (fun i => ((Cert.Spec.proj x wv (i 0) (i 1) (i 2) : ℝ) : EReal))
    ∧ (V3 (F := Ideal) m ρ c main_v4 : S1024x1024.Idx → EReal) = (fun i => (wo i : EReal)) := by
  have hx : (V1 (F := Ideal) m ρ c main_v0 : S8192x1024.Idx → EReal)
      = shapeCast S8192x1024 (fun i => (x i : EReal)) shapeCasts_S2x4096x1024_S8192x1024 := by
    rw [V1_main_v0, h0]
  refine ⟨?_, ?_, ?_, ?_⟩
  · refine (V3_main_v6 m ρ c).trans ?_
    exact proj_of_region m ρ c x wq _ _ hx ((V1_main_v1 m ρ c).trans h1)
      ((W2_arr m ρ c 4).trans (region0_q (V1 m ρ) c))
  · refine (V3_main_v7 m ρ c).trans ?_
    exact proj_of_region m ρ c x wk _ _ hx ((V1_main_v2 m ρ c).trans h2)
      ((W2_arr m ρ c 5).trans (region0_k (V1 m ρ) c))
  · refine (V3_main_v8 m ρ c).trans ?_
    exact proj_of_region m ρ c x wv _ _ hx ((V1_main_v3 m ρ c).trans h3)
      ((W2_arr m ρ c 6).trans (region0_v (V1 m ρ) c))
  · exact (V3_main_v4 m ρ c).trans ((V1_main_v4 m ρ c).trans h4)

end Cert.KernelIdeal.Hand

end
-- ==== Proof.IdealPieces.lean ====
/-
  What each case of the flash-attention body leaves in the scratch buffers and in the output buffer, as the body's pure
  arithmetic of the point's input blocks and of the scratch it found.  With `m`, `l`, `acc` the running maximum, sum
  and accumulator found (at the first key/value block: minus infinity, zero, zero, which the body has just stored),
  `q`, `k`, `v` the point's blocks: the new maximum is `max m (row maximum of the scores)`; the new sum is
  `exp (m - m') · l + (row sum of exp (scores - m'))`; the new accumulator `exp (m - m') · acc + exp (scores - m') · v`;
  and at the last block the output is `(acc' / l') · Woᵀ`, stored one batch slab at a time.
-/
import proofs.«139794_j13168369730002_2_alg».proof.Proof.IdealRegion1
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl

/-- A whole scratch buffer read back at the contents it was handed at. -/
theorem read_scM (h : (Memref.whole cc1_scratch0 : Memref sig .tc .vmem S2x512x1 .f32).IsWhole) (X : Vec F S2x512x1 .f32) :
    View.read (Elt F) (View.whole cc1_scratch0) (h.unread X) = X := h.read_unread X
theorem read_scL (h : (Memref.whole cc1_scratch1 : Memref sig .tc .vmem S2x512x1 .f32).IsWhole) (X : Vec F S2x512x1 .f32) :
    View.read (Elt F) (View.whole cc1_scratch1) (h.unread X) = X := h.read_unread X
theorem read_scA (h : (Memref.whole cc1_scratch2 : Memref sig .tc .vmem S2x512x1024 .f32).IsWhole) (X : Vec F S2x512x1024 .f32) :
    View.read (Elt F) (View.whole cc1_scratch2) (h.unread X) = X := h.read_unread X

/-! ## First key/value block -/

theorem sM_A_eq (c : Dev nD) (t : Fin cfg1.N) (h0 : cond1_0 (grid1.coords t)) (h1 : ¬cond1_1 (grid1.coords t)) :
    sM_A V c t h0 h1 = k1_pay2 (k1_pay12 (blk1 V c 0 t) (blk1 V c 1 t) (k1_pay7 (F := F))) := by
  unfold sM_A
  rw [View.read_writes_eq_canon _ _ _ (coverM_A V c t h0 h1)]
  unfold runA kernelRun1_A
  dsimp only
  try sl_unfold_words
  rw [View.canon_cons_unit_zero hz3]
  simp only [View.readAt_eq_ld, Memref.IsWhole.read_unread, View.ld_unit_zero (S := S2x512x1024) hz3, View.ld_unit_zero (S := S2x256x1024) hz3, View.ld_unit_zero (S := S2x512x1) hz3, View.ld_unit_zero (S := S1024x1024) hz2, View.readCov_unit_zero (S := S2x512x1) _ hz3, View.readCov_unit_zero (S := S2x512x1024) _ hz3, read_scM, read_scL, read_scA]

theorem sL_A_eq (c : Dev nD) (t : Fin cfg1.N) (h0 : cond1_0 (grid1.coords t)) (h1 : ¬cond1_1 (grid1.coords t)) :
    sL_A V c t h0 h1 = k1_pay15 (blk1 V c 0 t) (blk1 V c 1 t) (k1_pay7 (F := F)) (k1_pay7 (F := F)) (k1_pay8 (F := F)) := by
  unfold sL_A
  rw [View.read_writes_eq_canon _ _ _ (coverL_A V c t h0 h1)]
  unfold runA kernelRun1_A
  dsimp only
  try sl_unfold_words
  rw [View.canon_cons_unit_zero hz3]
  simp only [View.readAt_eq_ld, Memref.IsWhole.read_unread, View.ld_unit_zero (S := S2x512x1024) hz3, View.ld_unit_zero (S := S2x256x1024) hz3, View.ld_unit_zero (S := S2x512x1) hz3, View.ld_unit_zero (S := S1024x1024) hz2, View.readCov_unit_zero (S := S2x512x1) _ hz3, View.readCov_unit_zero (S := S2x512x1024) _ hz3, read_scM, read_scL, read_scA]

theorem sAcc_A_eq (c : Dev nD) (t : Fin cfg1.N) (h0 : cond1_0 (grid1.coords t)) (h1 : ¬cond1_1 (grid1.coords t)) :
    sAcc_A V c t h0 h1 = k1_pay1 (k1_pay10 (blk1 V c 2 t)) (k1_pay13 (blk1 V c 0 t) (blk1 V c 1 t) (k1_pay7 (F := F)) (k1_pay7 (F := F)))
      (k1_pay14 (blk1 V c 0 t) (blk1 V c 1 t) (k1_pay7 (F := F))) (k1_pay9 (F := F)) := by
  unfold sAcc_A
  rw [View.read_writes_eq_canon _ _ _ (coverAcc_A V c t h0 h1)]
  unfold runA kernelRun1_A
  dsimp only
  try sl_unfold_words
  rw [View.canon_cons_unit_zero hz3]
  simp only [View.readAt_eq_ld, Memref.IsWhole.read_unread, View.ld_unit_zero (S := S2x512x1024) hz3, View.ld_unit_zero (S := S2x256x1024) hz3, View.ld_unit_zero (S := S2x512x1) hz3, View.ld_unit_zero (S := S1024x1024) hz2, View.readCov_unit_zero (S := S2x512x1) _ hz3, View.readCov_unit_zero (S := S2x512x1024) _ hz3, read_scM, read_scL, read_scA]

/-! ## Middle key/value block -/

theorem sM_B_eq (c : Dev nD) (t : Fin cfg1.N) (h0 : ¬cond1_0 (grid1.coords t)) (h1 : ¬cond1_1 (grid1.coords t)) (sm : Vec F S2x512x1 .f32) (sl : Vec F S2x512x1 .f32) (sa : Vec F S2x512x1024 .f32) :
    sM_B V c t h0 h1 sm sl sa = k1_pay2 (k1_pay12 (blk1 V c 0 t) (blk1 V c 1 t) sm) := by
  unfold sM_B
  rw [View.read_writes_eq_canon _ _ _ (coverM_B V c t h0 h1 sm sl sa)]
  unfold runB kernelRun1_B
  dsimp only
  try sl_unfold_words
  rw [View.canon_cons_unit_zero hz3]
  simp only [View.readAt_eq_ld, Memref.IsWhole.read_unread, View.ld_unit_zero (S := S2x512x1024) hz3, View.ld_unit_zero (S := S2x256x1024) hz3, View.ld_unit_zero (S := S2x512x1) hz3, View.ld_unit_zero (S := S1024x1024) hz2, View.readCov_unit_zero (S := S2x512x1) _ hz3, View.readCov_unit_zero (S := S2x512x1024) _ hz3, read_scM, read_scL, read_scA]

theorem sL_B_eq (c : Dev nD) (t : Fin cfg1.N) (h0 : ¬cond1_0 (grid1.coords t)) (h1 : ¬cond1_1 (grid1.coords t)) (sm : Vec F S2x512x1 .f32) (sl : Vec F S2x512x1 .f32) (sa : Vec F S2x512x1024 .f32) :
    sL_B V c t h0 h1 sm sl sa = k1_pay15 (blk1 V c 0 t) (blk1 V c 1 t) sm sm sl := by
  unfold sL_B
  rw [View.read_writes_eq_canon _ _ _ (coverL_B V c t h0 h1 sm sl sa)]
  unfold runB kernelRun1_B
  dsimp only
  try sl_unfold_words
  rw [View.canon_cons_unit_zero hz3]
  simp only [View.readAt_eq_ld, Memref.IsWhole.read_unread, View.ld_unit_zero (S := S2x512x1024) hz3, View.ld_unit_zero (S := S2x256x1024) hz3, View.ld_unit_zero (S := S2x512x1) hz3, View.ld_unit_zero (S := S1024x1024) hz2, View.readCov_unit_zero (S := S2x512x1) _ hz3, View.readCov_unit_zero (S := S2x512x1024) _ hz3, read_scM, read_scL, read_scA]

theorem sAcc_B_eq (c : Dev nD) (t : Fin cfg1.N) (h0 : ¬cond1_0 (grid1.coords t)) (h1 : ¬cond1_1 (grid1.coords t)) (sm : Vec F S2x512x1 .f32) (sl : Vec F S2x512x1 .f32) (sa : Vec F S2x512x1024 .f32) :
    sAcc_B V c t h0 h1 sm sl sa = k1_pay1 (k1_pay10 (blk1 V c 2 t)) (k1_pay13 (blk1 V c 0 t) (blk1 V c 1 t) sm sm) (k1_pay14 (blk1 V c 0 t) (blk1 V c 1 t) sm) sa := by
  unfold sAcc_B
  rw [View.read_writes_eq_canon _ _ _ (coverAcc_B V c t h0 h1 sm sl sa)]
  unfold runB kernelRun1_B
  dsimp only
  try sl_unfold_words
  rw [View.canon_cons_unit_zero hz3]
  simp only [View.readAt_eq_ld, Memref.IsWhole.read_unread, View.ld_unit_zero (S := S2x512x1024) hz3, View.ld_unit_zero (S := S2x256x1024) hz3, View.ld_unit_zero (S := S2x512x1) hz3, View.ld_unit_zero (S := S1024x1024) hz2, View.readCov_unit_zero (S := S2x512x1) _ hz3, View.readCov_unit_zero (S := S2x512x1024) _ hz3, read_scM, read_scL, read_scA]

/-! ## Last key/value block -/

theorem sM_C_eq (c : Dev nD) (t : Fin cfg1.N) (h0 : ¬cond1_0 (grid1.coords t)) (h1 : cond1_1 (grid1.coords t)) (sm : Vec F S2x512x1 .f32) (sl : Vec F S2x512x1 .f32) (sa : Vec F S2x512x1024 .f32) :
    sM_C V c t h0 h1 sm sl sa = k1_pay2 (k1_pay12 (blk1 V c 0 t) (blk1 V c 1 t) sm) := by
  unfold sM_C
  rw [View.read_writes_eq_canon _ _ _ (coverM_C V c t h0 h1 sm sl sa)]
  unfold runC kernelRun1_C
  dsimp only
  try sl_unfold_words
  rw [View.canon_cons_unit_zero hz3]
  simp only [View.readAt_eq_ld, Memref.IsWhole.read_unread, View.ld_unit_zero (S := S2x512x1024) hz3, View.ld_unit_zero (S := S2x256x1024) hz3, View.ld_unit_zero (S := S2x512x1) hz3, View.ld_unit_zero (S := S1024x1024) hz2, View.readCov_unit_zero (S := S2x512x1) _ hz3, View.readCov_unit_zero (S := S2x512x1024) _ hz3, read_scM, read_scL, read_scA]

theorem sL_C_eq (c : Dev nD) (t : Fin cfg1.N) (h0 : ¬cond1_0 (grid1.coords t)) (h1 : cond1_1 (grid1.coords t)) (sm : Vec F S2x512x1 .f32) (sl : Vec F S2x512x1 .f32) (sa : Vec F S2x512x1024 .f32) :
    sL_C V c t h0 h1 sm sl sa = k1_pay15 (blk1 V c 0 t) (blk1 V c 1 t) sm sm sl := by
  unfold sL_C
  rw [View.read_writes_eq_canon _ _ _ (coverL_C V c t h0 h1 sm sl sa)]
  unfold runC kernelRun1_C
  dsimp only
  try sl_unfold_words
  rw [View.canon_cons_unit_zero hz3]
  simp only [View.readAt_eq_ld, Memref.IsWhole.read_unread, View.ld_unit_zero (S := S2x512x1024) hz3, View.ld_unit_zero (S := S2x256x1024) hz3, View.ld_unit_zero (S := S2x512x1) hz3, View.ld_unit_zero (S := S1024x1024) hz2, View.readCov_unit_zero (S := S2x512x1) _ hz3, View.readCov_unit_zero (S := S2x512x1024) _ hz3, read_scM, read_scL, read_scA]

theorem sAcc_C_eq (c : Dev nD) (t : Fin cfg1.N) (h0 : ¬cond1_0 (grid1.coords t)) (h1 : cond1_1 (grid1.coords t)) (sm : Vec F S2x512x1 .f32) (sl : Vec F S2x512x1 .f32) (sa : Vec F S2x512x1024 .f32) :
    sAcc_C V c t h0 h1 sm sl sa = k1_pay1 (k1_pay10 (blk1 V c 2 t)) (k1_pay13 (blk1 V c 0 t) (blk1 V c 1 t) sm sm) (k1_pay14 (blk1 V c 0 t) (blk1 V c 1 t) sm) sa := by
  unfold sAcc_C
  rw [View.read_writes_eq_canon _ _ _ (coverAcc_C V c t h0 h1 sm sl sa)]
  unfold runC kernelRun1_C
  dsimp only
  try sl_unfold_words
  rw [View.canon_cons_unit_zero hz3]
  simp only [View.readAt_eq_ld, Memref.IsWhole.read_unread, View.ld_unit_zero (S := S2x512x1024) hz3, View.ld_unit_zero (S := S2x256x1024) hz3, View.ld_unit_zero (S := S2x512x1) hz3, View.ld_unit_zero (S := S1024x1024) hz2, View.readCov_unit_zero (S := S2x512x1) _ hz3, View.readCov_unit_zero (S := S2x512x1024) _ hz3, read_scM, read_scL, read_scA]

/-- Batch slab 0 and batch slab 1 of the output block. -/
abbrev rS0 : Rect S2x512x1024 := Rect.unit (s := S2x512x1024) ![0, 0, 0] S1x512x1024.size inb_S2x512x1024_S1x512x1024_0_0_0
abbrev rS1 : Rect S2x512x1024 := Rect.unit (s := S2x512x1024) ![1, 0, 0] S1x512x1024.size inb_S2x512x1024_S1x512x1024_1_0_0

/-- The output block at the last key/value block: two slab stores of the finished quotient against the output weights. -/
theorem sO_C_eq (c : Dev nD) (t : Fin cfg1.N) (h0 : ¬cond1_0 (grid1.coords t)) (h1 : cond1_1 (grid1.coords t)) (sm : Vec F S2x512x1 .f32) (sl : Vec F S2x512x1 .f32) (sa : Vec F S2x512x1024 .f32) :
    sO_C V c t h0 h1 sm sl sa = View.canon
      [⟨rS1, k1_pay6 (k1_pay1 (k1_pay10 (blk1 V c 2 t)) (k1_pay13 (blk1 V c 0 t) (blk1 V c 1 t) sm sm) (k1_pay14 (blk1 V c 0 t) (blk1 V c 1 t) sm) sa) (k1_pay15 (blk1 V c 0 t) (blk1 V c 1 t) sm sm sl) (blk1 V c 3 t)⟩,
       ⟨rS0, k1_pay5 (k1_pay1 (k1_pay10 (blk1 V c 2 t)) (k1_pay13 (blk1 V c 0 t) (blk1 V c 1 t) sm sm) (k1_pay14 (blk1 V c 0 t) (blk1 V c 1 t) sm) sa) (k1_pay15 (blk1 V c 0 t) (blk1 V c 1 t) sm sm sl) (blk1 V c 3 t)⟩] := by
  unfold sO_C
  rw [View.read_writes_eq_canon _ _ _ (coverO_C V c t h0 h1 sm sl sa)]
  unfold runC kernelRun1_C
  dsimp only
  try sl_unfold_words
  simp only [View.readAt_eq_ld, Memref.IsWhole.read_unread, View.ld_unit_zero (S := S2x512x1024) hz3, View.ld_unit_zero (S := S2x256x1024) hz3, View.ld_unit_zero (S := S2x512x1) hz3, View.ld_unit_zero (S := S1024x1024) hz2, View.readCov_unit_zero (S := S2x512x1) _ hz3, View.readCov_unit_zero (S := S2x512x1024) _ hz3, read_scM, read_scL, read_scA]

end Cert.KernelIdeal.Hand

end
-- ==== Proof.IdealBlocks1.lean ====
/-
  The flash-attention region's blocks as rows of its arrays.  The grid is 8 query blocks × 16 key/value blocks, point
  `t` being query block `t / 16` and key/value block `t % 16`.  The q window (and the output window) holds rows
  `512·(t/16) …` of both batches; the k and v windows hold rows `256·(t%16) …`; the output-weight window is the whole
  matrix.
-/
import proofs.«139794_j13168369730002_2_alg».proof.Proof.IdealRegion1
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The index maps, decided over the grid -/

theorem idx1_0 : ∀ t : Fin cfg1.N, win1_0.index t 0 = 0 ∧ win1_0.index t 1 = t.val / 16 ∧ win1_0.index t 2 = 0 :=
  (by decide +kernel : ∀ t : Fin grid1.N, win1_0.index t 0 = 0 ∧ win1_0.index t 1 = t.val / 16 ∧ win1_0.index t 2 = 0)
theorem idx1_1 : ∀ t : Fin cfg1.N, win1_1.index t 0 = 0 ∧ win1_1.index t 1 = t.val % 16 ∧ win1_1.index t 2 = 0 :=
  (by decide +kernel : ∀ t : Fin grid1.N, win1_1.index t 0 = 0 ∧ win1_1.index t 1 = t.val % 16 ∧ win1_1.index t 2 = 0)
theorem idx1_2 : ∀ t : Fin cfg1.N, win1_2.index t 0 = 0 ∧ win1_2.index t 1 = t.val % 16 ∧ win1_2.index t 2 = 0 :=
  (by decide +kernel : ∀ t : Fin grid1.N, win1_2.index t 0 = 0 ∧ win1_2.index t 1 = t.val % 16 ∧ win1_2.index t 2 = 0)
theorem idx1_3 : ∀ t : Fin cfg1.N, win1_3.index t 0 = 0 ∧ win1_3.index t 1 = 0 :=
  (by decide +kernel : ∀ t : Fin grid1.N, win1_3.index t 0 = 0 ∧ win1_3.index t 1 = 0)
theorem idx1_4 : ∀ t : Fin cfg1.N, win1_4.index t 0 = 0 ∧ win1_4.index t 1 = t.val / 16 ∧ win1_4.index t 2 = 0 :=
  (by decide +kernel : ∀ t : Fin grid1.N, win1_4.index t 0 = 0 ∧ win1_4.index t 1 = t.val / 16 ∧ win1_4.index t 2 = 0)

/-! ## The blocks -/

/-- The q block at point `t`: rows `512·(t/16) + ·` of the q array. -/
theorem blkQ_apply (c : Dev nD) (t : Fin cfg1.N) (y : S2x512x1024.Idx) (i : S2x4096x1024.Idx)
    (h0 : (i 0).val = (y 0).val) (h1 : (i 1).val = 512 * (t.val / 16) + (y 1).val) (h2 : (i 2).val = (y 2).val) :
    (blk1 V c 0 t : Vec F S2x512x1024 .bf16) y = (V c main_v6 : S2x4096x1024.Idx → Elt F .bf16) i := by
  obtain ⟨e0, e1, e2⟩ := idx1_0 t
  unfold blk1
  rw [View.read_apply]
  show V c main_v6 _ = V c main_v6 _
  congr 1
  funext a
  apply Fin.ext
  match a with
  | ⟨0, _⟩ => show win1_0.index t 0 * 2 + 1 * (y 0).val = (i 0).val; rw [e0, h0]; omega
  | ⟨1, _⟩ => show win1_0.index t 1 * 512 + 1 * (y 1).val = (i 1).val; rw [e1, h1]; omega
  | ⟨2, _⟩ => show win1_0.index t 2 * 1024 + 1 * (y 2).val = (i 2).val; rw [e2, h2]; omega

/-- The k block at point `t`: rows `256·(t%16) + ·` of the k array. -/
theorem blkK_apply (c : Dev nD) (t : Fin cfg1.N) (y : S2x256x1024.Idx) (i : S2x4096x1024.Idx)
    (h0 : (i 0).val = (y 0).val) (h1 : (i 1).val = 256 * (t.val % 16) + (y 1).val) (h2 : (i 2).val = (y 2).val) :
    (blk1 V c 1 t : Vec F S2x256x1024 .bf16) y = (V c main_v7 : S2x4096x1024.Idx → Elt F .bf16) i := by
  obtain ⟨e0, e1, e2⟩ := idx1_1 t
  unfold blk1
  rw [View.read_apply]
  show V c main_v7 _ = V c main_v7 _
  congr 1
  funext a
  apply Fin.ext
  match a with
  | ⟨0, _⟩ => show win1_1.index t 0 * 2 + 1 * (y 0).val = (i 0).val; rw [e0, h0]; omega
  | ⟨1, _⟩ => show win1_1.index t 1 * 256 + 1 * (y 1).val = (i 1).val; rw [e1, h1]; omega
  | ⟨2, _⟩ => show win1_1.index t 2 * 1024 + 1 * (y 2).val = (i 2).val; rw [e2, h2]; omega

/-- The v block at point `t`: rows `256·(t%16) + ·` of the v array. -/
theorem blkV_apply (c : Dev nD) (t : Fin cfg1.N) (y : S2x256x1024.Idx) (i : S2x4096x1024.Idx)
    (h0 : (i 0).val = (y 0).val) (h1 : (i 1).val = 256 * (t.val % 16) + (y 1).val) (h2 : (i 2).val = (y 2).val) :
    (blk1 V c 2 t : Vec F S2x256x1024 .bf16) y = (V c main_v8 : S2x4096x1024.Idx → Elt F .bf16) i := by
  obtain ⟨e0, e1, e2⟩ := idx1_2 t
  unfold blk1
  rw [View.read_apply]
  show V c main_v8 _ = V c main_v8 _
  congr 1
  funext a
  apply Fin.ext
  match a with
  | ⟨0, _⟩ => show win1_2.index t 0 * 2 + 1 * (y 0).val = (i 0).val; rw [e0, h0]; omega
  | ⟨1, _⟩ => show win1_2.index t 1 * 256 + 1 * (y 1).val = (i 1).val; rw [e1, h1]; omega
  | ⟨2, _⟩ => show win1_2.index t 2 * 1024 + 1 * (y 2).val = (i 2).val; rw [e2, h2]; omega

/-- The output-weight block is the whole matrix at every point. -/
theorem blkW_apply (c : Dev nD) (t : Fin cfg1.N) (y : S1024x1024.Idx) :
    (blk1 V c 3 t : Vec F S1024x1024 .bf16) y = (V c main_v4 : S1024x1024.Idx → Elt F .bf16) y := by
  obtain ⟨e0, e1⟩ := idx1_3 t
  unfold blk1
  rw [View.read_apply]
  show V c main_v4 _ = V c main_v4 _
  congr 1
  funext a
  apply Fin.ext
  match a with
  | ⟨0, _⟩ => show win1_3.index t 0 * 1024 + 1 * (y 0).val = (y 0).val; rw [e0]; omega
  | ⟨1, _⟩ => show win1_3.index t 1 * 1024 + 1 * (y 1).val = (y 1).val; rw [e1]; omega

end Cert.KernelIdeal.Hand

end
-- ==== Proof.IdealPayloads.lean ====
/-
  The pure arithmetic of the attention kernel's body, read at an index, at the ideal instance (floats are extended
  reals). Each payload of the kernel's skeleton is a function of the blocks read before it; here each is evaluated at
  explicit coordinates: the scaled scores as inner products, the row maximum and the row sum as a fold and a sum over the
  key axis, the rescaled numerator as a sum over the key axis, and the output projection as a sum over the feature axis.
-/
import proofs.«139794_j13168369730002_2_alg».proof.Proof.Gen.KernelIdeal.Skeleton
import proofs.«139794_j13168369730002_2_alg».proof.Proof.LibReshape
import Idealize.ShloMosaic.Lib.Pipeline.Value
import Idealize.ShloMosaic.Lib.ValueIdx
import Idealize.ShloMosaic.Lib.ValueLayout
import Idealize.ShloMosaic.PureOps.Ideal.Laws

set_option synthInstance.maxSize 4096

noncomputable section

namespace Cert.KernelIdeal.Pay

open Cert.KernelIdeal Cert.KernelIdeal.Gen Idealize.ShloMosaic Idealize.ShloMosaic.ValueIdx Cert.LibReshape

/-! ## Casts to the same shape and constant splats -/

/-- A cast of the row statistics block to its own shape changes nothing. -/
theorem pay2_eq (v15 : FVec Ideal S2x512x1 .f32) : k1_pay2 (F := Ideal) v15 = v15 := by
  unfold k1_pay2
  exact shapeCast_self _ _

/-- A cast of the output-projection weights to their own shape changes nothing. -/
theorem pay4_eq (v50 : Vec Ideal S1024x1024 .bf16) : k1_pay4 (F := Ideal) v50 = v50 := by
  unfold k1_pay4
  exact shapeCast_self _ _

/-- A cast of a value block to its own shape changes nothing. -/
theorem pay10_eq (v7 : Vec Ideal S2x256x1024 .bf16) : k1_pay10 (F := Ideal) v7 = v7 := by
  unfold k1_pay10
  exact shapeCast_self _ _

/-- The running maximum starts at the word of minus infinity. -/
theorem pay7_apply (b : Fin 2) (r : Fin 512) (z : Fin 1) :
    k1_pay7 (F := Ideal) (ix3 b r z) = Ideal.ofBits .f32 0xFF800000#32 := by
  unfold k1_pay7
  rw [shapeCast_self]
  rfl

/-- The running denominator starts at the zero word. -/
theorem pay8_apply (b : Fin 2) (r : Fin 512) (z : Fin 1) :
    k1_pay8 (F := Ideal) (ix3 b r z) = Ideal.ofBits .f32 0x00000000#32 := by
  unfold k1_pay8
  rw [shapeCast_self]
  rfl

/-- The running numerator starts at the zero word. -/
theorem pay9_apply (b : Fin 2) (r : Fin 512) (d : Fin 1024) :
    k1_pay9 (F := Ideal) (ix3 b r d) = Ideal.ofBits .f32 0x00000000#32 := by
  unfold k1_pay9
  rw [shapeCast_self]
  rfl

/-! ## The elementwise payloads -/

/-- The normalised output: the numerator at (b, r, d) divided by the row's denominator. -/
theorem pay3_apply (acc : Vec Ideal S2x512x1024 .f32) (l : Vec Ideal S2x512x1 .f32)
    (b : Fin 2) (r : Fin 512) (d : Fin 1024) :
    k1_pay3 (F := Ideal) acc l (ix3 b r d) = Ideal.div (acc (ix3 b r d)) (l (ix3 b r (0 : Fin 1))) := by
  unfold k1_pay3
  show Ideal.div (acc (ix3 b r d)) (broadcastTo S2x512x1024 l broadcasts_S2x512x1_S2x512x1024 (ix3 b r d)) = _
  rw [broadcastTo_ab1_abc_apply]

/-- The rescaling factor of a row: the exponential of the old maximum minus the new one. -/
theorem pay13_apply (xq : Vec Ideal S2x512x1024 .bf16) (xk : Vec Ideal S2x256x1024 .bf16)
    (m m' : Vec Ideal S2x512x1 .f32) (b : Fin 2) (r : Fin 512) (z : Fin 1) :
    k1_pay13 (F := Ideal) xq xk m m' (ix3 b r z)
      = Ideal.exp (m' (ix3 b r z) - k1_pay12 (F := Ideal) xq xk m (ix3 b r z)) := rfl

/-- The unnormalised weights: the exponential of a score minus its row's new maximum. -/
theorem pay14_apply (xq : Vec Ideal S2x512x1024 .bf16) (xk : Vec Ideal S2x256x1024 .bf16)
    (m : Vec Ideal S2x512x1 .f32) (b : Fin 2) (r : Fin 512) (j : Fin 256) :
    k1_pay14 (F := Ideal) xq xk m (ix3 b r j)
      = Ideal.exp (k1_pay11 (F := Ideal) xq xk (ix3 b r j) - k1_pay12 (F := Ideal) xq xk m (ix3 b r (0 : Fin 1))) := by
  unfold k1_pay14
  generalize k1_pay12 (F := Ideal) xq xk m = M
  generalize k1_pay11 (F := Ideal) xq xk = S
  show Ideal.exp (S (ix3 b r j) - broadcastTo S2x512x256 M broadcasts_S2x512x1_S2x512x256 (ix3 b r j)) = _
  rw [broadcastTo_ab1_abc_apply]

/-! ## The score matmul read at an index -/

/-- The score matmul's dimension numbers: batched over axis 0, contracting the feature axis of both operands. -/
abbrev DS := dot_S2x512x1024_S2x256x1024_S2x512x256_2_2_1_1_0_0

theorem lhs_scores_0 (i : S2x512x256.Idx) (q : DS.contr.Idx) : (DS.lhsIdx i q 0).val = (i 0).val := by
  unfold DotDims.lhsIdx
  rw [dif_pos (show (0 : Fin S2x512x1024.rank) ∈ DS.lhsBatch by decide)]
  rfl
theorem lhs_scores_1 (i : S2x512x256.Idx) (q : DS.contr.Idx) : (DS.lhsIdx i q 1).val = (i 1).val := by
  unfold DotDims.lhsIdx
  rw [dif_neg (show ¬(1 : Fin S2x512x1024.rank) ∈ DS.lhsBatch by decide),
    dif_pos (show (1 : Fin S2x512x1024.rank) ∈ DS.lhsNonContracting by decide)]
  rfl
theorem lhs_scores_2 (i : S2x512x256.Idx) (q : DS.contr.Idx) : (DS.lhsIdx i q 2).val = (q ⟨0, by decide⟩).val :=
  DS.lhsIdx_val_of_single rfl i q
theorem rhs_scores_0 (i : S2x512x256.Idx) (q : DS.contr.Idx) : (DS.rhsIdx i q 0).val = (i 0).val := by
  unfold DotDims.rhsIdx
  rw [dif_pos (show (0 : Fin S2x256x1024.rank) ∈ DS.rhsBatch by decide)]
  rfl
theorem rhs_scores_1 (i : S2x512x256.Idx) (q : DS.contr.Idx) : (DS.rhsIdx i q 1).val = (i 2).val := by
  unfold DotDims.rhsIdx
  rw [dif_neg (show ¬(1 : Fin S2x256x1024.rank) ∈ DS.rhsBatch by decide),
    dif_pos (show (1 : Fin S2x256x1024.rank) ∈ DS.rhsNonContracting by decide)]
  rfl
theorem rhs_scores_2 (i : S2x512x256.Idx) (q : DS.contr.Idx) : (DS.rhsIdx i q 2).val = (q ⟨0, by decide⟩).val :=
  DS.rhsIdx_val_of_single rfl i q

/-- At output index (b, r, j) and contraction coordinate k the left operand is read at (b, r, k) … -/
theorem lhs_scores (b : Fin 2) (r : Fin 512) (j : Fin 256) (k : Fin 1024) :
    DS.lhsIdx (ix3 b r j) ((contrEquiv1 DS 1024 rfl rfl).symm k) = ix3 b r k := by
  have hk := contrEquiv1_symm_val DS 1024 rfl rfl k
  exact funext fun a => Fin.ext (by
    match a with
    | ⟨0, _⟩ => exact lhs_scores_0 _ _
    | ⟨1, _⟩ => exact lhs_scores_1 _ _
    | ⟨2, _⟩ => exact (lhs_scores_2 _ _).trans hk)

/-- … and the right operand at (b, j, k). -/
theorem rhs_scores (b : Fin 2) (r : Fin 512) (j : Fin 256) (k : Fin 1024) :
    DS.rhsIdx (ix3 b r j) ((contrEquiv1 DS 1024 rfl rfl).symm k) = ix3 b j k := by
  have hk := contrEquiv1_symm_val DS 1024 rfl rfl k
  exact funext fun a => Fin.ext (by
    match a with
    | ⟨0, _⟩ => exact rhs_scores_0 _ _
    | ⟨1, _⟩ => exact rhs_scores_1 _ _
    | ⟨2, _⟩ => exact (rhs_scores_2 _ _).trans hk)

/-- A scaled score: the inner product of query row r and key row j of batch b, times the scale word. -/
theorem pay11_apply (xq : Vec Ideal S2x512x1024 .bf16) (xk : Vec Ideal S2x256x1024 .bf16)
    (b : Fin 2) (r : Fin 512) (j : Fin 256) :
    k1_pay11 (F := Ideal) xq xk (ix3 b r j)
      = (∑ d : Fin 1024, xq (ix3 b r d) * xk (ix3 b j d)) * Ideal.ofBits .f32 0x3D000000#32 := by
  unfold k1_pay11
  simp only [shapeCast_self, matmul]
  show FloatOps.matmul DS none xq xk (constant S2x512x256 .f32 0x00000000#32) (ix3 b r j) * Ideal.ofBits .f32 0x3D000000#32 = _
  rw [Ideal.matmul_constant_zero_apply, ← Equiv.sum_comp (contrEquiv1 DS 1024 rfl rfl).symm]
  refine congrArg (· * _) (Finset.sum_congr rfl fun k _ => ?_)
  rw [lhs_scores, rhs_scores]

/-! ## The row reductions -/

/-- The reduced index (b, r) with a coordinate j put back on the dropped last axis is (b, r, j). -/
theorem lift_scores (b : Fin 2) (r : Fin 512) (j : Fin 256) :
    reduces_S2x512x256_S2x512.lift (ix2 b r) j = ix3 b r j := by
  funext a
  refine Fin.ext ?_
  match a with
  | ⟨0, _⟩ => rfl
  | ⟨1, _⟩ => rfl
  | ⟨2, _⟩ => rfl

/-- The new running maximum of a row: the larger of the old one and the block's largest scaled score. -/
theorem pay12_apply (xq : Vec Ideal S2x512x1024 .bf16) (xk : Vec Ideal S2x256x1024 .bf16)
    (m : Vec Ideal S2x512x1 .f32) (b : Fin 2) (r : Fin 512) (z : Fin 1) :
    k1_pay12 (F := Ideal) xq xk m (ix3 b r z)
      = max (m (ix3 b r z)) ((Finset.univ : Finset (Fin 256)).fold max (Ideal.ofBits .f32 0xFF800000#32)
          (fun j => k1_pay11 (F := Ideal) xq xk (ix3 b r j))) := by
  unfold k1_pay12
  generalize k1_pay11 (F := Ideal) xq xk = S
  show max (m (ix3 b r z)) (shapeCast S2x512x1 (multiReduction (F := Ideal) .maximumf [2] S2x512 S 0xFF800000#32
      reduces_S2x512x256_S2x512 (.inl rfl) rfl) shapeCasts_S2x512_S2x512x1 (ix3 b r z)) = _
  rw [shapeCast_ab_ab1_apply]
  refine congrArg (max _) ?_
  refine (Ideal.multiReduction_maximumf_single S _ reduces_S2x512x256_S2x512 _ _ (ix2 b r)).trans ?_
  show (Finset.univ : Finset (Fin 256)).fold max (Ideal.ofBits .f32 0xFF800000#32) (S ∘ reduces_S2x512x256_S2x512.lift (ix2 b r)) = _
  exact Finset.fold_congr fun j _ => congrArg S (lift_scores b r j)

/-- The new running denominator of a row: the old one rescaled, plus the block's sum of weights. -/
theorem pay15_apply (xq : Vec Ideal S2x512x1024 .bf16) (xk : Vec Ideal S2x256x1024 .bf16)
    (m m' l : Vec Ideal S2x512x1 .f32) (b : Fin 2) (r : Fin 512) (z : Fin 1) :
    k1_pay15 (F := Ideal) xq xk m m' l (ix3 b r z)
      = k1_pay13 (F := Ideal) xq xk m m' (ix3 b r z) * l (ix3 b r z)
        + ∑ j : Fin 256, k1_pay14 (F := Ideal) xq xk m (ix3 b r j) := by
  unfold k1_pay15
  generalize k1_pay13 (F := Ideal) xq xk m m' = A
  generalize k1_pay14 (F := Ideal) xq xk m = P
  rw [shapeCast_self]
  show A (ix3 b r z) * l (ix3 b r z) + shapeCast S2x512x1 (multiReduction (F := Ideal) .add [2] S2x512 P 0x00000000#32
      reduces_S2x512x256_S2x512 (.inl rfl) rfl) shapeCasts_S2x512_S2x512x1 (ix3 b r z) = _
  rw [shapeCast_ab_ab1_apply]
  refine congrArg (fun t : EReal => A (ix3 b r z) * l (ix3 b r z) + t) ?_
  refine (Ideal.multiReduction_add_single P _ reduces_S2x512x256_S2x512 _ _ (ix2 b r)).trans ?_
  exact Finset.sum_congr rfl fun j _ => congrArg P (lift_scores b r j)

/-! ## The weights-times-values matmul read at an index -/

/-- The second matmul's dimension numbers: batched over axis 0, the weights' key axis against the values' key axis. -/
abbrev DV := dot_S2x512x256_S2x256x1024_S2x512x1024_2_1_1_2_0_0

theorem lhs_pv_0 (i : S2x512x1024.Idx) (q : DV.contr.Idx) : (DV.lhsIdx i q 0).val = (i 0).val := by
  unfold DotDims.lhsIdx
  rw [dif_pos (show (0 : Fin S2x512x256.rank) ∈ DV.lhsBatch by decide)]
  rfl
theorem lhs_pv_1 (i : S2x512x1024.Idx) (q : DV.contr.Idx) : (DV.lhsIdx i q 1).val = (i 1).val := by
  unfold DotDims.lhsIdx
  rw [dif_neg (show ¬(1 : Fin S2x512x256.rank) ∈ DV.lhsBatch by decide),
    dif_pos (show (1 : Fin S2x512x256.rank) ∈ DV.lhsNonContracting by decide)]
  rfl
theorem lhs_pv_2 (i : S2x512x1024.Idx) (q : DV.contr.Idx) : (DV.lhsIdx i q 2).val = (q ⟨0, by decide⟩).val :=
  DV.lhsIdx_val_of_single rfl i q
theorem rhs_pv_0 (i : S2x512x1024.Idx) (q : DV.contr.Idx) : (DV.rhsIdx i q 0).val = (i 0).val := by
  unfold DotDims.rhsIdx
  rw [dif_pos (show (0 : Fin S2x256x1024.rank) ∈ DV.rhsBatch by decide)]
  rfl
theorem rhs_pv_1 (i : S2x512x1024.Idx) (q : DV.contr.Idx) : (DV.rhsIdx i q 1).val = (q ⟨0, by decide⟩).val :=
  DV.rhsIdx_val_of_single rfl i q
theorem rhs_pv_2 (i : S2x512x1024.Idx) (q : DV.contr.Idx) : (DV.rhsIdx i q 2).val = (i 2).val := by
  unfold DotDims.rhsIdx
  rw [dif_neg (show ¬(2 : Fin S2x256x1024.rank) ∈ DV.rhsBatch by decide),
    dif_pos (show (2 : Fin S2x256x1024.rank) ∈ DV.rhsNonContracting by decide)]
  rfl

/-- At output index (b, r, d) and contraction coordinate k the weights are read at (b, r, k) … -/
theorem lhs_pv (b : Fin 2) (r : Fin 512) (d : Fin 1024) (k : Fin 256) :
    DV.lhsIdx (ix3 b r d) ((contrEquiv1 DV 256 rfl rfl).symm k) = ix3 b r k := by
  have hk := contrEquiv1_symm_val DV 256 rfl rfl k
  exact funext fun a => Fin.ext (by
    match a with
    | ⟨0, _⟩ => exact lhs_pv_0 _ _
    | ⟨1, _⟩ => exact lhs_pv_1 _ _
    | ⟨2, _⟩ => exact (lhs_pv_2 _ _).trans hk)

/-- … and the values at (b, k, d). -/
theorem rhs_pv (b : Fin 2) (r : Fin 512) (d : Fin 1024) (k : Fin 256) :
    DV.rhsIdx (ix3 b r d) ((contrEquiv1 DV 256 rfl rfl).symm k) = ix3 b k d := by
  have hk := contrEquiv1_symm_val DV 256 rfl rfl k
  exact funext fun a => Fin.ext (by
    match a with
    | ⟨0, _⟩ => exact rhs_pv_0 _ _
    | ⟨1, _⟩ => exact (rhs_pv_1 _ _).trans hk
    | ⟨2, _⟩ => exact rhs_pv_2 _ _)

/-- The new running numerator: the old one rescaled by its row's factor, plus the weights times the value block. -/
theorem pay1_apply (v8 : FVec Ideal S2x256x1024 .bf16) (v18 : FVec Ideal S2x512x1 .f32)
    (v21 : FVec Ideal S2x512x256 .f32) (acc : Vec Ideal S2x512x1024 .f32)
    (b : Fin 2) (r : Fin 512) (d : Fin 1024) :
    k1_pay1 (F := Ideal) v8 v18 v21 acc (ix3 b r d)
      = v18 (ix3 b r (0 : Fin 1)) * acc (ix3 b r d) + ∑ j : Fin 256, v21 (ix3 b r j) * v8 (ix3 b j d) := by
  unfold k1_pay1
  simp only [shapeCast_self, matmul]
  show broadcastTo S2x512x1024 v18 broadcasts_S2x512x1_S2x512x1024 (ix3 b r d) * acc (ix3 b r d)
      + FloatOps.matmul DV none (truncf .bf16 v21 bitsLt_bf16_f32) v8 (constant S2x512x1024 .f32 0x00000000#32) (ix3 b r d) = _
  rw [broadcastTo_ab1_abc_apply, Ideal.matmul_constant_zero_apply, ← Equiv.sum_comp (contrEquiv1 DV 256 rfl rfl).symm]
  refine congrArg (fun t : EReal => v18 (ix3 b r (0 : Fin 1)) * acc (ix3 b r d) + t) (Finset.sum_congr rfl fun k _ => ?_)
  rw [lhs_pv, rhs_pv, truncf_apply]

/-! ## The output projection read at an index -/

/-- The output projection's dimension numbers: rows times the weights' transposed rows, no batch axis. -/
abbrev DW := dot_S512x1024_S1024x1024_S512x1024_1_1_0_0_n_n

theorem lhs_wo_0 (i : S512x1024.Idx) (q : DW.contr.Idx) : (DW.lhsIdx i q 0).val = (i 0).val := by
  unfold DotDims.lhsIdx
  rw [dif_neg (show ¬(0 : Fin S512x1024.rank) ∈ DW.lhsBatch by decide),
    dif_pos (show (0 : Fin S512x1024.rank) ∈ DW.lhsNonContracting by decide)]
  rfl
theorem lhs_wo_1 (i : S512x1024.Idx) (q : DW.contr.Idx) : (DW.lhsIdx i q 1).val = (q ⟨0, by decide⟩).val :=
  DW.lhsIdx_val_of_single rfl i q
theorem rhs_wo_0 (i : S512x1024.Idx) (q : DW.contr.Idx) : (DW.rhsIdx i q 0).val = (i 1).val := by
  unfold DotDims.rhsIdx
  rw [dif_neg (show ¬(0 : Fin S1024x1024.rank) ∈ DW.rhsBatch by decide),
    dif_pos (show (0 : Fin S1024x1024.rank) ∈ DW.rhsNonContracting by decide)]
  rfl
theorem rhs_wo_1 (i : S512x1024.Idx) (q : DW.contr.Idx) : (DW.rhsIdx i q 1).val = (q ⟨0, by decide⟩).val :=
  DW.rhsIdx_val_of_single rfl i q

/-- At output index (r, e) and contraction coordinate k the rows are read at (r, k) … -/
theorem lhs_wo (r : Fin 512) (e : Fin 1024) (k : Fin 1024) :
    DW.lhsIdx (ix2 r e) ((contrEquiv1 DW 1024 rfl rfl).symm k) = ix2 r k := by
  have hk := contrEquiv1_symm_val DW 1024 rfl rfl k
  exact funext fun a => Fin.ext (by
    match a with
    | ⟨0, _⟩ => exact lhs_wo_0 _ _
    | ⟨1, _⟩ => exact (lhs_wo_1 _ _).trans hk)

/-- … and the weights at (e, k). -/
theorem rhs_wo (r : Fin 512) (e : Fin 1024) (k : Fin 1024) :
    DW.rhsIdx (ix2 r e) ((contrEquiv1 DW 1024 rfl rfl).symm k) = ix2 e k := by
  have hk := contrEquiv1_symm_val DW 1024 rfl rfl k
  exact funext fun a => Fin.ext (by
    match a with
    | ⟨0, _⟩ => exact rhs_wo_0 _ _
    | ⟨1, _⟩ => exact (rhs_wo_1 _ _).trans hk)

/-- The slice of one batch entry out of a two-entry block, read at (0, r, d): the block at (o, r, d), where o is the
    slice's offset on the batch axis. -/
theorem slice_batch_apply (A : S2x512x1024.Idx → EReal) (off : Fin 3 → Nat) (h : S2x512x1024.Slices off S1x512x1024)
    (o : Fin 2) (h0 : off 0 = o.val) (h1 : off 1 = 0) (h2 : off 2 = 0) (u : Fin 1) (r : Fin 512) (d : Fin 1024) :
    extractStridedSlice S1x512x1024 off A h (ix3 u r d) = A (ix3 o r d) := by
  refine extractStridedSlice_apply off A h (ix3 u r d) (ix3 o r d) fun a => ?_
  match a with
  | ⟨0, _⟩ =>
    show o.val = off 0 + u.val
    have := u.isLt
    omega
  | ⟨1, _⟩ =>
    show r.val = off 1 + r.val
    omega
  | ⟨2, _⟩ =>
    show d.val = off 2 + d.val
    omega

/-- The projected output of batch entry 0: normalised row r against row e of the projection weights. -/
theorem pay5_apply (acc : Vec Ideal S2x512x1024 .f32) (l : Vec Ideal S2x512x1 .f32) (wo : Vec Ideal S1024x1024 .bf16)
    (r : Fin 512) (e : Fin 1024) :
    k1_pay5 (F := Ideal) acc l wo (ix3 (0 : Fin 1) r e)
      = ∑ d : Fin 1024, k1_pay3 (F := Ideal) acc l (ix3 (0 : Fin 2) r d) * wo (ix2 e d) := by
  unfold k1_pay5
  generalize k1_pay3 (F := Ideal) acc l = A
  rw [pay4_eq]
  simp only [matmul]
  rw [shapeCast_ab_1ab_apply, Ideal.matmul_constant_zero_apply, ← Equiv.sum_comp (contrEquiv1 DW 1024 rfl rfl).symm]
  refine Finset.sum_congr rfl fun k _ => ?_
  rw [lhs_wo, rhs_wo, shapeCast_1ab_ab_apply]
  rw [slice_batch_apply A _ _ (0 : Fin 2) rfl rfl rfl]

/-- The projected output of batch entry 1. -/
theorem pay6_apply (acc : Vec Ideal S2x512x1024 .f32) (l : Vec Ideal S2x512x1 .f32) (wo : Vec Ideal S1024x1024 .bf16)
    (r : Fin 512) (e : Fin 1024) :
    k1_pay6 (F := Ideal) acc l wo (ix3 (0 : Fin 1) r e)
      = ∑ d : Fin 1024, k1_pay3 (F := Ideal) acc l (ix3 (1 : Fin 2) r d) * wo (ix2 e d) := by
  unfold k1_pay6
  generalize k1_pay3 (F := Ideal) acc l = A
  rw [pay4_eq]
  simp only [matmul]
  rw [shapeCast_ab_1ab_apply, Ideal.matmul_constant_zero_apply, ← Equiv.sum_comp (contrEquiv1 DW 1024 rfl rfl).symm]
  refine Finset.sum_congr rfl fun k _ => ?_
  rw [lhs_wo, rhs_wo, shapeCast_1ab_ab_apply]
  rw [slice_batch_apply A _ _ (1 : Fin 2) rfl rfl rfl]

end Cert.KernelIdeal.Pay
-- ==== Proof.Consts.lean ====
/-
  The float constants the two programs spell, as the extended reals their bit patterns denote: 1024 and its square
  root 32 (the reference divides the scores by it), 1/32 (the kernel multiplies by it), minus infinity (where both running
  maxima start) and zero.
-/
import Idealize.ShloMosaic.PureOps.Ideal

noncomputable section

namespace Cert.Consts

open Idealize.ShloMosaic

theorem ofBits_1024 : Ideal.ofBits .f32 0x44800000#32 = ((1024 : ℝ) : EReal) := by
  simp [Ideal.ofBits, Ideal.ieee, -EReal.coe_mul]; norm_num

theorem ofBits_inv32 : Ideal.ofBits .f32 0x3D000000#32 = ((1 / 32 : ℝ) : EReal) := by
  simp [Ideal.ofBits, Ideal.ieee, -EReal.coe_mul]; norm_num

theorem ofBits_neg_inf : Ideal.ofBits .f32 0xFF800000#32 = (⊥ : EReal) := by
  simp [Ideal.ofBits, Ideal.ieee]

theorem ofBits_zero : Ideal.ofBits .f32 0x00000000#32 = (0 : EReal) := by
  simp [Ideal.ofBits, Ideal.ieee]

/-- `√1024 = 32`. -/
theorem sqrt_1024 : Ideal.sqrt ((1024 : ℝ) : EReal) = ((32 : ℝ) : EReal) := by
  rw [Ideal.sqrt_coe, if_neg (by norm_num)]
  congr 1
  rw [show (1024 : ℝ) = 32 * 32 by norm_num, Real.sqrt_mul_self (by norm_num)]

/-- Dividing by `√1024` is multiplying by `1/32`, on every extended real. -/
theorem div_sqrt_1024 (x : EReal) : Ideal.div x (Ideal.sqrt (Ideal.ofBits .f32 0x44800000#32)) = x * ((1 / 32 : ℝ) : EReal) := by
  rw [ofBits_1024, sqrt_1024, Ideal.div_coe (by norm_num)]

end Cert.Consts

end
-- ==== Proof.IdealValue1a.lean ====
/-
  The flash-attention region's scratch after every grid point, at the ideal instance, when the q, k and v arrays the
  region is entered with hold real numbers.  Fix a batch `b`, a row `r` of the query block and an output column `d`.
  The scores of that row against key/value block `tt` are real numbers `xsR … tt j`, the values' column `d` there
  `wsR … tt j`.  After the point of key/value block `n` the triple (running maximum at the row, running sum at the row,
  running accumulator at the row and column) is the online softmax recurrence run over blocks `0 … n` with the running
  maxima as reference points: the first block of a query block starts it from `(-∞, 0, 0)`, which the body has just
  stored; every later block continues from what the block before left.
-/
import proofs.«139794_j13168369730002_2_alg».proof.Proof.IdealPieces
import proofs.«139794_j13168369730002_2_alg».proof.Proof.IdealBlocks1
import proofs.«139794_j13168369730002_2_alg».proof.Proof.IdealPayloads
import proofs.«139794_j13168369730002_2_alg».proof.Proof.LibOnlineSoftmax
import proofs.«139794_j13168369730002_2_alg».proof.Proof.Consts
import proofs.«139794_j13168369730002_2_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.KernelIdeal.Pay OnlineSoftmax

variable (V : (c : Dev nD) → (b : Ref sig .tc) → Buf (Elt Ideal) ((c : Thread nD τ).loc b)) (c : Dev nD)
variable (q k v : Spec.S3.Idx → ℝ)

/-- A product of two extended reals that are real numbers is the real product. -/
theorem coe_mul_of (A B : EReal) (a b : ℝ) (h1 : A = (a : EReal)) (h2 : B = (b : EReal)) : A * B = ((a * b : ℝ) : EReal) := by
  rw [h1, h2, EReal.coe_mul]

/-! ## The real numbers behind a block -/

/-- The scaled score of query row `g` against key row `kk`, in batch `b`. -/
def scR (b : Fin 2) (g kk : Fin 4096) : ℝ := (∑ d : Fin 1024, q (ix3 b g d) * k (ix3 b kk d)) * (1 / 32)
/-- Row `j` of key/value block `tt`. -/
def kvI (tt : ℕ) (j : Fin 256) : Fin 4096 := ⟨(256 * tt + j.val) % 4096, Nat.mod_lt _ (by norm_num)⟩
/-- Row `r` of the query block of grid point `n`. -/
def qRow (n : ℕ) (r : Fin 512) : Fin 4096 := ⟨(512 * (n / 16) + r.val) % 4096, Nat.mod_lt _ (by norm_num)⟩
/-- The scores of query row `g`, block by block. -/
def xsR (b : Fin 2) (g : Fin 4096) : ℕ → Fin 256 → ℝ := fun tt j => scR q k b g (kvI tt j)
/-- Column `d` of the values, block by block. -/
def wsR (b : Fin 2) (d : Fin 1024) : ℕ → Fin 256 → ℝ := fun tt j => v (ix3 b (kvI tt j) d)

section
variable (hq : (V c main_v6 : S2x4096x1024.Idx → EReal) = fun i => (q i : EReal))
variable (hk : (V c main_v7 : S2x4096x1024.Idx → EReal) = fun i => (k i : EReal))
variable (hv : (V c main_v8 : S2x4096x1024.Idx → EReal) = fun i => (v i : EReal))

include hq hk in
/-- The block of scores at a point: real numbers. -/
theorem score_at (t : Fin cfg1.N) (b : Fin 2) (r : Fin 512) (j : Fin 256) :
    k1_pay11 (F := Ideal) (blk1 V c 0 t) (blk1 V c 1 t) (ix3 b r j)
      = ((xsR q k b (qRow t.val r) (t.val % 16) j : ℝ) : EReal) := by
  have hN : t.val < 128 := lt_of_lt_of_eq t.isLt (show cfg1.N = 128 from N_1)
  rw [pay11_apply]
  have hQ : ∀ d : Fin 1024, (blk1 V c 0 t : Vec Ideal S2x512x1024 .bf16) (ix3 b r d) = ((q (ix3 b (qRow t.val r) d) : ℝ) : EReal) := fun d => by
    rw [blkQ_apply V c t (ix3 b r d) (ix3 b (qRow t.val r) d) rfl
        (by show (512 * (t.val / 16) + r.val) % 4096 = 512 * (t.val / 16) + r.val; have := r.isLt; omega) rfl, hq]
  have hK : ∀ d : Fin 1024, (blk1 V c 1 t : Vec Ideal S2x256x1024 .bf16) (ix3 b j d) = ((k (ix3 b (kvI (t.val % 16) j) d) : ℝ) : EReal) := fun d => by
    rw [blkK_apply V c t (ix3 b j d) (ix3 b (kvI (t.val % 16) j) d) rfl
        (by show (256 * (t.val % 16) + j.val) % 4096 = 256 * (t.val % 16) + j.val; have := j.isLt; omega) rfl, hk]
  refine (congrArg (fun s : EReal => s * Ideal.ofBits .f32 0x3D000000#32)
    (Finset.sum_congr rfl fun d _ => coe_mul_of _ _ _ _ (hQ d) (hK d))).trans ?_
  show (∑ d : Fin 1024, ((q (ix3 b (qRow t.val r) d) * k (ix3 b (kvI (t.val % 16) j) d) : ℝ) : EReal)) * Ideal.ofBits .f32 0x3D000000#32 = _
  rw [← coe_sum, Consts.ofBits_inv32, ← EReal.coe_mul]
  rfl

include hq hk in
/-- The new running maximum at a row. -/
theorem newmax_at (t : Fin cfg1.N) (b : Fin 2) (r : Fin 512) (m : Vec Ideal S2x512x1 .f32) :
    k1_pay12 (F := Ideal) (blk1 V c 0 t) (blk1 V c 1 t) m (ix3 b r 0)
      = max (m (ix3 b r 0)) ((Finset.univ : Finset (Fin 256)).fold max (⊥ : EReal)
          (fun j => ((xsR q k b (qRow t.val r) (t.val % 16) j : ℝ) : EReal))) := by
  rw [pay12_apply]
  simp only [score_at V c q k hq hk, Consts.ofBits_neg_inf]

include hq hk hv in
/-- THE BODY'S UPDATE AT A ROW AND COLUMN: from the scratch `sm`, `sl`, `sa` found, one running-maximum step over the
    point's block of scores and values. -/
theorem step_at (t : Fin cfg1.N) (b : Fin 2) (r : Fin 512) (d : Fin 1024)
    (sm sl : Vec Ideal S2x512x1 .f32) (sa : Vec Ideal S2x512x1024 .f32) :
    ((k1_pay2 (F := Ideal) (k1_pay12 (blk1 V c 0 t) (blk1 V c 1 t) sm) : Vec Ideal S2x512x1 .f32) (ix3 b r 0),
      (k1_pay15 (F := Ideal) (blk1 V c 0 t) (blk1 V c 1 t) sm sm sl : Vec Ideal S2x512x1 .f32) (ix3 b r 0),
      (k1_pay1 (F := Ideal) (k1_pay10 (blk1 V c 2 t)) (k1_pay13 (blk1 V c 0 t) (blk1 V c 1 t) sm sm)
        (k1_pay14 (blk1 V c 0 t) (blk1 V c 1 t) sm) sa : Vec Ideal S2x512x1024 .f32) (ix3 b r d))
      = maxStep (xsR q k b (qRow t.val r) (t.val % 16)) (wsR v b d (t.val % 16))
          (sm (ix3 b r 0)) (sl (ix3 b r 0)) (sa (ix3 b r d)) := by
  have hN : t.val < 128 := lt_of_lt_of_eq t.isLt (show cfg1.N = 128 from N_1)
  unfold maxStep
  refine Prod.ext ?_ (Prod.ext ?_ ?_)
  · show (k1_pay2 (F := Ideal) (k1_pay12 (blk1 V c 0 t) (blk1 V c 1 t) sm) : Vec Ideal S2x512x1 .f32) (ix3 b r 0) = _
    rw [pay2_eq]
    exact newmax_at V c q k hq hk t b r sm
  · show (k1_pay15 (F := Ideal) (blk1 V c 0 t) (blk1 V c 1 t) sm sm sl : Vec Ideal S2x512x1 .f32) (ix3 b r 0) = _
    rw [pay15_apply, pay13_apply, newmax_at V c q k hq hk t b r sm]
    congr 1
    refine Finset.sum_congr rfl fun j _ => ?_
    rw [pay14_apply, score_at V c q k hq hk t b r j, newmax_at V c q k hq hk t b r sm]
  · show (k1_pay1 (F := Ideal) (k1_pay10 (blk1 V c 2 t)) (k1_pay13 (blk1 V c 0 t) (blk1 V c 1 t) sm sm)
        (k1_pay14 (blk1 V c 0 t) (blk1 V c 1 t) sm) sa : Vec Ideal S2x512x1024 .f32) (ix3 b r d) = _
    rw [pay1_apply, pay13_apply, newmax_at V c q k hq hk t b r sm]
    congr 1
    refine Finset.sum_congr rfl fun j _ => ?_
    rw [pay14_apply, score_at V c q k hq hk t b r j, newmax_at V c q k hq hk t b r sm, pay10_eq,
      blkV_apply V c t (ix3 b j d) (ix3 b (kvI (t.val % 16) j) d) rfl
        (by show (256 * (t.val % 16) + j.val) % 4096 = 256 * (t.val % 16) + j.val; have := j.isLt; omega) rfl, hv]
    rfl

/-- The triple at a row and column of a 4-tuple (output, maximum, sum, accumulator). -/
def tripleAt (o : Vec Ideal S2x512x1024 .f32 × Vec Ideal S2x512x1 .f32 × Vec Ideal S2x512x1 .f32 × Vec Ideal S2x512x1024 .f32)
    (b : Fin 2) (r : Fin 512) (d : Fin 1024) : EReal × EReal × EReal :=
  (o.2.1 (ix3 b r 0), o.2.2.1 (ix3 b r 0), o.2.2.2 (ix3 b r d))

theorem qRow_pred (n : ℕ) (h : n % 16 ≠ 0) (r : Fin 512) : qRow (n - 1) r = qRow n r := by
  have : (n - 1) / 16 = n / 16 := by omega
  apply Fin.ext
  show (512 * ((n - 1) / 16) + r.val) % 4096 = (512 * (n / 16) + r.val) % 4096
  rw [this]

include hq hk hv in
/-- THE INVARIANT. After grid point `n` the triple at every row and column is the recurrence run over the key/value blocks
    `0 … n % 16` of the point's query block. -/
theorem scratch_after : ∀ (n : ℕ) (hn : n < cfg1.N) (b : Fin 2) (r : Fin 512) (d : Fin 1024),
    tripleAt (outsAt1 V c n hn) b r d
      = run (xsR q k b (qRow n r)) (wsR v b d) (runMax (xsR q k b (qRow n r))) (n % 16 + 1) := by
  intro n
  induction n using Nat.strong_induction_on with
  | _ n ih =>
  intro hn b r d
  have hN : n < 128 := lt_of_lt_of_eq hn (show cfg1.N = 128 from N_1)
  by_cases h0 : n % 16 = 0
  · have h1 : ¬n % 16 = 15 := by omega
    have hA := outsAt1_A V c ⟨n, hn⟩ h0 h1
    unfold tripleAt
    rw [show outsAt1 V c n hn = _ from hA]
    dsimp only
    rw [sM_A_eq, sL_A_eq, sAcc_A_eq, step_at V c q k v hq hk hv ⟨n, hn⟩ b r d]
    show maxStep (xsR q k b (qRow n r) (n % 16)) (wsR v b d (n % 16)) _ _ _ = _
    rw [h0, pay7_apply, pay8_apply, pay9_apply, Consts.ofBits_neg_inf, Consts.ofBits_zero]
    exact (first_block _ _).trans rfl
  · have hlt : n - 1 < cfg1.N := lt_of_le_of_lt (Nat.sub_le _ _) hn
    have IH := ih (n - 1) (by omega) hlt b r d
    rw [qRow_pred n h0 r, show (n - 1) % 16 + 1 = n % 16 from by omega] at IH
    obtain ⟨k', hk'⟩ : ∃ k', n % 16 = k' + 1 := ⟨n % 16 - 1, by omega⟩
    rw [hk'] at IH
    have e1 : (outsAt1 V c (n - 1) hlt).2.1 (ix3 b r 0) = (run (xsR q k b (qRow n r)) (wsR v b d) (runMax (xsR q k b (qRow n r))) (k' + 1)).1 :=
      congrArg Prod.fst IH
    have e2 : (outsAt1 V c (n - 1) hlt).2.2.1 (ix3 b r 0) = (run (xsR q k b (qRow n r)) (wsR v b d) (runMax (xsR q k b (qRow n r))) (k' + 1)).2.1 :=
      congrArg (fun p => p.2.1) IH
    have e3 : (outsAt1 V c (n - 1) hlt).2.2.2 (ix3 b r d) = (run (xsR q k b (qRow n r)) (wsR v b d) (runMax (xsR q k b (qRow n r))) (k' + 1)).2.2 :=
      congrArg (fun p => p.2.2) IH
    have hfin : maxStep (xsR q k b (qRow n r) (k' + 1)) (wsR v b d (k' + 1))
        ((outsAt1 V c (n - 1) hlt).2.1 (ix3 b r 0)) ((outsAt1 V c (n - 1) hlt).2.2.1 (ix3 b r 0)) ((outsAt1 V c (n - 1) hlt).2.2.2 (ix3 b r d))
        = run (xsR q k b (qRow n r)) (wsR v b d) (runMax (xsR q k b (qRow n r))) (k' + 1 + 1) := by
      rw [e1, e2, e3, run_runMax_fst]
      exact (next_block _ _ _ _ _).trans (by rw [← run_runMax_fst (xsR q k b (qRow n r)) (wsR v b d) k']; rfl)
    by_cases h1 : n % 16 = 15
    · have hC := outsAt1_C V c ⟨n, hn⟩ h0 h1
      unfold tripleAt
      rw [show outsAt1 V c n hn = _ from hC]
      dsimp only
      rw [sM_C_eq, sL_C_eq, sAcc_C_eq, step_at V c q k v hq hk hv ⟨n, hn⟩ b r d]
      show maxStep (xsR q k b (qRow n r) (n % 16)) (wsR v b d (n % 16)) _ _ _ = _
      rw [hk']
      exact hfin
    · have hB := outsAt1_B V c ⟨n, hn⟩ h0 h1
      unfold tripleAt
      rw [show outsAt1 V c n hn = _ from hB]
      dsimp only
      rw [sM_B_eq, sL_B_eq, sAcc_B_eq, step_at V c q k v hq hk hv ⟨n, hn⟩ b r d]
      show maxStep (xsR q k b (qRow n r) (n % 16)) (wsR v b d (n % 16)) _ _ _ = _
      rw [hk']
      exact hfin

end

end Cert.KernelIdeal.Hand

end
-- ==== Proof.LibCanonOff.lean ====
/-
  The contents a list of writes leaves, off the last write, without a membership.

  `View.canon_cons_of_not_mem` says that at an index outside the last write's rectangle the contents are what the
  earlier writes left, and takes the hypothesis `y ∉ r.set`.  For a rectangle of production extents a hypothesis of
  that form is costly to hand to a lemma (its set is a filtered finite type).  The same fact is stated here from the
  hypothesis that no index of the rectangle lands on `y`, which a proof gets from coordinates alone.
-/
import Idealize.ShloMosaic.Lib.Pipeline.FrameBody
import Idealize.ShloMosaic.Lib.Memref

namespace Cert.LibCanonOff

open Idealize.ShloMosaic

/-- A function overlaid on a rectangle is unchanged at an index that no index of the rectangle lands on. -/
theorem overlay_of_forall_ne {sh : Shape} {α : Type} (r : Rect sh) (X : sh.Idx → α) (G : r.shape.Idx → α) {j : sh.Idx}
    (h : ∀ x, r.emb x ≠ j) : r.overlay X G j = X j := by
  unfold Rect.overlay
  rw [preimage?_eq_none h]

/-- At an index that no index of the last write's rectangle lands on, the writes leave what the earlier ones left. -/
theorem canon_cons_of_forall_ne {Val : EltTy → Type} [∀ e, Nonempty (Val e)] {s : Shape} {e : EltTy} (r : Rect s)
    (w : r.shape.Idx → Val e) (L : List (View.Piece Val s e)) {y : s.Idx} (h : ∀ x, r.emb x ≠ y) :
    View.canon (⟨r, w⟩ :: L) y = View.canon L y := by
  rw [View.canon_cons]
  exact overlay_of_forall_ne r (View.canon L) w h

end Cert.LibCanonOff
-- ==== Proof.IdealValue1b.lean ====
/-
  The flash-attention region's result array, at the ideal instance, from real q, k, v arrays and a real output weight.
  At the last key/value block of a query block the body divides the running accumulator by the running sum — by the
  recurrence's invariant that quotient is the softmax-weighted sum of the value rows over all 4096 keys — and multiplies
  by the output weights, one batch slab at a time; the pipeline writes the block back there and nowhere else, and the
  8 written blocks cover the array.
-/
import proofs.«139794_j13168369730002_2_alg».proof.Proof.IdealValue1a
import proofs.«139794_j13168369730002_2_alg».proof.Proof.LibCanonOff

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.KernelIdeal.Pay OnlineSoftmax

variable (V : (c : Dev nD) → (b : Ref sig .tc) → Buf (Elt Ideal) ((c : Thread nD τ).loc b)) (c : Dev nD)
variable (q k v : Spec.S3.Idx → ℝ) (wo : Spec.S2.Idx → ℝ)

/-- The softmax-weighted sum of column `d` of the values for query row `g`. -/
def attR (b : Fin 2) (g : Fin 4096) (d : Fin 1024) : ℝ :=
  (∑ kk : Fin 4096, Real.exp (scR q k b g kk) * v (ix3 b kk d)) / (∑ kk : Fin 4096, Real.exp (scR q k b g kk))
/-- The result at query row `g` and output feature `e`. -/
def outR (b : Fin 2) (g : Fin 4096) (e : Fin 1024) : ℝ := ∑ d : Fin 1024, attR q k v b g d * wo (ix2 e d)
/-- The result array. -/
def outArrR : S2x4096x1024.Idx → EReal := fun i => ((outR q k v wo (i 0) (i 1) (i 2) : ℝ) : EReal)

theorem outArrR_at (i : S2x4096x1024.Idx) (b : Fin 2) (g : Fin 4096) (e : Fin 1024)
    (h0 : (i 0).val = b.val) (h1 : (i 1).val = g.val) (h2 : (i 2).val = e.val) :
    outArrR q k v wo i = ((outR q k v wo b g e : ℝ) : EReal) := by
  unfold outArrR
  have e0 : i 0 = b := Fin.ext h0
  have e1 : i 1 = g := Fin.ext h1
  have e2 : i 2 = e := Fin.ext h2
  rw [e0, e1, e2]

/-- The 16 key/value blocks of 256 rows tile the 4096 keys. -/
def kvEquiv : Fin (15 + 1) × Fin 256 ≃ Fin 4096 := finProdFinEquiv.trans (finCongr (by norm_num))
theorem kvEquiv_apply (t : Fin (15 + 1)) (j : Fin 256) : kvEquiv (t, j) = kvI t.val j := by
  apply Fin.ext
  show j.val + 256 * t.val = (256 * t.val + j.val) % 4096
  have := t.isLt; have := j.isLt; omega

section
variable (hq : (V c main_v6 : S2x4096x1024.Idx → EReal) = fun i => (q i : EReal))
variable (hk : (V c main_v7 : S2x4096x1024.Idx → EReal) = fun i => (k i : EReal))
variable (hv : (V c main_v8 : S2x4096x1024.Idx → EReal) = fun i => (v i : EReal))
variable (hw : (V c main_v4 : S1024x1024.Idx → EReal) = fun i => (wo i : EReal))

include hq hk hv in
/-- THE QUOTIENT at the last key/value block: the softmax-weighted sum over all the keys. -/
theorem quot_at (n : ℕ) (hn : n < cfg1.N) (h15 : n % 16 = 15) (b : Fin 2) (r : Fin 512) (d : Fin 1024) :
    Ideal.div ((outsAt1 V c n hn).2.2.2 (ix3 b r d)) ((outsAt1 V c n hn).2.2.1 (ix3 b r 0))
      = ((attR q k v b (qRow n r) d : ℝ) : EReal) := by
  have h := scratch_after V c q k v hq hk hv n hn b r d
  rw [h15] at h
  have e2 : (outsAt1 V c n hn).2.2.1 (ix3 b r 0) = (run (xsR q k b (qRow n r)) (wsR v b d) (runMax (xsR q k b (qRow n r))) (15 + 1)).2.1 :=
    congrArg (fun p => p.2.1) h
  have e3 : (outsAt1 V c n hn).2.2.2 (ix3 b r d) = (run (xsR q k b (qRow n r)) (wsR v b d) (runMax (xsR q k b (qRow n r))) (15 + 1)).2.2 :=
    congrArg (fun p => p.2.2) h
  rw [e2, e3]
  exact run_div_flat (xsR q k b (qRow n r)) (wsR v b d) (runMax (xsR q k b (qRow n r))) 15 kvEquiv
    (fun kk => scR q k b (qRow n r) kk) (fun kk => v (ix3 b kk d))
    (fun t j => by rw [kvEquiv_apply]; rfl) (fun t j => by rw [kvEquiv_apply]; rfl)

/-- One row of a slab of the output block: quotients that are the softmax-weighted sums, against a row of real weights. -/
theorem slab_row (acc : Vec Ideal S2x512x1024 .f32) (l : Vec Ideal S2x512x1 .f32) (xw : Vec Ideal S1024x1024 .bf16)
    (b : Fin 2) (r : Fin 512) (e : Fin 1024) (g : Fin 4096)
    (hA : ∀ d : Fin 1024, Ideal.div (acc (ix3 b r d)) (l (ix3 b r (0 : Fin 1))) = ((attR q k v b g d : ℝ) : EReal))
    (hB : ∀ d : Fin 1024, xw (ix2 e d) = ((wo (ix2 e d) : ℝ) : EReal)) :
    ∑ d : Fin 1024, k1_pay3 (F := Ideal) acc l (ix3 b r d) * xw (ix2 e d) = ((outR q k v wo b g e : ℝ) : EReal) := by
  refine (Finset.sum_congr rfl fun d _ => coe_mul_of _ _ _ _ ((pay3_apply acc l b r d).trans (hA d)) (hB d)).trans ?_
  show (∑ d : Fin 1024, ((attR q k v b g d * wo (ix2 e d) : ℝ) : EReal)) = _
  rw [← coe_sum]
  rfl

theorem emb_rS0 (r : Fin 512) (e : Fin 1024) : rS0.emb (ix3 (0 : Fin 1) r e) = ix3 (0 : Fin 2) r e := by
  funext a; apply Fin.ext
  match a with
  | ⟨0, _⟩ => rfl
  | ⟨1, _⟩ => show 0 + 1 * r.val = r.val; omega
  | ⟨2, _⟩ => show 0 + 1 * e.val = e.val; omega
theorem emb_rS1 (r : Fin 512) (e : Fin 1024) : rS1.emb (ix3 (0 : Fin 1) r e) = ix3 (1 : Fin 2) r e := by
  funext a; apply Fin.ext
  match a with
  | ⟨0, _⟩ => rfl
  | ⟨1, _⟩ => show 0 + 1 * r.val = r.val; omega
  | ⟨2, _⟩ => show 0 + 1 * e.val = e.val; omega
theorem rS1_off (r : Fin 512) (e : Fin 1024) (x : rS1.shape.Idx) : rS1.emb x ≠ ix3 (0 : Fin 2) r e := fun h => by
  have h0 := congrArg (fun i : S2x512x1024.Idx => (i 0).val) h
  have : (rS1.emb x 0).val = 1 + 1 * (x 0).val := rfl
  simp only [this] at h0
  have : ((ix3 (0 : Fin 2) r e : S2x512x1024.Idx) 0).val = 0 := rfl
  omega

include hq hk hv hw in
/-- THE OUTPUT BLOCK at the last key/value block of a query block. -/
theorem out_at (n : ℕ) (hn : n < cfg1.N) (h15 : n % 16 = 15) (b : Fin 2) (r : Fin 512) (e : Fin 1024) :
    (outsAt1 V c n hn).1 (ix3 b r e) = ((outR q k v wo b (qRow n r) e : ℝ) : EReal) := by
  have h0 : ¬n % 16 = 0 := by omega
  have hC := outsAt1_C V c ⟨n, hn⟩ h0 h15
  have hform : (outsAt1 V c n hn).1 = View.canon
      [⟨rS1, k1_pay6 (F := Ideal) (outsAt1 V c n hn).2.2.2 (outsAt1 V c n hn).2.2.1 (blk1 V c 3 ⟨n, hn⟩)⟩,
       ⟨rS0, k1_pay5 (F := Ideal) (outsAt1 V c n hn).2.2.2 (outsAt1 V c n hn).2.2.1 (blk1 V c 3 ⟨n, hn⟩)⟩] := by
    rw [show outsAt1 V c n hn = _ from hC]
    dsimp only
    rw [sO_C_eq, sAcc_C_eq, sL_C_eq]
  rw [hform]
  have hb : b = 0 ∨ b = 1 := by
    rcases b with ⟨bv, hbv⟩
    have : bv = 0 ∨ bv = 1 := by omega
    rcases this with rfl | rfl
    · left; rfl
    · right; rfl
  rcases hb with rfl | rfl
  · rw [LibCanonOff.canon_cons_of_forall_ne rS1 _ _ (rS1_off r e), ← emb_rS0 r e, View.canon_cons_emb, pay5_apply]
    exact slab_row q k v wo _ _ _ 0 r e (qRow n r) (fun d => quot_at V c q k v hq hk hv n hn h15 0 r d)
      (fun d => by rw [blkW_apply V c ⟨n, hn⟩ (ix2 e d), hw])
  · rw [← emb_rS1 r e, View.canon_cons_emb, pay6_apply]
    exact slab_row q k v wo _ _ _ 1 r e (qRow n r) (fun d => quot_at V c q k v hq hk hv n hn h15 1 r d)
      (fun d => by rw [blkW_apply V c ⟨n, hn⟩ (ix2 e d), hw])

include hq hk hv hw in
/-- What a point writes back to the result is its block of the result array. -/
theorem flushed_o (t : Fin cfg1.N) (hf : (cfg1.win 4).flush t = true) :
    (dat1 (F := Ideal) V c).flushed 4 t = ((cfg1.win 4).blk t).view.read (Elt Ideal) (outArrR q k v wo) := by
  have h15 : t.val % 16 = 15 := (flush1_4 t).mp hf
  have hN : t.val < 128 := lt_of_lt_of_eq t.isLt (show cfg1.N = 128 from N_1)
  obtain ⟨i0, i1, i2⟩ := idx1_4 t
  show (cfg1.win 4).cut (grid1.coords t) ((dat1 V c).after 4 t) = _
  rw [after1_4]
  funext y
  obtain ⟨b, r, e, rfl⟩ : ∃ (b : Fin 2) (r : Fin 512) (e : Fin 1024), y = ix3 b r e := ⟨y 0, y 1, y 2, eq_ix3 y⟩
  rw [View.read_apply]
  refine (out_at V c q k v wo hq hk hv hw t.val t.isLt h15 b r e).trans (outArrR_at q k v wo _ b (qRow t.val r) e ?_ ?_ ?_).symm
  · show win1_4.index t 0 * 2 + 1 * b.val = b.val; rw [i0]; omega
  · show win1_4.index t 1 * 512 + 1 * r.val = (512 * (t.val / 16) + r.val) % 4096; rw [i1]; have := r.isLt; omega
  · show win1_4.index t 2 * 1024 + 1 * e.val = e.val; rw [i2]; omega

theorem mem_blk_o (t : Fin cfg1.N) (i : S2x4096x1024.Idx) :
    i ∈ ((cfg1.win 4).blk t).view.set ↔ ∀ a : Fin 3, win1_4.index t a * S2x512x1024.size a ≤ (i a).val
      ∧ (i a).val < win1_4.index t a * S2x512x1024.size a + S2x512x1024.size a := by
  show i ∈ ((View.whole main_v9).slice (win1_4.rect t)).set ↔ _
  rw [View.set_slice_whole, Rect.mem_set_unit]
  exact Iff.rfl

/-- Row `g` of the result is in the block written at the last key/value block of query block `g / 512`. -/
theorem cover_o (i : S2x4096x1024.Idx) :
    ∃ t : Fin cfg1.N, (cfg1.win 4).flush t = true ∧ i ∈ ((cfg1.win 4).blk t).view.set := by
  have hi0 : (i 0).val < 2 := (i 0).isLt
  have hi1 : (i 1).val < 4096 := (i 1).isLt
  have hi2 : (i 2).val < 1024 := (i 2).isLt
  have hN : grid1.N = 128 := N_1
  obtain ⟨t, ht⟩ : ∃ t : Fin cfg1.N, t.val = 16 * ((i 1).val / 512) + 15 :=
    ⟨⟨16 * ((i 1).val / 512) + 15, by show 16 * ((i 1).val / 512) + 15 < grid1.N; rw [hN]; omega⟩, rfl⟩
  refine ⟨t, (flush1_4 t).mpr (by rw [ht]; omega), ?_⟩
  rw [mem_blk_o]
  obtain ⟨i0, i1, i2⟩ := idx1_4 t
  intro a
  match a with
  | ⟨0, _⟩ => show win1_4.index t 0 * 2 ≤ (i 0).val ∧ (i 0).val < win1_4.index t 0 * 2 + 2; rw [i0]; omega
  | ⟨1, _⟩ => show win1_4.index t 1 * 512 ≤ (i 1).val ∧ (i 1).val < win1_4.index t 1 * 512 + 512; rw [i1, ht]; omega
  | ⟨2, _⟩ => show win1_4.index t 2 * 1024 ≤ (i 2).val ∧ (i 2).val < win1_4.index t 2 * 1024 + 1024; rw [i2]; omega

include hq hk hv hw in
/-- THE RESULT ARRAY after the region. -/
theorem region1_value : (dat1 (F := Ideal) V c).arrAt 4 cfg1.N = outArrR q k v wo :=
  (dat1 V c).arrAt_eq_of_cover 4 (outArrR q k v wo) (fun t hf => flushed_o V c q k v wo hq hk hv hw t hf) cover_o

end

end Cert.KernelIdeal.Hand

end
-- ==== Proof.KernelValue.lean ====
/-
  The idealized kernel's result array, from real argument arrays: the attention output of the specification.  The first
  region leaves q, k, v as the three projections of the activations; the second region's result is the softmax-weighted
  sum of the value rows, projected by the output weights; and the score the kernel scales by 1/32 is the score the
  specification divides by 32.
-/
import proofs.«139794_j13168369730002_2_alg».proof.Proof.IdealFrame
import proofs.«139794_j13168369730002_2_alg».proof.Proof.IdealValue0Host
import proofs.«139794_j13168369730002_2_alg».proof.Proof.IdealValue1b
import proofs.«139794_j13168369730002_2_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

/-- The result of the flash-attention region on the projections is the specification's result. -/
theorem spec_match (x : Spec.S3.Idx → ℝ) (wq wk wv wo : Spec.S2.Idx → ℝ) :
    outArrR (fun i => Spec.proj x wq (i 0) (i 1) (i 2)) (fun i => Spec.proj x wk (i 0) (i 1) (i 2))
      (fun i => Spec.proj x wv (i 0) (i 1) (i 2)) wo = Spec.outArr x wq wk wv wo := by
  have hsc : ∀ (b : Fin 2) (g kk : Fin 4096),
      scR (fun i => Spec.proj x wq (i 0) (i 1) (i 2)) (fun i => Spec.proj x wk (i 0) (i 1) (i 2)) b g kk = Spec.score x wq wk b g kk := fun b g kk => by
    show (∑ d : Fin 1024, Spec.proj x wq b g d * Spec.proj x wk b kk d) * (1 / 32) = (∑ d : Fin 1024, Spec.proj x wq b g d * Spec.proj x wk b kk d) / 32
    rw [mul_one_div]
  have hat : ∀ (b : Fin 2) (g : Fin 4096) (d : Fin 1024),
      attR (fun i => Spec.proj x wq (i 0) (i 1) (i 2)) (fun i => Spec.proj x wk (i 0) (i 1) (i 2)) (fun i => Spec.proj x wv (i 0) (i 1) (i 2)) b g d
        = Spec.attn x wq wk wv b g d := fun b g d => by
    unfold attR Spec.attn
    simp only [hsc]
  have hout : ∀ (b : Fin 2) (g : Fin 4096) (e : Fin 1024),
      outR (fun i => Spec.proj x wq (i 0) (i 1) (i 2)) (fun i => Spec.proj x wk (i 0) (i 1) (i 2)) (fun i => Spec.proj x wv (i 0) (i 1) (i 2)) wo b g e
        = Spec.out x wq wk wv wo b g e := fun b g e => by
    unfold outR Spec.out
    exact Finset.sum_congr rfl fun d _ => by rw [hat]
  funext i
  exact congrArg (fun r : ℝ => (r : EReal)) (hout (i 0) (i 1) (i 2))

/-- THE KERNEL'S RESULT. -/
theorem kernel_value (m : (ℓ : Loc nD τ sig) → Buf (Elt Ideal) ℓ) (ρ : Dev nD → PrngReg) (c : Dev nD)
    (x : Spec.S3.Idx → ℝ) (wq wk wv wo : Spec.S2.Idx → ℝ)
    (h0 : m ((c : Thread nD τ).loc main_arg0) = fun i => (x i : EReal))
    (h1 : m ((c : Thread nD τ).loc main_arg1) = fun i => (wq i : EReal))
    (h2 : m ((c : Thread nD τ).loc main_arg2) = fun i => (wk i : EReal))
    (h3 : m ((c : Thread nD τ).loc main_arg3) = fun i => (wv i : EReal))
    (h4 : m ((c : Thread nD τ).loc main_arg4) = fun i => (wo i : EReal)) :
    (dat1 (F := Ideal) (V3 m ρ) c).arrAt 4 cfg1.N = Spec.outArr x wq wk wv wo := by
  obtain ⟨e6, e7, e8, e4⟩ := qkv_value m ρ c x wq wk wv wo h0 h1 h2 h3 h4
  rw [region1_value (V3 m ρ) c _ _ _ wo e6 e7 e8 e4]
  exact spec_match x wq wk wv wo

end Cert.KernelIdeal.Hand

end
-- ==== Proof.RefValue1.lean ====
/-
  The reference's projections and scaled scores, read at an index over the reals.

  Each of the three input projections is a contraction of a row of the activations with a row of a weight matrix;
  on real inputs every product and every finite sum of the extended reals is the real one.  The score is the
  contraction of a query row with a key row, divided by the square root of the constant 1024, which is 32.
-/
import proofs.«139794_j13168369730002_2_alg».proof.Proof.Gen.ReferenceIdeal.Read
import proofs.«139794_j13168369730002_2_alg».proof.Proof.Spec
import proofs.«139794_j13168369730002_2_alg».proof.Proof.Consts
import proofs.«139794_j13168369730002_2_alg».proof.Proof.LibOnlineSoftmax

noncomputable section

namespace Cert.RefValue

open Idealize.ShloMosaic Idealize.ShloMosaic.ValueIdx Cert.ReferenceIdeal Cert.ReferenceIdeal.Read

/-! ## The index functions of the contractions, by coordinates -/

theorem lidx_v0 (b : Fin 2) (s : Fin 4096) (e k : Fin 1024) : lidx_main_v0 (ix3 b s e) k = ix3 b s k := by
  funext a; match a with | ⟨0, _⟩ => rfl | ⟨1, _⟩ => rfl | ⟨2, _⟩ => rfl
theorem ridx_v0 (b : Fin 2) (s : Fin 4096) (e k : Fin 1024) : ridx_main_v0 (ix3 b s e) k = ix2 e k := by
  funext a; match a with | ⟨0, _⟩ => rfl | ⟨1, _⟩ => rfl
theorem lidx_v1 (b : Fin 2) (s : Fin 4096) (e k : Fin 1024) : lidx_main_v1 (ix3 b s e) k = ix3 b s k := by
  funext a; match a with | ⟨0, _⟩ => rfl | ⟨1, _⟩ => rfl | ⟨2, _⟩ => rfl
theorem ridx_v1 (b : Fin 2) (s : Fin 4096) (e k : Fin 1024) : ridx_main_v1 (ix3 b s e) k = ix2 e k := by
  funext a; match a with | ⟨0, _⟩ => rfl | ⟨1, _⟩ => rfl
theorem lidx_v2 (b : Fin 2) (s : Fin 4096) (e k : Fin 1024) : lidx_main_v2 (ix3 b s e) k = ix3 b s k := by
  funext a; match a with | ⟨0, _⟩ => rfl | ⟨1, _⟩ => rfl | ⟨2, _⟩ => rfl
theorem ridx_v2 (b : Fin 2) (s : Fin 4096) (e k : Fin 1024) : ridx_main_v2 (ix3 b s e) k = ix2 e k := by
  funext a; match a with | ⟨0, _⟩ => rfl | ⟨1, _⟩ => rfl
theorem lidx_v3 (b : Fin 2) (q k : Fin 4096) (d : Fin 1024) : lidx_main_v3 (ix3 b q k) d = ix3 b q d := by
  funext a; match a with | ⟨0, _⟩ => rfl | ⟨1, _⟩ => rfl | ⟨2, _⟩ => rfl
theorem ridx_v3 (b : Fin 2) (q k : Fin 4096) (d : Fin 1024) : ridx_main_v3 (ix3 b q k) d = ix3 b k d := by
  funext a; match a with | ⟨0, _⟩ => rfl | ⟨1, _⟩ => rfl | ⟨2, _⟩ => rfl

/-! ## The projections -/

/-- The query projection at (b, s, e). -/
theorem proj_v0 (x : Spec.S3.Idx → ℝ) (w : Spec.S2.Idx → ℝ) (b : Fin 2) (s : Fin 4096) (e : Fin 1024) :
    val_main_v0 (F := Ideal) (fun i => (x i : EReal)) (fun i => (w i : EReal)) (ix3 b s e)
      = ((Spec.proj x w b s e : ℝ) : EReal) := by
  rw [val_main_v0_apply]
  unfold Spec.proj
  rw [OnlineSoftmax.coe_sum]
  refine Finset.sum_congr rfl fun k _ => ?_
  rw [lidx_v0, ridx_v0, EReal.coe_mul]

/-- The key projection at (b, s, e). -/
theorem proj_v1 (x : Spec.S3.Idx → ℝ) (w : Spec.S2.Idx → ℝ) (b : Fin 2) (s : Fin 4096) (e : Fin 1024) :
    val_main_v1 (F := Ideal) (fun i => (x i : EReal)) (fun i => (w i : EReal)) (ix3 b s e)
      = ((Spec.proj x w b s e : ℝ) : EReal) := by
  rw [val_main_v1_apply]
  unfold Spec.proj
  rw [OnlineSoftmax.coe_sum]
  refine Finset.sum_congr rfl fun k _ => ?_
  rw [lidx_v1, ridx_v1, EReal.coe_mul]

/-- The value projection at (b, s, e). -/
theorem proj_v2 (x : Spec.S3.Idx → ℝ) (w : Spec.S2.Idx → ℝ) (b : Fin 2) (s : Fin 4096) (e : Fin 1024) :
    val_main_v2 (F := Ideal) (fun i => (x i : EReal)) (fun i => (w i : EReal)) (ix3 b s e)
      = ((Spec.proj x w b s e : ℝ) : EReal) := by
  rw [val_main_v2_apply]
  unfold Spec.proj
  rw [OnlineSoftmax.coe_sum]
  refine Finset.sum_congr rfl fun k _ => ?_
  rw [lidx_v2, ridx_v2, EReal.coe_mul]

/-! ## The scores -/

/-- The unscaled score at (b, q, k): the query row against the key row. -/
theorem dot_v3 (x : Spec.S3.Idx → ℝ) (wq wk : Spec.S2.Idx → ℝ) (b : Fin 2) (q k : Fin 4096) :
    val_main_v3 (F := Ideal) (fun i => (x i : EReal)) (fun i => (wq i : EReal)) (fun i => (wk i : EReal)) (ix3 b q k)
      = ((∑ d : Fin 1024, Spec.proj x wq b q d * Spec.proj x wk b k d : ℝ) : EReal) := by
  rw [val_main_v3_apply, OnlineSoftmax.coe_sum]
  refine Finset.sum_congr rfl fun d _ => ?_
  rw [lidx_v3, ridx_v3, proj_v0, proj_v1, EReal.coe_mul]

/-- The divisor of the scores: the square root of 1024, at every index. -/
theorem sqrt_v5 (i : S2x4096x4096.Idx) :
    val_main_v5 (F := Ideal) i = Ideal.sqrt (Ideal.ofBits .f32 0x44800000#32) := by
  rw [val_main_v5_apply, val_main_v4_apply, val_main_cst_apply]
  rfl

/-- The scaled score at (b, q, k). -/
theorem score_v6 (x : Spec.S3.Idx → ℝ) (wq wk : Spec.S2.Idx → ℝ) (b : Fin 2) (q k : Fin 4096) :
    val_main_v6 (F := Ideal) (fun i => (x i : EReal)) (fun i => (wq i : EReal)) (fun i => (wk i : EReal)) (ix3 b q k)
      = ((Spec.score x wq wk b q k : ℝ) : EReal) := by
  rw [val_main_v6_apply, sqrt_v5, dot_v3]
  show Ideal.div _ _ = _
  rw [Consts.div_sqrt_1024, ← EReal.coe_mul]
  unfold Spec.score
  rw [mul_one_div]

/-- The scaled score at any index, by its coordinates. -/
theorem score_v6_idx (x : Spec.S3.Idx → ℝ) (wq wk : Spec.S2.Idx → ℝ) (i : S2x4096x4096.Idx) :
    val_main_v6 (F := Ideal) (fun i => (x i : EReal)) (fun i => (wq i : EReal)) (fun i => (wk i : EReal)) i
      = ((Spec.score x wq wk (i 0) (i 1) (i 2) : ℝ) : EReal) := by
  obtain ⟨b, q, k, rfl⟩ : ∃ b q k, i = ix3 b q k := ⟨_, _, _, eq_ix3 i⟩
  exact score_v6 x wq wk b q k

end Cert.RefValue

end
-- ==== Proof.RefValue2.lean ====
/-
  The reference's row maximum, exponentials, row sums and softmax weights, read at an index over the reals.

  The maximum of a row of real scores, taken from minus infinity, is a real; which one does not matter, because the
  softmax-weighted sum is the same at every reference point.  With it every exponent is a difference of reals, the
  row sum is a positive real, and the weighted sum of the value rows is the quotient the specification writes.
-/
import proofs.«139794_j13168369730002_2_alg».proof.Proof.RefValue1

noncomputable section

namespace Cert.RefValue

open Idealize.ShloMosaic Idealize.ShloMosaic.ValueIdx Cert.ReferenceIdeal Cert.ReferenceIdeal.Read

/-! ## A maximum of reals from minus infinity -/

/-- Over a nonempty finite set, the maximum from minus infinity of reals read in the extended reals is a real. -/
theorem fold_max_bot_coe {α : Type*} (s : Finset α) (hs : s.Nonempty) (f : α → ℝ) :
    ∃ M : ℝ, s.fold max (⊥ : EReal) (fun a => (f a : EReal)) = (M : EReal) := by
  induction hs using Finset.Nonempty.cons_induction with
  | singleton a =>
    refine ⟨f a, ?_⟩
    rw [Finset.fold_singleton]
    exact max_eq_left bot_le
  | cons a s ha hs ih =>
    obtain ⟨M, hM⟩ := ih
    refine ⟨max (f a) M, ?_⟩
    rw [Finset.fold_cons, hM, OnlineSoftmax.max_coe_coe]

/-! ## The row maximum -/

/-- The axis the reductions drop, as the relation the single-axis fold is stated over. -/
theorem reduces_d2 : S2x4096x4096.Reduces [2] S2x4096 := by decide

/-- The maximum of row (b, q) of the scores is a real. -/
theorem max_v9_exists (x : Spec.S3.Idx → ℝ) (wq wk : Spec.S2.Idx → ℝ) (b : Fin 2) (q : Fin 4096) :
    ∃ M : ℝ, val_main_v9 (F := Ideal) (fun i => (x i : EReal)) (fun i => (wq i : EReal)) (fun i => (wk i : EReal)) (ix2 b q)
      = (M : EReal) := by
  rw [val_main_v9_apply, val_main_v8_apply, val_main_cst_1_apply]
  unfold val_main_v7
  rw [Host.reduce_eq_fold_single FloatOps.maximumf _ _ Gen.reducesTo_S2x4096x4096_S2x4096_d2 reduces_d2 Gen.h_S_]
  rw [val_main_cst_0_apply]
  have hf : (val_main_v6 (F := Ideal) (fun i => (x i : EReal)) (fun i => (wq i : EReal)) (fun i => (wk i : EReal))
        ∘ reduces_d2.lift (ix2 b q))
      = fun k => ((Spec.score x wq wk (reduces_d2.lift (ix2 b q) k 0) (reduces_d2.lift (ix2 b q) k 1)
          (reduces_d2.lift (ix2 b q) k 2) : ℝ) : EReal) :=
    funext fun k => score_v6_idx x wq wk _
  rw [hf]
  obtain ⟨M, hM⟩ := fold_max_bot_coe (Finset.univ : Finset (Fin (S2x4096x4096.size 2))) ⟨⟨0, by decide⟩, Finset.mem_univ _⟩
    (fun k => Spec.score x wq wk (reduces_d2.lift (ix2 b q) k 0) (reduces_d2.lift (ix2 b q) k 1)
      (reduces_d2.lift (ix2 b q) k 2))
  refine ⟨M, ?_⟩
  show max (Ideal.ofBits .f32 0xFF800000#32) (Finset.fold max (Ideal.ofBits .f32 0xFF800000#32) _ _) = _
  rw [Consts.ofBits_neg_inf, hM]
  exact max_eq_right bot_le

/-- A real the maximum of row (b, q) is. -/
def rowMax (x : Spec.S3.Idx → ℝ) (wq wk : Spec.S2.Idx → ℝ) (b : Fin 2) (q : Fin 4096) : ℝ :=
  Classical.choose (max_v9_exists x wq wk b q)

theorem max_v9 (x : Spec.S3.Idx → ℝ) (wq wk : Spec.S2.Idx → ℝ) (b : Fin 2) (q : Fin 4096) :
    val_main_v9 (F := Ideal) (fun i => (x i : EReal)) (fun i => (wq i : EReal)) (fun i => (wk i : EReal)) (ix2 b q)
      = (rowMax x wq wk b q : EReal) :=
  Classical.choose_spec (max_v9_exists x wq wk b q)

/-! ## The broadcasts of a row's value along the row -/

theorem idx_v10_v11 (b : Fin 2) (q k : Fin 4096) : idx_main_v10 (idx_main_v11 (ix3 b q k)) = ix2 b q := by
  funext a; match a with | ⟨0, _⟩ => rfl | ⟨1, _⟩ => rfl
theorem idx_v15_v16 (b : Fin 2) (q k : Fin 4096) : idx_main_v15 (idx_main_v16 (ix3 b q k)) = ix2 b q := by
  funext a; match a with | ⟨0, _⟩ => rfl | ⟨1, _⟩ => rfl
theorem idx_v14 (b : Fin 2) (q k : Fin 4096) : idx_main_v14 (ix2 b q) k = ix3 b q k := by
  funext a; match a with | ⟨0, _⟩ => rfl | ⟨1, _⟩ => rfl | ⟨2, _⟩ => rfl
theorem lidx_v18 (b : Fin 2) (q k : Fin 4096) (d : Fin 1024) : lidx_main_v18 (ix3 b q d) k = ix3 b q k := by
  funext a; match a with | ⟨0, _⟩ => rfl | ⟨1, _⟩ => rfl | ⟨2, _⟩ => rfl
theorem ridx_v18 (b : Fin 2) (q k : Fin 4096) (d : Fin 1024) : ridx_main_v18 (ix3 b q d) k = ix3 b k d := by
  funext a; match a with | ⟨0, _⟩ => rfl | ⟨1, _⟩ => rfl | ⟨2, _⟩ => rfl

/-! ## Exponentials, row sums, weights -/

/-- The exponential at (b, q, k): of the score minus the row's maximum. -/
theorem exp_v13 (x : Spec.S3.Idx → ℝ) (wq wk : Spec.S2.Idx → ℝ) (b : Fin 2) (q k : Fin 4096) :
    val_main_v13 (F := Ideal) (fun i => (x i : EReal)) (fun i => (wq i : EReal)) (fun i => (wk i : EReal)) (ix3 b q k)
      = Ideal.exp ((Spec.score x wq wk b q k : EReal) - (rowMax x wq wk b q : EReal)) := by
  rw [val_main_v13_apply, val_main_v12_apply, val_main_v11_apply, val_main_v10_apply, idx_v10_v11, max_v9, score_v6]
  rfl

/-- The row sum at (b, q). -/
theorem sum_v14 (x : Spec.S3.Idx → ℝ) (wq wk : Spec.S2.Idx → ℝ) (b : Fin 2) (q : Fin 4096) :
    val_main_v14 (F := Ideal) (fun i => (x i : EReal)) (fun i => (wq i : EReal)) (fun i => (wk i : EReal)) (ix2 b q)
      = ∑ k : Fin 4096, Ideal.exp ((Spec.score x wq wk b q k : EReal) - (rowMax x wq wk b q : EReal)) := by
  rw [val_main_v14_apply, val_main_cst_2_apply]
  show Ideal.ofBits .f32 0x00000000#32 + _ = _
  rw [Consts.ofBits_zero, zero_add]
  refine Finset.sum_congr rfl fun k _ => ?_
  rw [idx_v14, exp_v13]

/-- The softmax weight at (b, q, k). -/
theorem weight_v17 (x : Spec.S3.Idx → ℝ) (wq wk : Spec.S2.Idx → ℝ) (b : Fin 2) (q k : Fin 4096) :
    val_main_v17 (F := Ideal) (fun i => (x i : EReal)) (fun i => (wq i : EReal)) (fun i => (wk i : EReal)) (ix3 b q k)
      = Ideal.div (Ideal.exp ((Spec.score x wq wk b q k : EReal) - (rowMax x wq wk b q : EReal)))
          (∑ k' : Fin 4096, Ideal.exp ((Spec.score x wq wk b q k' : EReal) - (rowMax x wq wk b q : EReal))) := by
  rw [val_main_v17_apply, val_main_v16_apply, val_main_v15_apply, idx_v15_v16, sum_v14, exp_v13]
  rfl

/-- The attention output before the last projection, at (b, q, d). -/
theorem attn_v18 (x : Spec.S3.Idx → ℝ) (wq wk wv : Spec.S2.Idx → ℝ) (b : Fin 2) (q : Fin 4096) (d : Fin 1024) :
    val_main_v18 (F := Ideal) (fun i => (x i : EReal)) (fun i => (wq i : EReal)) (fun i => (wk i : EReal))
        (fun i => (wv i : EReal)) (ix3 b q d)
      = ((Spec.attn x wq wk wv b q d : ℝ) : EReal) := by
  rw [val_main_v18_apply]
  have h := OnlineSoftmax.softmax_dot_zero (κ := Fin 4096) (fun k => Spec.score x wq wk b q k)
    (fun k => Spec.proj x wv b k d) (rowMax x wq wk b q)
  unfold Spec.attn
  refine Eq.trans ?_ h
  refine Finset.sum_congr rfl fun k _ => ?_
  rw [lidx_v18, ridx_v18, weight_v17, proj_v2]

end Cert.RefValue

end
-- ==== Proof.RefValue.lean ====
/-
  The reference's result over the reals.

  On real inputs the reference — three projections, scaled scores, a softmax along each row computed by subtracting
  the row's maximum, the weighted sum of the value rows, and the output projection — computes, at every index, the
  real number the specification writes, read in the extended reals.
-/
import proofs.«139794_j13168369730002_2_alg».proof.Proof.RefValue2

noncomputable section

namespace Cert.RefValue

open Idealize.ShloMosaic Idealize.ShloMosaic.ValueIdx Cert.ReferenceIdeal Cert.ReferenceIdeal.Read

theorem lidx_v19 (b : Fin 2) (q : Fin 4096) (e d : Fin 1024) : lidx_main_v19 (ix3 b q e) d = ix3 b q d := by
  funext a; match a with | ⟨0, _⟩ => rfl | ⟨1, _⟩ => rfl | ⟨2, _⟩ => rfl
theorem ridx_v19 (b : Fin 2) (q : Fin 4096) (e d : Fin 1024) : ridx_main_v19 (ix3 b q e) d = ix2 e d := by
  funext a; match a with | ⟨0, _⟩ => rfl | ⟨1, _⟩ => rfl

/-- The result at (b, q, e). -/
theorem out_v19 (x : Spec.S3.Idx → ℝ) (wq wk wv wo : Spec.S2.Idx → ℝ) (b : Fin 2) (q : Fin 4096) (e : Fin 1024) :
    val_main_v19 (F := Ideal) (fun i => (x i : EReal)) (fun i => (wq i : EReal)) (fun i => (wk i : EReal))
        (fun i => (wv i : EReal)) (fun i => (wo i : EReal)) (ix3 b q e)
      = ((Spec.out x wq wk wv wo b q e : ℝ) : EReal) := by
  rw [val_main_v19_apply]
  unfold Spec.out
  rw [OnlineSoftmax.coe_sum]
  refine Finset.sum_congr rfl fun d _ => ?_
  rw [lidx_v19, ridx_v19, attn_v18, EReal.coe_mul]

/-- THE REFERENCE'S VALUE. On real inputs the array the reference returns is the specification's. -/
theorem ref_value (x : Spec.S3.Idx → ℝ) (wq wk wv wo : Spec.S2.Idx → ℝ) :
    val_main_v19 (F := Ideal) (fun i => (x i : EReal)) (fun i => (wq i : EReal)) (fun i => (wk i : EReal))
        (fun i => (wv i : EReal)) (fun i => (wo i : EReal))
      = Spec.outArr x wq wk wv wo := by
  funext i
  obtain ⟨b, q, e, rfl⟩ : ∃ b q e, i = ix3 b q e := ⟨_, _, _, eq_ix3 i⟩
  exact out_v19 x wq wk wv wo b q e

end Cert.RefValue

end
-- ==== Proof.FiniteInputs.lean ====
/-
  From the precondition to real inputs.

  The precondition is the conjunction, over the five arrays, of "every element's absolute value is below plus
  infinity".  An extended real whose absolute value `max a (-a)` is below plus infinity is neither infinity, so it is
  a real; an array of such elements is the array of those reals.
-/
import proofs.«139794_j13168369730002_2_alg».proof.Pre_finite_inputs
import proofs.«139794_j13168369730002_2_alg».proof.Proof.Spec
import Idealize.ShloMosaic.Lib.ReduceAll
import Idealize.ShloMosaic.PureOps.Ideal.Laws

noncomputable section

namespace Cert.FiniteInputs

open Idealize.ShloMosaic Idealize.ShloMosaic.ValueIdx

/-- The scalar shape has one index. -/
instance : Subsingleton Cert.Pre_finite_inputs.S_.Idx := ⟨fun a b => funext fun d => d.elim0⟩

/-- The bit pattern the precondition compares against is plus infinity. -/
theorem ofBits_pos_inf : Ideal.ofBits .f32 0x7F800000#32 = (⊤ : EReal) := by
  simp [Ideal.ofBits, Ideal.ieee]

/-- A comparison's bit is one only where the comparison holds. -/
theorem ofBool_eq_one (b : Bool) (h : BitVec.ofBool b = 1#1) : b = true := by
  cases b
  · exact absurd h (by decide)
  · rfl

/-- An extended real whose absolute value is below plus infinity is a real. -/
theorem real_of_abs_lt_top (a : EReal) (h : max a (-a) < ⊤) : ∃ r : ℝ, a = (r : EReal) := by
  induction a using EReal.rec with
  | bot => exact absurd h (by simp)
  | top => exact absurd h (by simp)
  | coe r => exact ⟨r, rfl⟩

/-- One array's conjunct: if "all elements have absolute value below plus infinity" came out true, the array is an
    array of reals. -/
theorem real_array {s : Shape} {axes : List (Fin s.rank)} (a : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (j : Cert.Pre_finite_inputs.S_.Idx)
    (e : Host.reduce IntOp.andi
          (cmpf .olt (Host.absf a) (broadcastInDim s ![] hb (constant Cert.Pre_finite_inputs.S_ .f32 0x7F800000#32)))
          (constantI Cert.Pre_finite_inputs.S_ 1 1#1) hr hu j = 1#1) :
    ∃ r : s.Idx → ℝ, a = fun i => (r i : EReal) := by
  have hall := Host.reduce_andi_all _ _ hr hu j e
  have hel : ∀ i : s.Idx, ∃ r : ℝ, a i = (r : EReal) := by
    intro i
    have hi : Ideal.cmp .olt (max (a i) (-(a i))) (Ideal.ofBits .f32 0x7F800000#32) = 1#1 := hall i
    rw [ofBits_pos_inf] at hi
    have hd : decide (max (a i) (-(a i)) < (⊤ : EReal)) = true := ofBool_eq_one _ hi
    exact real_of_abs_lt_top (a i) (of_decide_eq_true hd)
  choose r hr' using hel
  exact ⟨r, funext hr'⟩

/-- The precondition gives five arrays of reals. -/
theorem real_inputs [Cert.Pre_finite_inputs.Facts]
    (a0 : FVec Ideal Cert.Pre_finite_inputs.S2x4096x1024 .f32)
    (a1 a2 a3 a4 : FVec Ideal Cert.Pre_finite_inputs.S1024x1024 .f32)
    (h : Cert.Pre_finite_inputs.fn (F := Ideal) a0 a1 a2 a3 a4 = fun _ => 1#1) :
    ∃ (x : Cert.Spec.S3.Idx → ℝ) (wq wk wv wo : Cert.Spec.S2.Idx → ℝ),
      a0 = (fun i => (x i : EReal)) ∧ a1 = (fun i => (wq i : EReal)) ∧ a2 = (fun i => (wk i : EReal))
        ∧ a3 = (fun i => (wv i : EReal)) ∧ a4 = (fun i => (wo i : EReal)) := by
  have h0 := congrFun h ix0
  dsimp only [Cert.Pre_finite_inputs.fn, Cert.Pre_finite_inputs.fn_part1, andi] at h0
  rw [IntOp.andi_eq_one, IntOp.andi_eq_one, IntOp.andi_eq_one, IntOp.andi_eq_one] at h0
  obtain ⟨⟨⟨⟨e0, e1⟩, e2⟩, e3⟩, e4⟩ := h0
  obtain ⟨x, hx⟩ := real_array a0 _ _ _ _ e0
  obtain ⟨wq, hwq⟩ := real_array a1 _ _ _ _ e1
  obtain ⟨wk, hwk⟩ := real_array a2 _ _ _ _ e2
  obtain ⟨wv, hwv⟩ := real_array a3 _ _ _ _ e3
  obtain ⟨wo, hwo⟩ := real_array a4 _ _ _ _ e4
  exact ⟨x, wq, wk, wv, wo, hx, hwq, hwk, hwv, hwo⟩

end Cert.FiniteInputs

end
-- ==== Proof.lean ====
/-
  A fused attention kernel against its plain reference, over the extended reals.

  The kernel computes q, k, v = x · Wᵀ in one pipelined region (16 row blocks), then attention with the output
  projection fused in a second region: a grid of 8 query blocks × 16 key/value blocks, the softmax computed ONLINE —
  a running maximum, a running sum and a running accumulator kept in scratch memory across the key/value blocks of a
  query block, rescaled at each block — and, at the last key/value block, the accumulator divided by the sum and
  multiplied by Woᵀ.  The reference computes the same layer with whole-array operations: scores divided by √1024,
  softmax over each row, the weighted sum, the projection.

  Why the two agree on the extended reals, for finite inputs: every matrix product is the same finite sum of products;
  √1024 = 32 and the kernel's scale 2⁻⁵ is 1/32; and the online recurrence's quotient is the softmax-weighted sum
  whatever reference points it passed through, because exp (μ₀ - μ) · exp (s - μ₀) = exp (s - μ) (LibOnlineSoftmax).
  Finiteness is used to read every entry as a real number, so that products distribute over the sums.

  The modules: Spec (the layer over the reals), Consts, LibOnlineSoftmax; RefValue1/2, RefValue (the reference is the
  specification), FiniteInputs (finite inputs are reals); for each of the two printed kernels its regions run on
  symbolic grid points and the program's run assembled from them (…Region0, …Region1Common, …Region1RunA/B/C,
  …Region1, …Frame: the frames, and for the idealized kernel the result array named); IdealValue0, IdealValue0Host,
  IdealPayloads, IdealPieces, IdealBlocks1, IdealValue1a/b, KernelValue (the idealized kernel is the specification).
-/
import proofs.«139794_j13168369730002_2_alg».proof.Defs
import proofs.«139794_j13168369730002_2_alg».proof.Proof.Gen.Kernel
import proofs.«139794_j13168369730002_2_alg».proof.Proof.Gen.KernelIdeal
import proofs.«139794_j13168369730002_2_alg».proof.Proof.Gen.ReferenceIdeal
import proofs.«139794_j13168369730002_2_alg».proof.Proof.Gen.Pre_finite_inputs
import proofs.«139794_j13168369730002_2_alg».proof.Proof.Gen.ReferenceIdeal.Run
import proofs.«139794_j13168369730002_2_alg».proof.Proof.Gen.ReferenceIdeal.Read
import proofs.«139794_j13168369730002_2_alg».proof.Proof.BitsFrame
import proofs.«139794_j13168369730002_2_alg».proof.Proof.IdealFrame
import proofs.«139794_j13168369730002_2_alg».proof.Proof.KernelValue
import proofs.«139794_j13168369730002_2_alg».proof.Proof.RefValue
import proofs.«139794_j13168369730002_2_alg».proof.Proof.FiniteInputs
import Idealize.ShloMosaic.Adequacy
import Idealize.ShloMosaic.Init

noncomputable section

namespace Cert.Proof

open Idealize.ShloMosaic Idealize.SL.Sem

/-- The word-level kernel runs to its end, nothing faulting, its arguments unchanged. -/
theorem frame_kernel : Cert.frame_Kernel := fun m ρ _ => Cert.Kernel.Hand.frame m ρ

/-- So does the idealized kernel. -/
theorem frame_kernelIdeal : Cert.frame_KernelIdeal := fun m ρ _ => Cert.KernelIdeal.Hand.frame m ρ

/-- So does the reference: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealized kernel is the kernel's own text read at the ideal instance: no operation was rewritten. -/
theorem preserves : Cert.preserves_Kernel_KernelIdeal := trivial

/-- From finite inputs both programs end with the specification's result. -/
theorem algebraic : Cert.algebraic_KernelIdeal_ReferenceIdeal := by
  intro m ρ m' ρ' hpre hagree
  have hreal := fun c => Cert.FiniteInputs.real_inputs _ _ _ _ _ (hpre c)
  choose x wq wk wv wo hx using hreal
  refine ⟨fun c => Cert.Spec.outArr (x c) (wq c) (wk c) (wv c) (wo c), ?_, ?_⟩
  · exact (θ_run Cert.KernelIdeal.defs _ _).mono
      (fun _ h c => ⟨(h c).1.trans (Cert.KernelIdeal.Hand.kernel_value m ρ c (x c) (wq c) (wk c) (wv c) (wo c)
        (hx c).1 (hx c).2.1 (hx c).2.2.1 (hx c).2.2.2.1 (hx c).2.2.2.2), (h c).2⟩)
      (Cert.KernelIdeal.Hand.run_result m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v19_eq, (hagree c).1, (hagree c).2.1, (hagree c).2.2.1, (hagree c).2.2.2.1, (hagree c).2.2.2.2,
      (hx c).1, (hx c).2.1, (hx c).2.2.1, (hx c).2.2.2.1, (hx c).2.2.2.2]
    exact Cert.RefValue.ref_value (x c) (wq c) (wk c) (wv c) (wo c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
